-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2048 : Shape := ⟨3, ![8, 2048, 2048]⟩
abbrev S2048x1024 : Shape := ⟨2, ![2048, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S8x2048x2048 .f32) (main_arg2 : FVec F S2048x1024 .f32) (main_arg3 : FVec F S1024 .f32) (main_arg4 : FVec F S1024 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x2048x1024 : Shape := ⟨3, ![8, 2048, 1024]⟩
abbrev S8x2048x2048 : Shape := ⟨3, ![8, 2048, 2048]⟩
abbrev S2048x1024 : Shape := ⟨2, ![2048, 1024]⟩
abbrev S1024 : Shape := ⟨1, ![1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1024x1 : Shape := ⟨2, ![1024, 1]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 12
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8x2048x1024, .bf16⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .f32⟩
  | .local _ .vmem, ⟨5, _⟩ => ⟨S1x1024x512, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1, .f32⟩
  | .local _ .vmem, ⟨13, _⟩ => ⟨S1024x1, .f32⟩
  | .local _ .vmem, ⟨14, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v48 : BitVec 1 := Scalar.cmpi .eq arg2 c3_i32
  let v49 : BitVec 32 := Scalar.extui v48
  let c0_i32_29 : BitVec 32 := 0#32
  let v50 : BitVec 1 := Scalar.cmpi .ne v49 c0_i32_29
  v50

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bitsLt_bf16_f32 : FTy.bits .bf16 < FTy.bits .f32
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  inb_S2048x1024_S1024x1024_0_0 : ∀ a, (![0, 0] : Fin 2 → Nat) a + S1024x1024.size a ≤ S2048x1024.size a
  inb_S2048x1024_S1024x1024_1024_0 : ∀ a, (![1024, 0] : Fin 2 → Nat) a + S1024x1024.size a ≤ S2048x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .bf16 = 32 ∨ (Rect.block (s := S8x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .bf16 = 32 ∨ (Rect.block (s := S8x2048x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x2048x2048.size a
  hwx0_2 : ∀ i : grid0.Coords, EltTy.bits .f32 = 32 ∨ (Rect.block (s := S8x2048x2048) S1x1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S8x2048x1024.size a
  hwx0_7 : ∀ i : grid0.Coords, EltTy.bits .f32 = 32 ∨ (Rect.block (s := S8x2048x1024) S1x1024x1024.size (cc0_transform_7 i) (hinb0_7 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S2048x1024 : Shape := ⟨2, ![2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x1024, .f32⟩
  | .hbm, ⟨36, _⟩ => ⟨S8x2048x2048, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x1, .f32⟩
  | .hbm, ⟨62, _⟩ => ⟨S8x2048x1024, .f32⟩
  | .hbm, ⟨63, _⟩ => ⟨S8x2048x1024, .f32⟩
  | .hbm, ⟨64, _⟩ => ⟨S1x1x1024, .f32⟩
  | .hbm, ⟨65, _⟩ => ⟨S8x2048x1024, .f32⟩
  | .hbm, ⟨66, _⟩ => ⟨S8x2048x1024, .f32⟩
  | .hbm, ⟨67, _⟩ => ⟨S1x1x1024, .f32⟩
  | .hbm, ⟨68, _⟩ => ⟨S8x2048x1024, .f32⟩
  | .hbm, ⟨69, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  concatenates_S8x2048x1024_S8x2048x1024_S8x2048x2048_d2 : Shape.Concatenates [S8x2048x1024, S8x2048x1024] S8x2048x2048 2
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x1024_S8x2048_d2 : S8x2048x1024.ReducesTo [2] S8x2048
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x2048_S2048x1024_S8x2048x1024_2_0_01_1_n_n_wf : DotDims.WF S8x2048x2048 S2048x1024 S8x2048x1024 [2] [0] [0, 1] [1] [] []

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x2048_S2048x1024_S8x2048x1024_2_0_01_1_n_n : DotDims S8x2048x2048 S2048x1024 S8x2048x1024 where
  lhsContracting := [2]
  rhsContracting := [0]
  lhsNonContracting := [0, 1]
  rhsNonContracting := [1]
  lhsBatch := []
  rhsBatch := []
  wf := dot_S8x2048x2048_S2048x1024_S8x2048x1024_2_0_01_1_n_n_wf

class Facts : Prop extends Facts₀ where

variable [Facts]
-- ==== Proof.K.Setup.lean ====
/-
  What the three control cases of the attention body share: the buffers' contents when the region is entered
  (the host's two format changes and three reshapes applied), each window's block at a grid point, the two
  conditions of the body in closed form over the grid (the first key/value step of a query tile, where the
  running maximum, the running sum and the accumulator are reset; the last one, where the epilogue runs and
  the output tile is stored), where the output window is idle, and the staging and scratch memrefs.
-/
import proofs.«157672_j2353642078946_2_alg».proof.Proof.Gen.Kernel.Launch
import proofs.«157672_j2353642078946_2_alg».proof.Proof.Gen.Kernel.Skeleton
import proofs.«157672_j2353642078946_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (unfetched,
    the block index has not moved), for any proof data whose array is the entry contents and whose body leaves
    the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first key/value step of a query tile (grid coordinate 2 is 0): the scratch is reset. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- The last key/value step of a query tile (grid coordinate 2 is 3): the epilogue runs, the output is stored. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
/-- Away from the last step the body stores nothing into the output window, and the pipeline does not write it back. -/
theorem idleAt_7 : ∀ t : Fin cfg0.N, ¬condLast (grid0.coords t) → cfg0.idle 7 (grid0.coords t) = true := by decide +kernel
theorem noFlush_7 : ∀ t : Fin cfg0.N, ¬condLast (grid0.coords t) → (cfg0.win 7).flush t = false := by decide +kernel
theorem liveAt_7 : ∀ t : Fin cfg0.N, condLast (grid0.coords t) → cfg0.idle 7 (grid0.coords t) = false := by decide +kernel

/-! ## The staging and scratch memrefs -/

abbrev ms0 (t : Fin cfg0.N) : Memref sig .tc .vmem S1x1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x1024 .f32 := win0_7.stage (cfg0.slots t 7)
abbrev hs7 (t : Fin cfg0.N) : (ms7 t).IsWhole := hstage0_7 ((cfg0.slots t 7).cast nbuf0_7)
/-- One staging buffer of the output window, through which its contents are stated. -/
abbrev VO7 : View sig .tc .vmem S1x1024x1024 .f32 := (Memref.whole cc0_stg7_0 : Memref sig .tc .vmem S1x1024x1024 .f32).view
/-- The scratch operands: the running maximum, the running sum, the accumulator. -/
abbrev scM0 : Memref sig .tc .vmem S1024x1 .f32 := Memref.whole cc0_scratch0
abbrev scM1 : Memref sig .tc .vmem S1024x1 .f32 := Memref.whole cc0_scratch1
abbrev scM2 : Memref sig .tc .vmem S1024x1024 .f32 := Memref.whole cc0_scratch2
abbrev VS0 : View sig .tc .vmem S1024x1 .f32 := scM0.view
abbrev VS1 : View sig .tc .vmem S1024x1 .f32 := scM1.view
abbrev VS2 : View sig .tc .vmem S1024x1024 .f32 := scM2.view

/-- The scoped buffers that are no staging buffer are the three scratch operands, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

end Cert.Kernel.Hand

end
-- ==== Proof.K.RunA.lean ====
/-
  The attention body run once in the control case A.
-/
import proofs.«157672_j2353642078946_2_alg».proof.Proof.K.Setup

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first key/value step of a query tile that is not also the last: on whole staging memrefs — the inputs'
    at their contents, the output's at contents handed back untouched, the three scratch buffers at anything —
    the body runs to the continuation holding the inputs as they were and each scratch buffer with its stores
    written (the pieces are found by the run). -/
noncomputable def kernelRunA (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) :
    Σ' (LS0 : List (View.Piece (Elt F) S1024x1 .f32)) (LS1 : List (View.Piece (Elt F) S1024x1 .f32)), { LS2 : List (View.Piece (Elt F) S1024x1024 .f32) //
      ∀ (xi7 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
            ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, ?_, ?_, fun xi7 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    iexists _; iexact HS2

end Cert.Kernel.Hand

end
-- ==== Proof.K.RunB.lean ====
/-
  The attention body run once in the control case B.
-/
import proofs.«157672_j2353642078946_2_alg».proof.Proof.K.RunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A key/value step that is neither the first nor the last of its query tile: the scratch buffers hold what the
    step before left (`xs·`), the output's buffer is handed back untouched. -/
noncomputable def kernelRunB (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi7 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
            ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, ?_, ?_, fun xi7 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    iexists _; iexact HS2

end Cert.Kernel.Hand

end
-- ==== Proof.K.RunC.lean ====
/-
  The attention body run once in the control case C.
-/
import proofs.«157672_j2353642078946_2_alg».proof.Proof.K.RunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The last key/value step of a query tile (not also the first): the scratch buffers hold what the step before
    left (`xs·`); after the step's update the epilogue divides the accumulator by the running sum, multiplies by
    the two halves of the weight, adds the bias, normalizes each row and stores the output tile (its pieces found
    by the run). -/
noncomputable def kernelRunC (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    Σ' (L7 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    iexists _; iexact HS2

end Cert.Kernel.Hand

end
-- ==== Proof.K.Pieces.lean ====
/-
  What each control case of the attention body leaves in the three scratch buffers (the running maximum, the
  running sum, the accumulator) and, in the last step, in the output tile: the stores the run found, read
  back; and what the output window and the scratch hold after each grid point, by recursion on the point.
-/
import proofs.«157672_j2353642078946_2_alg».proof.Proof.K.RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces each case leaves cover their buffers -/

theorem scoverA_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (y : S1024x1.Idx) :
    ∃ pc ∈ (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).1 S1024x1.size (by sl_kernel_rfl) y
def soutA_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) : Vec F S1024x1 .f32 :=
  VS0.read (Elt F) (VS0.writes (Elt F) VS0.junk (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).1)
theorem scoverA_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (y : S1024x1.Idx) :
    ∃ pc ∈ (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.1 S1024x1.size (by sl_kernel_rfl) y
def soutA_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) : Vec F S1024x1 .f32 :=
  VS1.read (Elt F) (VS1.writes (Elt F) VS1.junk (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.1)
theorem scoverA_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (y : S1024x1024.Idx) :
    ∃ pc ∈ (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1024x1024.size (by sl_kernel_rfl) y
def soutA_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) : Vec F S1024x1024 .f32 :=
  VS2.read (Elt F) (VS2.writes (Elt F) VS2.junk (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.2.1)
theorem scoverB_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1.Idx) :
    ∃ pc ∈ (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1024x1.size (by sl_kernel_rfl) y
def soutB_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1 .f32 :=
  VS0.read (Elt F) (VS0.writes (Elt F) VS0.junk (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)
theorem scoverB_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1.Idx) :
    ∃ pc ∈ (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S1024x1.size (by sl_kernel_rfl) y
def soutB_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1 .f32 :=
  VS1.read (Elt F) (VS1.writes (Elt F) VS1.junk (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)
theorem scoverB_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1024.Idx) :
    ∃ pc ∈ (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S1024x1024.size (by sl_kernel_rfl) y
def soutB_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1024 .f32 :=
  VS2.read (Elt F) (VS2.writes (Elt F) VS2.junk (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)
theorem scoverC_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1.Idx) :
    ∃ pc ∈ (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S1024x1.size (by sl_kernel_rfl) y
def soutC_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1 .f32 :=
  VS0.read (Elt F) (VS0.writes (Elt F) VS0.junk (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)
theorem scoverC_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1.Idx) :
    ∃ pc ∈ (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S1024x1.size (by sl_kernel_rfl) y
def soutC_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1 .f32 :=
  VS1.read (Elt F) (VS1.writes (Elt F) VS1.junk (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)
theorem scoverC_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1024.Idx) :
    ∃ pc ∈ (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1 S1024x1024.size (by sl_kernel_rfl) y
def soutC_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1024 .f32 :=
  VS2.read (Elt F) (VS2.writes (Elt F) VS2.junk (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1)
theorem coverC_7 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1x1024x1024.Idx) :
    ∃ pc ∈ (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1x1024x1024.size (by sl_kernel_rfl) y
def outC_7 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1x1024x1024 .f32 :=
  VO7.read (Elt F) (VO7.writes (Elt F) VO7.junk (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

/-! ## Point by point -/

/-- What a point leaves: the output window's staging buffer, then the three scratch buffers. -/
abbrev St (F : FTy → Type) [FloatOps F] : Type := Vec F S1x1024x1024 .f32 × Vec F S1024x1 .f32 × Vec F S1024x1 .f32 × Vec F S1024x1024 .f32

/-- A first step at point `t`: nothing stored in the output window (a placeholder nothing consults), the scratch as the run leaves it. -/
def stA (c : Dev nD) (t : Fin cfg0.N) (hc0 : condFirst (grid0.coords t)) (hc1 : ¬condLast (grid0.coords t)) : St F :=
  (VO7.read (Elt F) VO7.junk, soutA_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t), soutA_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t), soutA_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t))
/-- A middle step at point `t`, over the scratch the step before left. -/
def stB (c : Dev nD) (t : Fin cfg0.N) (hc0 : ¬condFirst (grid0.coords t)) (hc1 : ¬condLast (grid0.coords t)) (xs : (Vec F S1024x1 .f32 × Vec F S1024x1 .f32 × Vec F S1024x1024 .f32)) : St F :=
  (VO7.read (Elt F) VO7.junk, soutB_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutB_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutB_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2)
/-- A last step at point `t`, over the scratch the step before left: the output tile and the scratch. -/
def stC (c : Dev nD) (t : Fin cfg0.N) (hc0 : ¬condFirst (grid0.coords t)) (hc1 : condLast (grid0.coords t)) (xs : (Vec F S1024x1 .f32 × Vec F S1024x1 .f32 × Vec F S1024x1024 .f32)) : St F :=
  (outC_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutC_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutC_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutC_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2)

/-- What the output window's staging buffer and the scratch hold after the body at position `n`: the case the closed
    forms select, run on the point's blocks, a middle or last step over what the point before left in the scratch. -/
def outsAt (c : Dev nD) : (n : ℕ) → n < cfg0.N → St F
  | 0, hn => stA m c ⟨0, hn⟩ ((hcondFirst ⟨0, hn⟩).mpr (Nat.zero_mod _)) (fun h => (by decide : ¬ (0 % 4 = 3)) ((hcondLast ⟨0, hn⟩).mp h))
  | n + 1, hn =>
    if h0 : (n + 1) % 4 = 0 then
      if h1 : (n + 1) % 4 = 3 then False.elim (by omega)
      else stA m c ⟨n + 1, hn⟩ ((hcondFirst ⟨n + 1, hn⟩).mpr h0) (fun h => h1 ((hcondLast ⟨n + 1, hn⟩).mp h))
    else
      if h1 : (n + 1) % 4 = 3 then
        stC m c ⟨n + 1, hn⟩ (fun h => h0 ((hcondFirst ⟨n + 1, hn⟩).mp h)) ((hcondLast ⟨n + 1, hn⟩).mpr h1) (outsAt c n (Nat.lt_of_succ_lt hn)).2
      else
        stB m c ⟨n + 1, hn⟩ (fun h => h0 ((hcondFirst ⟨n + 1, hn⟩).mp h)) (fun h => h1 ((hcondLast ⟨n + 1, hn⟩).mp h)) (outsAt c n (Nat.lt_of_succ_lt hn)).2

theorem outsAt_A (c : Dev nD) (t : Fin cfg0.N) (h0 : t.val % 4 = 0) (h1 : ¬t.val % 4 = 3) :
    outsAt m c t.val t.isLt = stA m c t ((hcondFirst t).mpr h0) (fun h => h1 ((hcondLast t).mp h)) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt m c t.val t.isLt = stB m c t (fun h => h0 ((hcondFirst t).mp h)) (fun h => h1 ((hcondLast t).mp h))
      (outsAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt m c t.val t.isLt = stC m c t (fun h => h0 ((hcondFirst t).mp h)) ((hcondLast t).mpr h1)
      (outsAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

end Cert.Kernel.Hand

end
-- ==== Proof.LibSharedLaunch.lean ====
/-
  A pipeline whose windows SHARE ARRAYS (one array handed to the kernel through several input windows,
  as when an attention kernel reads the same tensor as its queries and as its keys/values).

  The library's frame runs ask that the windows' arrays be pairwise distinct.  Here the arrays need not be:
  what the launch needs instead is how the distinct buffers behind the arrays, each whole at the full share,
  make the proof data's per-window holdings (`hsplit`: a buffer read by two windows is split into two
  half shares).  The kernel keeps the invariant "the scoped buffers that are no staging buffer, at some
  contents" (it draws no random bits and has no semaphore of its own).  The conclusion is the library's
  `FramePost`: every window's array ends at what the write-backs computed from the proof data leave, every
  other unscoped buffer at its contents when the region was entered.
-/
import Idealize.ShloMosaic.Lib.Pipeline.Frame

noncomputable section

namespace Cert.Lib.SharedLaunch

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀) (dats : (p : P) → (c : Dev nD) → Dat τ Val Unit ℕ (UR sig nD τ) ℕ (cfgs p) c) (p : P)
  (defs₀ : Defs nD τ sig Val Λ₀) (𝒱₀ : Variants)

/-- The frame run of a kernel whose input windows may share arrays, its invariant before the first point and
    after the last the scoped rest (`hin`, `hout`), the arrays' buffers split among the windows by `hsplit`. -/
theorem θ_run_frame_shared
    (hinj : Function.Injective (cellOf (nD := nD) (τ := τ) cfgs)) (hw : WinFacts₀ (cfgs p).spec)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp)) (fun c => unscopedRest (Ix := Unit) (Name := ℕ) (U := UR sig nD τ) (Lvl := ℕ) (cfgs p).spec c (V c))
    (fun c => by
      iintro H
      isplitr
      · iempintro
      · iexact H)
    (fun c => (show iprop(iprop(emp) ∗ scopedRest (cfgs p).spec c) ⊢ (scopedRest (cfgs p).spec c : sProp 𝕄) from by
      iintro ⟨-, H⟩; iexact H).trans (hin c))
    (fun c => (hout c).trans (by
      iintro H
      isplitr
      · iempintro
      · iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Cert.Lib.SharedLaunch

end
-- ==== Proof.K.Frame.lean ====
/-
  The frame of the attention kernel: the proof data of its one pipeline (each input window's staging buffer at its
  block; the output window's and the scratch at what the cases leave, point by point), the body obligation at a
  generic grid point by cases on the two conditions, the launch — the query window and the key/value window read one
  array, so its buffer is split into two half shares —, and the frame claim's post.
-/
import proofs.«157672_j2353642078946_2_alg».proof.Proof.K.Pieces
import proofs.«157672_j2353642078946_2_alg».proof.Proof.LibSharedLaunch

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before position `n`: before the first point the scratch buffers at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (outsAt m c n hn).2.1 ∗ owns (c : Thread nD τ) scM1 fullShare (outsAt m c n hn).2.2.1 ∗ owns (c : Thread nD τ) scM2 fullShare (outsAt m c n hn).2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (outsAt m c n hn).2.1 ∗ owns (c : Thread nD τ) scM1 fullShare (outsAt m c n hn).2.2.1 ∗ owns (c : Thread nD τ) scM2 fullShare (outsAt m c n hn).2.2.2) := rfl

theorem PhiS_pos (c : Dev nD) (n : ℕ) (h : n ≤ cfg0.N) (hz : n ≠ 0) :
    PhiS m c n h = iprop(owns (c : Thread nD τ) scM0 fullShare (outsAt m c (n - 1) (by omega)).2.1 ∗ owns (c : Thread nD τ) scM1 fullShare (outsAt m c (n - 1) (by omega)).2.2.1 ∗ owns (c : Thread nD τ) scM2 fullShare (outsAt m c (n - 1) (by omega)).2.2.2) := by
  cases n with
  | zero => exact absurd rfl hz
  | succ n => rfl

/-! ## The proof data -/

/-- The arrays as the region finds them; after the body each input's buffer at its block, the output's at what the
    cases leave; the query window and the key/value window each hold half of their common array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the inputs' buffers hold their blocks; the closed forms say which case the point is in;
    the invariant hands the body the scratch at what the point before left (at anything at the first point) and
    takes it back at this point's contents; away from the last step the output's buffer is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  rw [show (dats m 0 c).leavesExact 5 t = owns (c : Thread nD τ) (ms5 t) fullShare ((dats m 0 c).after 5 t) from by
    unfold Dat.leavesExact; rw [liveAt_5 t], after_5]
  rw [show (dats m 0 c).leavesExact 6 t = owns (c : Thread nD τ) (ms6 t) fullShare ((dats m 0 c).after 6 t) from by
    unfold Dat.leavesExact; rw [liveAt_6 t], after_6]
  have hN : t.val < 64 := lt_of_lt_of_eq t.isLt (show cfg0.N = 64 from N_0)
  by_cases h0 : t.val % 4 = 0
  · by_cases h1 : t.val % 4 = 3
    · exfalso; omega
    · have hcF : condFirst (grid0.coords t) := (hcondFirst t).mpr h0
      have hcL : ¬condLast (grid0.coords t) := fun h => h1 ((hcondLast t).mp h)
      rw [Dat.leavesExact_idle (dats m 0 c) 7 t (idleAt_7 t hcL) (noFlush_7 t hcL)]
      rw [outsAt_A m c t h0 h1]
      unfold stA soutA_0 soutA_1 soutA_2; (try dsimp only)
      by_cases hz : t.val = 0
      ·
        rw [PhiS_castSucc m c t, PhiS_zero m c _ _ hz, scopedRest_eq]
        iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverA_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
          isplitl [HS1]
          · unfold owns; iexists _; isplitr
            swap; · iexact HS1
            ipureintro; exact View.read_writes_of_cover _ _ _ _ _ (scoverA_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
          · unfold owns; iexists _; isplitr
            swap; · iexact HS2
            ipureintro; exact View.read_writes_of_cover _ _ _ _ _ (scoverA_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS_castSucc m c t, PhiS_pos m c _ _ hz]
        iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        iintro ⟨H0, H1, H2, H3, H4, H5, H6, H7, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverA_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
          isplitl [HS1]
          · unfold owns; iexists _; isplitr
            swap; · iexact HS1
            ipureintro; exact View.read_writes_of_cover _ _ _ _ _ (scoverA_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
          · unfold owns; iexists _; isplitr
            swap; · iexact HS2
            ipureintro; exact View.read_writes_of_cover _ _ _ _ _ (scoverA_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun h => h0 (by rw [h])
    by_cases h1 : t.val % 4 = 3
    · have hcF : ¬condFirst (grid0.coords t) := fun h => h0 ((hcondFirst t).mp h)
      have hcL : condLast (grid0.coords t) := (hcondLast t).mpr h1
      rw [show (dats m 0 c).leavesExact 7 t = owns (c : Thread nD τ) (ms7 t) fullShare ((dats m 0 c).after 7 t) from by
        unfold Dat.leavesExact; rw [liveAt_7 t hcL], after_7]
      rw [outsAt_C m c t h0 h1]
      unfold stC outC_7 soutC_0 soutC_1 soutC_2; (try dsimp only)
      ·
        rw [PhiS_castSucc m c t, PhiS_pos m c _ _ hz]
        iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        iintro ⟨H0, H1, H2, H3, H4, H5, H6, ⟨%e7, H7⟩, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverC_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
          isplitl [HS1]
          · unfold owns; iexists _; isplitr
            swap; · iexact HS1
            ipureintro; exact View.read_writes_of_cover _ _ _ _ _ (scoverC_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
          · unfold owns; iexists _; isplitr
            swap; · iexact HS2
            ipureintro; exact View.read_writes_of_cover _ _ _ _ _ (scoverC_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (coverC_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
    · have hcF : ¬condFirst (grid0.coords t) := fun h => h0 ((hcondFirst t).mp h)
      have hcL : ¬condLast (grid0.coords t) := fun h => h1 ((hcondLast t).mp h)
      rw [Dat.leavesExact_idle (dats m 0 c) 7 t (idleAt_7 t hcL) (noFlush_7 t hcL)]
      rw [outsAt_B m c t h0 h1]
      unfold stB soutB_0 soutB_1 soutB_2; (try dsimp only)
      ·
        rw [PhiS_castSucc m c t, PhiS_pos m c _ _ hz]
        iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverB_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
          isplitl [HS1]
          · unfold owns; iexists _; isplitr
            swap; · iexact HS1
            ipureintro; exact View.read_writes_of_cover _ _ _ _ _ (scoverB_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
          · unfold owns; iexists _; isplitr
            swap; · iexact HS2
            ipureintro; exact View.read_writes_of_cover _ _ _ _ _ (scoverB_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_eq]
  iintro ⟨HS0, HS1, HS2⟩
  isplitl [HS0]; · iexists _; iexact HS0
  isplitl [HS1]; · iexists _; iexact HS1
  iexists _; iexact HS2

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The seven distinct buffers behind the eight windows' arrays, each whole at the full share, are the windows'
    holdings: the buffer the query window and the key/value window both read is split into its two halves. -/
theorem hsplit (c : Dev nD) : (Pipeline.arrBufs spec0 c (V m c) : sProp 𝕄) ⊢ (dats m 0 c).arrays ((dats m 0 c).arrAt · 0) := by
  rw [show (dats m 0 c).arrays ((dats m 0 c).arrAt · 0)
      = bigSep Finset.univ (fun w : Fin cfg0.W => ((((c.tc : Thread nD τ).loc (Pipeline.arrRef spec0 w)) ↦{(dats m 0 c).share w} V m c (Pipeline.arrRef spec0 w)) : sProp 𝕄)) from by
    unfold Dat.arrays
    exact bigSep_congr fun w _ => by rw [(arr_whole0 w).set_eq_univ]; rfl]
  rw [show (Pipeline.arrBufs spec0 c (V m c) : sProp 𝕄)
      = iprop((((c.tc : Thread nD τ).loc main_v0) ↦{fullShare} V m c main_v0) ∗ (((c.tc : Thread nD τ).loc main_arg1) ↦{fullShare} V m c main_arg1) ∗ (((c.tc : Thread nD τ).loc main_v1) ↦{fullShare} V m c main_v1) ∗ (((c.tc : Thread nD τ).loc main_v2) ↦{fullShare} V m c main_v2) ∗ (((c.tc : Thread nD τ).loc main_v3) ↦{fullShare} V m c main_v3) ∗ (((c.tc : Thread nD τ).loc main_v4) ↦{fullShare} V m c main_v4) ∗ (((c.tc : Thread nD τ).loc main_v5) ↦{fullShare} V m c main_v5)) from by
    unfold Pipeline.arrBufs
    exact BI.bigSep_eq_bigSepL_of_eq [main_v0, main_arg1, main_v1, main_v2, main_v3, main_v4, main_v5] (by decide) (by decide) _]
  rw [bigSep_W0]
  simp only [share_0, share_1, share_2, share_3, share_4, share_5, share_6, share_7]
  iintro ⟨H0, H2, H3, H4, H5, H6, H7⟩
  ihave H0' := (pointsTo_share (PosShare.mem_left_op_right fullShare)).1 $$ H0
  icases H0' with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-- Every weakly fair execution of @main terminates, every array of the pipeline at what the write-backs computed from
    the proof data leave, every other unscoped buffer as the region found it. -/
theorem run_main : θ_run defs (onTc (τ := τ) (main (F := F))) (s₀ m ρ) (Pipeline.FramePost cfgs (dats m) 0 (V m)) :=
  Cert.Lib.SharedLaunch.θ_run_frame_shared cfgs (dats m) (0 : Fin 1) defs₀ Variants.none cellOf_inj winFacts₀0 m ρ main
    (fun c => (body_obligation m c).loose) block_pos0 arr_whole0 stage_whole0 (fun _ _ => rfl) (V m) (hmain m Variants.none)
    (hsplit m) (hin m) (hout m)

/-- The frame claim's post: every argument array ends as launched (the mask array is an input window's array, never
    written; the others bypass the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Pipeline.mem_restRefs_of _ rfl (by decide))).trans (V_main_arg0 m c),
    ((h c).1 2).trans (((dats m 0 c).arrAt_in 2 rfl _).trans ((A_eq m c 2).trans (V_main_arg1 m c))),
    ((h c).2 main_arg2 (Pipeline.mem_restRefs_of _ rfl (by decide))).trans (V_main_arg2 m c),
    ((h c).2 main_arg3 (Pipeline.mem_restRefs_of _ rfl (by decide))).trans (V_main_arg3 m c),
    ((h c).2 main_arg4 (Pipeline.mem_restRefs_of _ rfl (by decide))).trans (V_main_arg4 m c),
    ((h c).2 main_arg5 (Pipeline.mem_restRefs_of _ rfl (by decide))).trans (V_main_arg5 m c)⟩) (run_main m ρ)

end Cert.Kernel.Hand

end
-- ==== Proof.KI.Setup.lean ====
/-
  What the three control cases of the attention body share: the buffers' contents when the region is entered
  (the host's two format changes and three reshapes applied), each window's block at a grid point, the two
  conditions of the body in closed form over the grid (the first key/value step of a query tile, where the
  running maximum, the running sum and the accumulator are reset; the last one, where the epilogue runs and
  the output tile is stored), where the output window is idle, and the staging and scratch memrefs.
-/
import proofs.«157672_j2353642078946_2_alg».proof.Proof.Gen.KernelIdeal.Launch
import proofs.«157672_j2353642078946_2_alg».proof.Proof.Gen.KernelIdeal.Skeleton
import proofs.«157672_j2353642078946_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (unfetched,
    the block index has not moved), for any proof data whose array is the entry contents and whose body leaves
    the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first key/value step of a query tile (grid coordinate 2 is 0): the scratch is reset. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- The last key/value step of a query tile (grid coordinate 2 is 3): the epilogue runs, the output is stored. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
/-- Away from the last step the body stores nothing into the output window, and the pipeline does not write it back. -/
theorem idleAt_7 : ∀ t : Fin cfg0.N, ¬condLast (grid0.coords t) → cfg0.idle 7 (grid0.coords t) = true := by decide +kernel
theorem noFlush_7 : ∀ t : Fin cfg0.N, ¬condLast (grid0.coords t) → (cfg0.win 7).flush t = false := by decide +kernel
theorem liveAt_7 : ∀ t : Fin cfg0.N, condLast (grid0.coords t) → cfg0.idle 7 (grid0.coords t) = false := by decide +kernel

/-! ## The staging and scratch memrefs -/

abbrev ms0 (t : Fin cfg0.N) : Memref sig .tc .vmem S1x1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x1024 .f32 := win0_7.stage (cfg0.slots t 7)
abbrev hs7 (t : Fin cfg0.N) : (ms7 t).IsWhole := hstage0_7 ((cfg0.slots t 7).cast nbuf0_7)
/-- One staging buffer of the output window, through which its contents are stated. -/
abbrev VO7 : View sig .tc .vmem S1x1024x1024 .f32 := (Memref.whole cc0_stg7_0 : Memref sig .tc .vmem S1x1024x1024 .f32).view
/-- The scratch operands: the running maximum, the running sum, the accumulator. -/
abbrev scM0 : Memref sig .tc .vmem S1024x1 .f32 := Memref.whole cc0_scratch0
abbrev scM1 : Memref sig .tc .vmem S1024x1 .f32 := Memref.whole cc0_scratch1
abbrev scM2 : Memref sig .tc .vmem S1024x1024 .f32 := Memref.whole cc0_scratch2
abbrev VS0 : View sig .tc .vmem S1024x1 .f32 := scM0.view
abbrev VS1 : View sig .tc .vmem S1024x1 .f32 := scM1.view
abbrev VS2 : View sig .tc .vmem S1024x1024 .f32 := scM2.view

/-- The scoped buffers that are no staging buffer are the three scratch operands, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

end Cert.KernelIdeal.Hand

end
-- ==== Proof.KI.RunA.lean ====
/-
  The attention body run once in the control case A.
-/
import proofs.«157672_j2353642078946_2_alg».proof.Proof.KI.Setup

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first key/value step of a query tile that is not also the last: on whole staging memrefs — the inputs'
    at their contents, the output's at contents handed back untouched, the three scratch buffers at anything —
    the body runs to the continuation holding the inputs as they were and each scratch buffer with its stores
    written (the pieces are found by the run). -/
noncomputable def kernelRunA (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) :
    Σ' (LS0 : List (View.Piece (Elt F) S1024x1 .f32)) (LS1 : List (View.Piece (Elt F) S1024x1 .f32)), { LS2 : List (View.Piece (Elt F) S1024x1024 .f32) //
      ∀ (xi7 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
            ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, ?_, ?_, fun xi7 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    iexists _; iexact HS2

end Cert.KernelIdeal.Hand

end
-- ==== Proof.KI.RunB.lean ====
/-
  The attention body run once in the control case B.
-/
import proofs.«157672_j2353642078946_2_alg».proof.Proof.KI.RunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A key/value step that is neither the first nor the last of its query tile: the scratch buffers hold what the
    step before left (`xs·`), the output's buffer is handed back untouched. -/
noncomputable def kernelRunB (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi7 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
            ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, ?_, ?_, fun xi7 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    iexists _; iexact HS2

end Cert.KernelIdeal.Hand

end
-- ==== Proof.KI.RunC.lean ====
/-
  The attention body run once in the control case C.
-/
import proofs.«157672_j2353642078946_2_alg».proof.Proof.KI.RunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The last key/value step of a query tile (not also the first): the scratch buffers hold what the step before
    left (`xs·`); after the step's update the epilogue divides the accumulator by the running sum, multiplies by
    the two halves of the weight, adds the bias, normalizes each row and stores the output tile (its pieces found
    by the run). -/
noncomputable def kernelRunC (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    Σ' (L7 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
            ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    iexists _; iexact HS2

end Cert.KernelIdeal.Hand

end
-- ==== Proof.KI.Pieces.lean ====
/-
  What each control case of the attention body leaves in the three scratch buffers (the running maximum, the
  running sum, the accumulator) and, in the last step, in the output tile: the stores the run found, read
  back; and what the output window and the scratch hold after each grid point, by recursion on the point.
-/
import proofs.«157672_j2353642078946_2_alg».proof.Proof.KI.RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces each case leaves cover their buffers -/

theorem scoverA_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (y : S1024x1.Idx) :
    ∃ pc ∈ (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).1 S1024x1.size (by sl_kernel_rfl) y
def soutA_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) : Vec F S1024x1 .f32 :=
  VS0.read (Elt F) (VS0.writes (Elt F) VS0.junk (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).1)
theorem scoverA_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (y : S1024x1.Idx) :
    ∃ pc ∈ (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.1 S1024x1.size (by sl_kernel_rfl) y
def soutA_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) : Vec F S1024x1 .f32 :=
  VS1.read (Elt F) (VS1.writes (Elt F) VS1.junk (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.1)
theorem scoverA_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (y : S1024x1024.Idx) :
    ∃ pc ∈ (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1024x1024.size (by sl_kernel_rfl) y
def soutA_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) : Vec F S1024x1024 .f32 :=
  VS2.read (Elt F) (VS2.writes (Elt F) VS2.junk (kernelRunA c i arg3 harg3 arg4 harg4 arg5 harg5 arg6 harg6 arg7 harg7 arg8 harg8 arg9 harg9 arg10 harg10 arg11 harg11 arg12 harg12 arg13 harg13 hc0 hc1 x0 x1 x2 x3 x4 x5 x6).2.2.1)
theorem scoverB_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1.Idx) :
    ∃ pc ∈ (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1024x1.size (by sl_kernel_rfl) y
def soutB_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1 .f32 :=
  VS0.read (Elt F) (VS0.writes (Elt F) VS0.junk (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)
theorem scoverB_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1.Idx) :
    ∃ pc ∈ (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S1024x1.size (by sl_kernel_rfl) y
def soutB_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1 .f32 :=
  VS1.read (Elt F) (VS1.writes (Elt F) VS1.junk (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)
theorem scoverB_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1024.Idx) :
    ∃ pc ∈ (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S1024x1024.size (by sl_kernel_rfl) y
def soutB_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1024 .f32 :=
  VS2.read (Elt F) (VS2.writes (Elt F) VS2.junk (kernelRunB c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)
theorem scoverC_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1.Idx) :
    ∃ pc ∈ (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S1024x1.size (by sl_kernel_rfl) y
def soutC_0 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1 .f32 :=
  VS0.read (Elt F) (VS0.writes (Elt F) VS0.junk (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)
theorem scoverC_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1.Idx) :
    ∃ pc ∈ (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S1024x1.size (by sl_kernel_rfl) y
def soutC_1 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1 .f32 :=
  VS1.read (Elt F) (VS1.writes (Elt F) VS1.junk (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)
theorem scoverC_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1024x1024.Idx) :
    ∃ pc ∈ (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1 S1024x1024.size (by sl_kernel_rfl) y
def soutC_2 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1024x1024 .f32 :=
  VS2.read (Elt F) (VS2.writes (Elt F) VS2.junk (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1)
theorem coverC_7 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) (y : S1x1024x1024.Idx) :
    ∃ pc ∈ (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1x1024x1024.size (by sl_kernel_rfl) y
def outC_7 (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) : Vec F S1x1024x1024 .f32 :=
  VO7.read (Elt F) (VO7.writes (Elt F) VO7.junk (kernelRunC c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

/-! ## Point by point -/

/-- What a point leaves: the output window's staging buffer, then the three scratch buffers. -/
abbrev St (F : FTy → Type) [FloatOps F] : Type := Vec F S1x1024x1024 .f32 × Vec F S1024x1 .f32 × Vec F S1024x1 .f32 × Vec F S1024x1024 .f32

/-- A first step at point `t`: nothing stored in the output window (a placeholder nothing consults), the scratch as the run leaves it. -/
def stA (c : Dev nD) (t : Fin cfg0.N) (hc0 : condFirst (grid0.coords t)) (hc1 : ¬condLast (grid0.coords t)) : St F :=
  (VO7.read (Elt F) VO7.junk, soutA_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t), soutA_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t), soutA_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t))
/-- A middle step at point `t`, over the scratch the step before left. -/
def stB (c : Dev nD) (t : Fin cfg0.N) (hc0 : ¬condFirst (grid0.coords t)) (hc1 : ¬condLast (grid0.coords t)) (xs : (Vec F S1024x1 .f32 × Vec F S1024x1 .f32 × Vec F S1024x1024 .f32)) : St F :=
  (VO7.read (Elt F) VO7.junk, soutB_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutB_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutB_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2)
/-- A last step at point `t`, over the scratch the step before left: the output tile and the scratch. -/
def stC (c : Dev nD) (t : Fin cfg0.N) (hc0 : ¬condFirst (grid0.coords t)) (hc1 : condLast (grid0.coords t)) (xs : (Vec F S1024x1 .f32 × Vec F S1024x1 .f32 × Vec F S1024x1024 .f32)) : St F :=
  (outC_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutC_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutC_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2, soutC_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) xs.1 xs.2.1 xs.2.2)

/-- What the output window's staging buffer and the scratch hold after the body at position `n`: the case the closed
    forms select, run on the point's blocks, a middle or last step over what the point before left in the scratch. -/
def outsAt (c : Dev nD) : (n : ℕ) → n < cfg0.N → St F
  | 0, hn => stA m c ⟨0, hn⟩ ((hcondFirst ⟨0, hn⟩).mpr (Nat.zero_mod _)) (fun h => (by decide : ¬ (0 % 4 = 3)) ((hcondLast ⟨0, hn⟩).mp h))
  | n + 1, hn =>
    if h0 : (n + 1) % 4 = 0 then
      if h1 : (n + 1) % 4 = 3 then False.elim (by omega)
      else stA m c ⟨n + 1, hn⟩ ((hcondFirst ⟨n + 1, hn⟩).mpr h0) (fun h => h1 ((hcondLast ⟨n + 1, hn⟩).mp h))
    else
      if h1 : (n + 1) % 4 = 3 then
        stC m c ⟨n + 1, hn⟩ (fun h => h0 ((hcondFirst ⟨n + 1, hn⟩).mp h)) ((hcondLast ⟨n + 1, hn⟩).mpr h1) (outsAt c n (Nat.lt_of_succ_lt hn)).2
      else
        stB m c ⟨n + 1, hn⟩ (fun h => h0 ((hcondFirst ⟨n + 1, hn⟩).mp h)) (fun h => h1 ((hcondLast ⟨n + 1, hn⟩).mp h)) (outsAt c n (Nat.lt_of_succ_lt hn)).2

theorem outsAt_A (c : Dev nD) (t : Fin cfg0.N) (h0 : t.val % 4 = 0) (h1 : ¬t.val % 4 = 3) :
    outsAt m c t.val t.isLt = stA m c t ((hcondFirst t).mpr h0) (fun h => h1 ((hcondLast t).mp h)) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt m c t.val t.isLt = stB m c t (fun h => h0 ((hcondFirst t).mp h)) (fun h => h1 ((hcondLast t).mp h))
      (outsAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt m c t.val t.isLt = stC m c t (fun h => h0 ((hcondFirst t).mp h)) ((hcondLast t).mpr h1)
      (outsAt m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

end Cert.KernelIdeal.Hand

end
-- ==== Proof.KI.Frame.lean ====
/-
  The frame of the attention kernel: the proof data of its one pipeline (each input window's staging buffer at its
  block; the output window's and the scratch at what the cases leave, point by point), the body obligation at a
  generic grid point by cases on the two conditions, the launch — the query window and the key/value window read one
  array, so its buffer is split into two half shares —, and the frame claim's post.
-/
import proofs.«157672_j2353642078946_2_alg».proof.Proof.KI.Pieces
import proofs.«157672_j2353642078946_2_alg».proof.Proof.LibSharedLaunch

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before position `n`: before the first point the scratch buffers at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (outsAt m c n hn).2.1 ∗ owns (c : Thread nD τ) scM1 fullShare (outsAt m c n hn).2.2.1 ∗ owns (c : Thread nD τ) scM2 fullShare (outsAt m c n hn).2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (outsAt m c n hn).2.1 ∗ owns (c : Thread nD τ) scM1 fullShare (outsAt m c n hn).2.2.1 ∗ owns (c : Thread nD τ) scM2 fullShare (outsAt m c n hn).2.2.2) := rfl

theorem PhiS_pos (c : Dev nD) (n : ℕ) (h : n ≤ cfg0.N) (hz : n ≠ 0) :
    PhiS m c n h = iprop(owns (c : Thread nD τ) scM0 fullShare (outsAt m c (n - 1) (by omega)).2.1 ∗ owns (c : Thread nD τ) scM1 fullShare (outsAt m c (n - 1) (by omega)).2.2.1 ∗ owns (c : Thread nD τ) scM2 fullShare (outsAt m c (n - 1) (by omega)).2.2.2) := by
  cases n with
  | zero => exact absurd rfl hz
  | succ n => rfl

/-! ## The proof data -/

/-- The arrays as the region finds them; after the body each input's buffer at its block, the output's at what the
    cases leave; the query window and the key/value window each hold half of their common array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the inputs' buffers hold their blocks; the closed forms say which case the point is in;
    the invariant hands the body the scratch at what the point before left (at anything at the first point) and
    takes it back at this point's contents; away from the last step the output's buffer is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  rw [show (dats m 0 c).leavesExact 5 t = owns (c : Thread nD τ) (ms5 t) fullShare ((dats m 0 c).after 5 t) from by
    unfold Dat.leavesExact; rw [liveAt_5 t], after_5]
  rw [show (dats m 0 c).leavesExact 6 t = owns (c : Thread nD τ) (ms6 t) fullShare ((dats m 0 c).after 6 t) from by
    unfold Dat.leavesExact; rw [liveAt_6 t], after_6]
  have hN : t.val < 64 := lt_of_lt_of_eq t.isLt (show cfg0.N = 64 from N_0)
  by_cases h0 : t.val % 4 = 0
  · by_cases h1 : t.val % 4 = 3
    · exfalso; omega
    · have hcF : condFirst (grid0.coords t) := (hcondFirst t).mpr h0
      have hcL : ¬condLast (grid0.coords t) := fun h => h1 ((hcondLast t).mp h)
      rw [Dat.leavesExact_idle (dats m 0 c) 7 t (idleAt_7 t hcL) (noFlush_7 t hcL)]
      rw [outsAt_A m c t h0 h1]
      unfold stA soutA_0 soutA_1 soutA_2; (try dsimp only)
      by_cases hz : t.val = 0
      ·
        rw [PhiS_castSucc m c t, PhiS_zero m c _ _ hz, scopedRest_eq]
        iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverA_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
          isplitl [HS1]
          · unfold owns; iexists _; isplitr
            swap; · iexact HS1
            ipureintro; exact View.read_writes_of_cover _ _ _ _ _ (scoverA_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
          · unfold owns; iexists _; isplitr
            swap; · iexact HS2
            ipureintro; exact View.read_writes_of_cover _ _ _ _ _ (scoverA_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS_castSucc m c t, PhiS_pos m c _ _ hz]
        iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        iintro ⟨H0, H1, H2, H3, H4, H5, H6, H7, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverA_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
          isplitl [HS1]
          · unfold owns; iexists _; isplitr
            swap; · iexact HS1
            ipureintro; exact View.read_writes_of_cover _ _ _ _ _ (scoverA_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
          · unfold owns; iexists _; isplitr
            swap; · iexact HS2
            ipureintro; exact View.read_writes_of_cover _ _ _ _ _ (scoverA_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun h => h0 (by rw [h])
    by_cases h1 : t.val % 4 = 3
    · have hcF : ¬condFirst (grid0.coords t) := fun h => h0 ((hcondFirst t).mp h)
      have hcL : condLast (grid0.coords t) := (hcondLast t).mpr h1
      rw [show (dats m 0 c).leavesExact 7 t = owns (c : Thread nD τ) (ms7 t) fullShare ((dats m 0 c).after 7 t) from by
        unfold Dat.leavesExact; rw [liveAt_7 t hcL], after_7]
      rw [outsAt_C m c t h0 h1]
      unfold stC outC_7 soutC_0 soutC_1 soutC_2; (try dsimp only)
      ·
        rw [PhiS_castSucc m c t, PhiS_pos m c _ _ hz]
        iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        iintro ⟨H0, H1, H2, H3, H4, H5, H6, ⟨%e7, H7⟩, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverC_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
          isplitl [HS1]
          · unfold owns; iexists _; isplitr
            swap; · iexact HS1
            ipureintro; exact View.read_writes_of_cover _ _ _ _ _ (scoverC_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
          · unfold owns; iexists _; isplitr
            swap; · iexact HS2
            ipureintro; exact View.read_writes_of_cover _ _ _ _ _ (scoverC_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (coverC_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
    · have hcF : ¬condFirst (grid0.coords t) := fun h => h0 ((hcondFirst t).mp h)
      have hcL : ¬condLast (grid0.coords t) := fun h => h1 ((hcondLast t).mp h)
      rw [Dat.leavesExact_idle (dats m 0 c) 7 t (idleAt_7 t hcL) (noFlush_7 t hcL)]
      rw [outsAt_B m c t h0 h1]
      unfold stB soutB_0 soutB_1 soutB_2; (try dsimp only)
      ·
        rw [PhiS_castSucc m c t, PhiS_pos m c _ _ hz]
        iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverB_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
          isplitl [HS1]
          · unfold owns; iexists _; isplitr
            swap; · iexact HS1
            ipureintro; exact View.read_writes_of_cover _ _ _ _ _ (scoverB_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
          · unfold owns; iexists _; isplitr
            swap; · iexact HS2
            ipureintro; exact View.read_writes_of_cover _ _ _ _ _ (scoverB_2 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hcF hcL (iblk m c 0 t) (iblk m c 1 t) (iblk m c 2 t) (iblk m c 3 t) (iblk m c 4 t) (iblk m c 5 t) (iblk m c 6 t) _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_eq]
  iintro ⟨HS0, HS1, HS2⟩
  isplitl [HS0]; · iexists _; iexact HS0
  isplitl [HS1]; · iexists _; iexact HS1
  iexists _; iexact HS2

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The seven distinct buffers behind the eight windows' arrays, each whole at the full share, are the windows'
    holdings: the buffer the query window and the key/value window both read is split into its two halves. -/
theorem hsplit (c : Dev nD) : (Pipeline.arrBufs spec0 c (V m c) : sProp 𝕄) ⊢ (dats m 0 c).arrays ((dats m 0 c).arrAt · 0) := by
  rw [show (dats m 0 c).arrays ((dats m 0 c).arrAt · 0)
      = bigSep Finset.univ (fun w : Fin cfg0.W => ((((c.tc : Thread nD τ).loc (Pipeline.arrRef spec0 w)) ↦{(dats m 0 c).share w} V m c (Pipeline.arrRef spec0 w)) : sProp 𝕄)) from by
    unfold Dat.arrays
    exact bigSep_congr fun w _ => by rw [(arr_whole0 w).set_eq_univ]; rfl]
  rw [show (Pipeline.arrBufs spec0 c (V m c) : sProp 𝕄)
      = iprop((((c.tc : Thread nD τ).loc main_v0) ↦{fullShare} V m c main_v0) ∗ (((c.tc : Thread nD τ).loc main_arg1) ↦{fullShare} V m c main_arg1) ∗ (((c.tc : Thread nD τ).loc main_v1) ↦{fullShare} V m c main_v1) ∗ (((c.tc : Thread nD τ).loc main_v2) ↦{fullShare} V m c main_v2) ∗ (((c.tc : Thread nD τ).loc main_v3) ↦{fullShare} V m c main_v3) ∗ (((c.tc : Thread nD τ).loc main_v4) ↦{fullShare} V m c main_v4) ∗ (((c.tc : Thread nD τ).loc main_v5) ↦{fullShare} V m c main_v5)) from by
    unfold Pipeline.arrBufs
    exact BI.bigSep_eq_bigSepL_of_eq [main_v0, main_arg1, main_v1, main_v2, main_v3, main_v4, main_v5] (by decide) (by decide) _]
  rw [bigSep_W0]
  simp only [share_0, share_1, share_2, share_3, share_4, share_5, share_6, share_7]
  iintro ⟨H0, H2, H3, H4, H5, H6, H7⟩
  ihave H0' := (pointsTo_share (PosShare.mem_left_op_right fullShare)).1 $$ H0
  icases H0' with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-- Every weakly fair execution of @main terminates, every array of the pipeline at what the write-backs computed from
    the proof data leave, every other unscoped buffer as the region found it. -/
theorem run_main : θ_run defs (onTc (τ := τ) (main (F := F))) (s₀ m ρ) (Pipeline.FramePost cfgs (dats m) 0 (V m)) :=
  Cert.Lib.SharedLaunch.θ_run_frame_shared cfgs (dats m) (0 : Fin 1) defs₀ Variants.none cellOf_inj winFacts₀0 m ρ main
    (fun c => (body_obligation m c).loose) block_pos0 arr_whole0 stage_whole0 (fun _ _ => rfl) (V m) (hmain m Variants.none)
    (hsplit m) (hin m) (hout m)

/-- The frame claim's post: every argument array ends as launched (the mask array is an input window's array, never
    written; the others bypass the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Pipeline.mem_restRefs_of _ rfl (by decide))).trans (V_main_arg0 m c),
    ((h c).1 2).trans (((dats m 0 c).arrAt_in 2 rfl _).trans ((A_eq m c 2).trans (V_main_arg1 m c))),
    ((h c).2 main_arg2 (Pipeline.mem_restRefs_of _ rfl (by decide))).trans (V_main_arg2 m c),
    ((h c).2 main_arg3 (Pipeline.mem_restRefs_of _ rfl (by decide))).trans (V_main_arg3 m c),
    ((h c).2 main_arg4 (Pipeline.mem_restRefs_of _ rfl (by decide))).trans (V_main_arg4 m c),
    ((h c).2 main_arg5 (Pipeline.mem_restRefs_of _ rfl (by decide))).trans (V_main_arg5 m c)⟩) (run_main m ρ)

end Cert.KernelIdeal.Hand

end
-- ==== Proof.RefSide.lean ====
/-
  The reference program's frame: its run as a straight line of host operations (every execution terminates, the
  arguments unchanged) with the result dropped.
-/
import proofs.«157672_j2353642078946_2_alg».proof.Defs
import proofs.«157672_j2353642078946_2_alg».proof.Proof.RefRunP
import proofs.«157672_j2353642078946_2_alg».proof.Proof.Gen.Pre_finite_inputs

noncomputable section

open Idealize.ShloMosaic Idealize.ShloMosaic.TcCoe Idealize.SL.Sem

namespace Cert.Proof.RefSide

theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefSide

end
-- ==== Proof.Spec.lean ====
/-
  The function both programs compute, on the extended reals, coordinate by coordinate.

  For a batch entry `b`, a query position `s`, a key position `t` and a feature `h`:
  the raw score is the inner product of the input's rows `s` and `t`; the logit scales it, multiplies it by the
  mask and subtracts the large constant times one minus the mask; a row's probabilities are the softmax of its
  logits (the exponentials of the logits less the row's maximum, over their sum); the context is the
  probabilities' combination of the input's rows; the matching vector is the input's row and the context side by
  side, times the weight, plus the bias; the output is its layer norm along the features, times the gain, plus
  the shift.  The literals are the programs' own 32-bit words.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- 1024.0, 1.0, 1e9, 0.0, about 1e-12, as the programs write them. -/
def n1024 : EReal := Ideal.ofBits .f32 0x44800000#32
def one : EReal := Ideal.ofBits .f32 0x3F800000#32
def bigC : EReal := Ideal.ofBits .f32 0x4E6E6B28#32
def zero : EReal := Ideal.ofBits .f32 0x00000000#32
def eps : EReal := Ideal.ofBits .f32 0x2B8CBCCC#32
/-- The scale 1 / sqrt 1024. -/
def scale : EReal := Ideal.div one (Ideal.sqrt n1024)

variable (X : Fin 8 → Fin 2048 → Fin 1024 → EReal) (Mk : Fin 8 → Fin 2048 → Fin 2048 → EReal)
  (Wt : Fin 2048 → Fin 1024 → EReal) (bs gm bt : Fin 1024 → EReal)

/-- The raw score of query `s` against key `t`. -/
def raw (b : Fin 8) (s t : Fin 2048) : EReal := ∑ h : Fin 1024, X b s h * X b t h
/-- The masked, scaled logit. -/
def logit (b : Fin 8) (s t : Fin 2048) : EReal := raw X b s t * scale * Mk b s t - bigC * (one - Mk b s t)
/-- A row's maximum (from minus infinity). -/
def rowMax (b : Fin 8) (s : Fin 2048) : EReal := Finset.univ.fold max ⊥ (fun t : Fin 2048 => logit X Mk b s t)
/-- The exponentials less the maximum, and their sum. -/
def ex (b : Fin 8) (s t : Fin 2048) : EReal := Ideal.exp (logit X Mk b s t - rowMax X Mk b s)
def den (b : Fin 8) (s : Fin 2048) : EReal := ∑ t : Fin 2048, ex X Mk b s t
def prob (b : Fin 8) (s t : Fin 2048) : EReal := Ideal.div (ex X Mk b s t) (den X Mk b s)
/-- The context: the probabilities' combination of the input's rows. -/
def ctx (b : Fin 8) (s : Fin 2048) (h : Fin 1024) : EReal := ∑ t : Fin 2048, prob X Mk b s t * X b t h
/-- The matching vector: the input's row against the weight's upper half, the context against its lower half, the bias. -/
def mat (b : Fin 8) (s : Fin 2048) (h : Fin 1024) : EReal :=
  (∑ k : Fin 1024, X b s k * Wt ⟨k.val, by omega⟩ h) + (∑ k : Fin 1024, ctx X Mk b s k * Wt ⟨1024 + k.val, by omega⟩ h) + bs h
/-- The layer norm along the features. -/
def mu (b : Fin 8) (s : Fin 2048) : EReal := Ideal.div (∑ h : Fin 1024, mat X Mk Wt bs b s h) n1024
def dev (b : Fin 8) (s : Fin 2048) (h : Fin 1024) : EReal := mat X Mk Wt bs b s h - mu X Mk Wt bs b s
def var (b : Fin 8) (s : Fin 2048) : EReal := Ideal.div (∑ h : Fin 1024, dev X Mk Wt bs b s h * dev X Mk Wt bs b s h) n1024
def out (b : Fin 8) (s : Fin 2048) (h : Fin 1024) : EReal :=
  dev X Mk Wt bs b s h * Ideal.rsqrt (var X Mk Wt bs b s + eps) * gm h + bt h

/-! ## The arrays read by coordinates -/

/-- An [8, 2048, 1024] array, an [8, 2048, 2048] array, a [2048, 1024] matrix and a [1024] vector as functions of their coordinates. -/
def X3 (x : (⟨3, ![8, 2048, 1024]⟩ : Shape).Idx → EReal) : Fin 8 → Fin 2048 → Fin 1024 → EReal := fun b s h => x (ix3 b s h)
def M3 (x : (⟨3, ![8, 2048, 2048]⟩ : Shape).Idx → EReal) : Fin 8 → Fin 2048 → Fin 2048 → EReal := fun b s t => x (ix3 b s t)
def W2 (x : (⟨2, ![2048, 1024]⟩ : Shape).Idx → EReal) : Fin 2048 → Fin 1024 → EReal := fun k h => x (ix2 k h)
def V1 (x : (⟨1, ![1024]⟩ : Shape).Idx → EReal) : Fin 1024 → EReal := fun h => x (ix1 h)

/-- The whole result array as a function of the six argument arrays. -/
def outArr (x0 : (⟨3, ![8, 2048, 1024]⟩ : Shape).Idx → EReal) (x1 : (⟨3, ![8, 2048, 2048]⟩ : Shape).Idx → EReal)
    (x2 : (⟨2, ![2048, 1024]⟩ : Shape).Idx → EReal) (x3 x4 x5 : (⟨1, ![1024]⟩ : Shape).Idx → EReal) :
    (⟨3, ![8, 2048, 1024]⟩ : Shape).Idx → EReal :=
  fun i => out (X3 x0) (M3 x1) (W2 x2) (V1 x3) (V1 x4) (V1 x5) (i 0) (i 1) (i 2)

end Cert.Attn

end
-- ==== Proof.KSpec.lean ====
/-
  The same function, arranged as the kernel computes it one row at a time.

  A query row's logit against a key row as the kernel forms it (mask times (scaled score plus the large constant), minus
  the constant); a matching row from an input row and a context row against the two halves of the weight; and the layer
  norm of a row with gain and shift.  The specification's `out` is the layer norm of the matching row of the input's
  row and the context's row.
-/
import proofs.«157672_j2353642078946_2_alg».proof.Proof.Spec

noncomputable section

namespace Cert.Attn

open Idealize.ShloMosaic Idealize.ShloMosaic.ValueIdx

/-- The kernel's scale literal, 2⁻⁵. -/
def scaleK : EReal := Ideal.ofBits .f32 0x3D000000#32

/-- The kernel's logit of a query row against a key row under a mask entry. -/
def sK (qrow kvrow : Fin 1024 → EReal) (mk : EReal) : EReal :=
  mk * ((∑ d : Fin 1024, qrow d * kvrow d) * scaleK + bigC) - bigC

/-- A matching row: the input row against the weight's upper half, the context row against its lower half, the bias. -/
def matRow (xrow ctxrow : Fin 1024 → EReal) (WU WL : Fin 1024 → Fin 1024 → EReal) (bs : Fin 1024 → EReal) (h : Fin 1024) : EReal :=
  (∑ k : Fin 1024, xrow k * WU k h) + (∑ k : Fin 1024, ctxrow k * WL k h) + bs h

/-- A row's mean, its deviations, their mean square. -/
def muRow (row : Fin 1024 → EReal) : EReal := Ideal.div (∑ h : Fin 1024, row h) n1024
def devRow (row : Fin 1024 → EReal) (h : Fin 1024) : EReal := row h - muRow row
def varRow (row : Fin 1024 → EReal) : EReal := Ideal.div (∑ h : Fin 1024, devRow row h * devRow row h) n1024
/-- The normalized row, before the gain and the shift. -/
def normRow (row : Fin 1024 → EReal) (h : Fin 1024) : EReal := devRow row h * Ideal.rsqrt (varRow row + eps)
/-- The layer norm of a row, with gain and shift. -/
def lnRow (row gm bt : Fin 1024 → EReal) (h : Fin 1024) : EReal := normRow row h * gm h + bt h

/-- The two halves of a [2048, 1024] weight. -/
def upper (Wt : Fin 2048 → Fin 1024 → EReal) : Fin 1024 → Fin 1024 → EReal := fun k h => Wt ⟨k.val, by omega⟩ h
def lower (Wt : Fin 2048 → Fin 1024 → EReal) : Fin 1024 → Fin 1024 → EReal := fun k h => Wt ⟨1024 + k.val, by omega⟩ h

/-- The specification's output is the layer norm of the matching row of the input's row and the context's row. -/
theorem out_eq_lnRow (X : Fin 8 → Fin 2048 → Fin 1024 → EReal) (Mk : Fin 8 → Fin 2048 → Fin 2048 → EReal)
    (Wt : Fin 2048 → Fin 1024 → EReal) (bs gm bt : Fin 1024 → EReal) (b : Fin 8) (s : Fin 2048) (h : Fin 1024) :
    out X Mk Wt bs gm bt b s h = lnRow (matRow (X b s) (ctx X Mk b s) (upper Wt) (lower Wt) bs) gm bt h := rfl

end Cert.Attn

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibRowReduce.lean ====
/-
  A matrix reduced along its rows, and small values spread over a block, read at coordinates for any extents.
  • REDUCTIONS over the extended reals of an `[a, b]` vector along its LAST axis, one value per row: the sum at row `p`
    is the sum over `k` of the source at `(p, k)`, and the maximum is the fold of `max`, from the starting word's value,
    over `k` of the source at `(p, k)` (`multiReduction_add_rows`, `multiReduction_max_rows`) — what a softmax along
    the lanes of a row needs.
  • A ROW VECTOR GIVEN TWO UNIT AXES: `[1, c] → [1, 1, c]` reads `(0, 0, f)` at `(0, f)` (`shapeCast_1c_11c_apply`).
  • ONE VALUE SPREAD OVER A MATRIX: `[1, 1] → [a, b]` reads the one entry everywhere (`broadcastTo_11_ab_apply`).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {α : Type}

/-- A `[1, c]` row cast to `[1, 1, c]` reads, at `(u, v, f)`, the operand at `(0, f)`. -/
theorem shapeCast_1c_11c_apply {c : ℕ} (x : (⟨2, ![1, c]⟩ : Shape).Idx → α)
    (h : (⟨2, ![1, c]⟩ : Shape).ShapeCasts ⟨3, ![1, 1, c]⟩) (u v : Fin 1) (f : Fin c) :
    shapeCast ⟨3, ![1, 1, c]⟩ x h (ix3 u v f) = x (ix2 (0 : Fin 1) f) :=
  shapeCast_apply x h _ _ (by
    have hu : u.val = 0 := by omega
    have hv : v.val = 0 := by omega
    rw [Shape.rowMajor_val_three, Shape.rowMajor_val_two]
    show 0 * c + f.val = (u.val * 1 + v.val) * c + f.val
    rw [hu, hv])

/-- A `[1, 1]` array spread to `[a, b]` reads its one entry at every `(p, q)`. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

section Reductions
variable {φ : FTy}

/-- A sum along the rows of an `[a, b]` vector: at row `p`, the sum over `k` of the source at `(p, k)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A maximum along the rows of an `[a, b]` vector: at row `p`, the fold of `max`, from the starting word's value, over
    `k` of the source at `(p, k)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

end Reductions

end Cert.LibRowReduce

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.KI.PayStep.lean ====
/-
  The online-softmax step of the attention body, read at coordinates on the extended reals.

  One step takes a query block q (1024 rows of 1024 features), a key/value block kv (512 rows of 1024 features), a mask
  block mk, the running row maxima mo, the running row sums lo and the running accumulator ao.  At a query row r and a
  key row k the logit is  mk(r,k) · ((∑ d, q(r,d) · kv(k,d)) · 2⁻⁵ + C) − C.  The new maximum of row r is the larger of
  the old one and the maximum of the row's logits; the correction factor is exp(old − new); the unnormalised
  probabilities are exp(logit − new); the new sum is factor · old sum + the row's probabilities summed; the new
  accumulator at (r,h) is factor · old accumulator + ∑ k, probability(r,k) · kv(k,h).  Each statement below reads one of
  these values at explicit coordinates; format changes are the identity on the extended reals.
-/
import proofs.«157672_j2353642078946_2_alg».proof.Proof.KSpec
import proofs.«157672_j2353642078946_2_alg».proof.Proof.Gen.KernelIdeal.Skeleton
import proofs.«157672_j2353642078946_2_alg».proof.Proof.LibColumns
import proofs.«157672_j2353642078946_2_alg».proof.Proof.LibRowReduce
import proofs.«157672_j2353642078946_2_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-! ## Constants and casts that change nothing -/

/-- The word 0xFF800000 denotes minus infinity. -/
theorem negInf_eq : Ideal.ofBits .f32 0xFF800000#32 = ⊥ := by simp [Ideal.ofBits, Ideal.ieee]

/-- A cast of a column to its own shape returns the column. -/
theorem pay1_eq (v : FVec Ideal S1024x1 .f32) : k0_pay1 (F := Ideal) v = v := by
  unfold k0_pay1
  exact shapeCast_self v _

/-- A cast of a column to its own shape returns the column. -/
theorem pay3_eq (v : FVec Ideal S1024x1 .f32) : k0_pay3 (F := Ideal) v = v := by
  unfold k0_pay3
  exact shapeCast_self v _

/-- The starting maximum is minus infinity at every index. -/
theorem pay7_at (i : S1024x1.Idx) : k0_pay7 (F := Ideal) i = ⊥ := by
  unfold k0_pay7
  refine (congrFun (shapeCast_self _ _) _).trans ?_
  exact negInf_eq

/-- The starting maximum of every row is minus infinity. -/
theorem pay7_apply (r : Fin 1024) : k0_pay7 (F := Ideal) (ix2 r (0 : Fin 1)) = ⊥ := pay7_at _

/-- The starting sum is zero at every index. -/
theorem pay8_at (i : S1024x1.Idx) : k0_pay8 (F := Ideal) i = 0 := by
  unfold k0_pay8
  refine (congrFun (shapeCast_self _ _) _).trans ?_
  exact Ideal.ofBits_zero_f32

/-- The starting sum of every row is zero. -/
theorem pay8_apply (r : Fin 1024) : k0_pay8 (F := Ideal) (ix2 r (0 : Fin 1)) = 0 := pay8_at _

/-- The starting accumulator is zero at every index. -/
theorem pay9_at (i : S1024x1024.Idx) : k0_pay9 (F := Ideal) i = 0 := by
  unfold k0_pay9
  refine (congrFun (shapeCast_self _ _) _).trans ?_
  exact Ideal.ofBits_zero_f32

/-- The starting accumulator is zero everywhere. -/
theorem pay9_apply (r h : Fin 1024) : k0_pay9 (F := Ideal) (ix2 r h) = 0 := pay9_at _

/-! ## The logits -/

/-- The logit of query row `r` against key row `k` under the mask entry at `(r, k)`. -/
abbrev lg (q : Vec Ideal S1x1024x1024 .bf16) (kv : Vec Ideal S1x512x1024 .bf16) (mk : Vec Ideal S1x1024x512 .f32)
    (r : Fin 1024) (k : Fin 512) : EReal :=
  Cert.Attn.sK (fun d => q (ix3 0 r d)) (fun d => kv (ix3 0 k d)) (mk (ix3 0 r k))

/-- The key/value block with its leading unit axis dropped reads, at `(k, d)`, the block at `(0, k, d)`. -/
theorem pay10_apply (kv : Vec Ideal S1x512x1024 .bf16) (k : Fin 512) (d : Fin 1024) :
    k0_pay10 (F := Ideal) kv (ix2 k d) = kv (ix3 0 k d) := by
  unfold k0_pay10
  exact shapeCast_1ab_ab_apply kv _ k d

/-- The raw scores: the query block against the transposed key block, at `(r, k)`, is the inner product of query row
    `r` and key row `k`. -/
theorem scores_apply (q : Vec Ideal S1x1024x1024 .bf16) (kv : Vec Ideal S1x512x1024 .bf16) (r : Fin 1024) (k : Fin 512) :
    matmul (F := Ideal) dot_S1024x1024_S1024x512_S1024x512_1_0_0_1_n_n none
        (shapeCast S1024x1024 q shapeCasts_S1x1024x1024_S1024x1024 : FVec Ideal S1024x1024 .bf16)
        (transpose S1024x512 [1, 0] (k0_pay10 (F := Ideal) kv) transposes_S512x1024_p1_0_S1024x512)
        (constant (F := Ideal) S1024x512 .f32 0x00000000#32) (ix2 r k)
      = ∑ d : Fin 1024, q (ix3 0 r d) * kv (ix3 0 k d) := by
  refine (matmul_zero_ix2 dot_S1024x1024_S1024x512_S1024x512_1_0_0_1_n_n rfl rfl rfl rfl rfl rfl none _ _ r k).trans ?_
  refine Finset.sum_congr rfl fun d _ => ?_
  refine congrArg₂ (· * ·) (shapeCast_1ab_ab_apply q _ r d) ?_
  exact (transpose_ix2_apply _ _ d k).trans (pay10_apply kv k d)

/-- The logits at `(r, k)`. -/
theorem pay11_apply (q : Vec Ideal S1x1024x1024 .bf16) (kv : Vec Ideal S1x512x1024 .bf16) (mk : Vec Ideal S1x1024x512 .f32)
    (r : Fin 1024) (k : Fin 512) : k0_pay11 (F := Ideal) q kv mk (ix2 r k) = lg q kv mk r k := by
  unfold k0_pay11
  have e1 := scores_apply q kv r k
  have e2 : shapeCast S1024x512 mk shapeCasts_S1x1024x512_S1024x512 (ix2 r k) = mk (ix3 0 r k) :=
    shapeCast_1ab_ab_apply mk _ r k
  show shapeCast S1024x512 mk shapeCasts_S1x1024x512_S1024x512 (ix2 r k)
        * (matmul (F := Ideal) dot_S1024x1024_S1024x512_S1024x512_1_0_0_1_n_n none
            (shapeCast S1024x1024 q shapeCasts_S1x1024x1024_S1024x1024 : FVec Ideal S1024x1024 .bf16)
            (transpose S1024x512 [1, 0] (k0_pay10 (F := Ideal) kv) transposes_S512x1024_p1_0_S1024x512)
            (constant (F := Ideal) S1024x512 .f32 0x00000000#32) (ix2 r k)
          * Ideal.ofBits .f32 0x3D000000#32 + Ideal.ofBits .f32 0x4E6E6B28#32)
        - Ideal.ofBits .f32 0x4E6E6B28#32 = _
  rw [e1, e2]
  rfl

/-! ## The running maximum, the correction factor, the probabilities, the running sum -/

/-- The new maximum of row `r`: the larger of the old one and the maximum, from minus infinity, of the row's logits. -/
theorem pay12_apply (q : Vec Ideal S1x1024x1024 .bf16) (kv : Vec Ideal S1x512x1024 .bf16) (mk : Vec Ideal S1x1024x512 .f32)
    (mo : Vec Ideal S1024x1 .f32) (r : Fin 1024) :
    k0_pay12 (F := Ideal) q kv mk mo (ix2 r (0 : Fin 1))
      = max (mo (ix2 r (0 : Fin 1))) (Finset.univ.fold max (⊥ : EReal) (fun k : Fin 512 => lg q kv mk r k)) := by
  unfold k0_pay12
  refine congrArg (max (mo (ix2 r (0 : Fin 1)))) ?_
  refine (shapeCast_a_a1_apply _ _ r 0).trans ?_
  refine (Cert.LibRowReduce.multiReduction_max_rows (k0_pay11 (F := Ideal) q kv mk) 0xFF800000#32
    reduces_S1024x512_S1024 (.inl rfl) rfl r).trans ?_
  rw [negInf_eq]
  exact Finset.fold_congr fun k _ => pay11_apply q kv mk r k

/-- The correction factor of row `r`: the exponential of the old maximum less the new one. -/
theorem pay13_apply (q : Vec Ideal S1x1024x1024 .bf16) (kv : Vec Ideal S1x512x1024 .bf16) (mk : Vec Ideal S1x1024x512 .f32)
    (mo mo' : Vec Ideal S1024x1 .f32) (r : Fin 1024) :
    k0_pay13 (F := Ideal) q kv mk mo mo' (ix2 r (0 : Fin 1))
      = Ideal.exp (mo' (ix2 r (0 : Fin 1)) - k0_pay12 (F := Ideal) q kv mk mo (ix2 r (0 : Fin 1))) := by
  unfold k0_pay13
  rfl

/-- The unnormalised probability at `(r, k)`: the exponential of the logit less the row's new maximum. -/
theorem pay14_apply (q : Vec Ideal S1x1024x1024 .bf16) (kv : Vec Ideal S1x512x1024 .bf16) (mk : Vec Ideal S1x1024x512 .f32)
    (mo : Vec Ideal S1024x1 .f32) (r : Fin 1024) (k : Fin 512) :
    k0_pay14 (F := Ideal) q kv mk mo (ix2 r k)
      = Ideal.exp (lg q kv mk r k - k0_pay12 (F := Ideal) q kv mk mo (ix2 r (0 : Fin 1))) := by
  unfold k0_pay14
  show Ideal.exp (k0_pay11 (F := Ideal) q kv mk (ix2 r k)
      - broadcastTo S1024x512 (k0_pay12 (F := Ideal) q kv mk mo) broadcasts_S1024x1_S1024x512 (ix2 r k)) = _
  rw [pay11_apply q kv mk r k, broadcastTo_a1_ab_apply _ _ r k]

/-- The new sum of row `r`: the correction factor times the old sum, plus the row's probabilities summed. -/
theorem pay15_apply (q : Vec Ideal S1x1024x1024 .bf16) (kv : Vec Ideal S1x512x1024 .bf16) (mk : Vec Ideal S1x1024x512 .f32)
    (mo mo' lo : Vec Ideal S1024x1 .f32) (r : Fin 1024) :
    k0_pay15 (F := Ideal) q kv mk mo mo' lo (ix2 r (0 : Fin 1))
      = k0_pay13 (F := Ideal) q kv mk mo mo' (ix2 r (0 : Fin 1)) * lo (ix2 r (0 : Fin 1))
        + ∑ k : Fin 512, k0_pay14 (F := Ideal) q kv mk mo (ix2 r k) := by
  unfold k0_pay15
  refine congrArg (k0_pay13 (F := Ideal) q kv mk mo mo' (ix2 r (0 : Fin 1)) * lo (ix2 r (0 : Fin 1)) + ·) ?_
  refine (shapeCast_a_a1_apply _ _ r 0).trans ?_
  exact Cert.LibRowReduce.multiReduction_add_rows (k0_pay14 (F := Ideal) q kv mk mo) 0x00000000#32
    reduces_S1024x512_S1024 (.inl rfl) rfl r

/-! ## The running accumulator -/

/-- The new accumulator at `(r, h)`: the correction factor of row `r` times the old accumulator, plus the row's
    probabilities against column `h` of the key/value block. -/
theorem pay2_apply (kv : Vec Ideal S1x512x1024 .bf16) (al : FVec Ideal S1024x1 .f32) (p : FVec Ideal S1024x512 .f32)
    (ao : Vec Ideal S1024x1024 .f32) (r h : Fin 1024) :
    k0_pay2 (F := Ideal) (k0_pay10 (F := Ideal) kv) al p ao (ix2 r h)
      = al (ix2 r (0 : Fin 1)) * ao (ix2 r h) + ∑ k : Fin 512, p (ix2 r k) * kv (ix3 0 k h) := by
  unfold k0_pay2
  refine (congrFun (shapeCast_self _ _) _).trans ?_
  refine congrArg₂ (· + ·) (congrArg (· * ao (ix2 r h)) (broadcastTo_a1_ab_apply al _ r h)) ?_
  refine (matmul_zero_ix2 dot_S1024x512_S512x1024_S1024x1024_1_0_0_1_n_n rfl rfl rfl rfl rfl rfl none _ _ r h).trans ?_
  exact Finset.sum_congr rfl fun k _ => congrArg (p (ix2 r k) * ·) (pay10_apply kv k h)

end Cert.KernelIdeal.PayAt

end
-- ==== Proof.KI.StepVals.lean ====
/-
  What each control case of the attention body leaves, as pure terms of what it was handed: the new running maximum,
  the new running sum and the new accumulator of one online-softmax step as functions of the query tile, the key/value
  tile, the mask tile and the old maximum, sum and accumulator — in the first step from the reset values (minus
  infinity, zero, zero) —, and in the last step the output tile as the epilogue's function of the new accumulator and
  sum, the two halves of the weight, the query tile, the bias, the gain and the shift.
-/
import proofs.«157672_j2353642078946_2_alg».proof.Proof.KI.Pieces
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- One online-softmax step: the new running maximum, -/
def mNew (q : Vec F S1x1024x1024 .bf16) (kv : Vec F S1x512x1024 .bf16) (mk : Vec F S1x1024x512 .f32) (mo : Vec F S1024x1 .f32) : Vec F S1024x1 .f32 :=
  k0_pay3 (k0_pay12 q kv mk mo)
/-- the new running sum, -/
def lNew (q : Vec F S1x1024x1024 .bf16) (kv : Vec F S1x512x1024 .bf16) (mk : Vec F S1x1024x512 .f32) (mo lo : Vec F S1024x1 .f32) : Vec F S1024x1 .f32 :=
  k0_pay1 (k0_pay15 q kv mk mo mo lo)
/-- the new accumulator. -/
def aNew (q : Vec F S1x1024x1024 .bf16) (kv : Vec F S1x512x1024 .bf16) (mk : Vec F S1x1024x512 .f32) (mo : Vec F S1024x1 .f32) (ao : Vec F S1024x1024 .f32) : Vec F S1024x1024 .f32 :=
  k0_pay2 (k0_pay10 kv) (k0_pay13 q kv mk mo mo) (k0_pay14 q kv mk mo) ao
/-- The two halves of the weight as the epilogue loads them: rows 0.. and rows 1024.. of the staged [2048, 1024] buffer. -/
def wUp (w : Vec F S2048x1024 .bf16) : Vec F S1024x1024 .bf16 :=
  View.ld w (Rect.unit (s := S2048x1024) ![0, 0] S1024x1024.size inb_S2048x1024_S1024x1024_0_0)
def wLo (w : Vec F S2048x1024 .bf16) : Vec F S1024x1024 .bf16 :=
  View.ld w (Rect.unit (s := S2048x1024) ![1024, 0] S1024x1024.size inb_S2048x1024_S1024x1024_1024_0)
/-- The epilogue: the output tile from the step's accumulator and sum. -/
def outT (an : Vec F S1024x1024 .f32) (ln : Vec F S1024x1 .f32) (w : Vec F S2048x1024 .bf16) (q : Vec F S1x1024x1024 .bf16) (b2 g2 be2 : Vec F S1x1024 .f32) : Vec F S1x1024x1024 .f32 :=
  k0_pay4 (k0_pay5 an ln (wUp w) (wLo w) q b2) (k0_pay6 g2) be2

/-! ## The first step: from the reset values -/

theorem soutA_0_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) :
    soutA_0 c i arg3 harg3 arg4 harg4 arg5 harg5 arg6 harg6 arg7 harg7 arg8 harg8 arg9 harg9 arg10 harg10 arg11 harg11 arg12 harg12 arg13 harg13 hc0 hc1 x0 x1 x2 x3 x4 x5 x6 = mNew x0 x1 x2 k0_pay7 := by
  unfold soutA_0
  rw [View.read_writes_eq_canon _ _ _ (scoverA_0 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRunA
  dsimp only
  sl_unfold_words
  rw [View.canon_cons_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

theorem soutA_1_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) :
    soutA_1 c i arg3 harg3 arg4 harg4 arg5 harg5 arg6 harg6 arg7 harg7 arg8 harg8 arg9 harg9 arg10 harg10 arg11 harg11 arg12 harg12 arg13 harg13 hc0 hc1 x0 x1 x2 x3 x4 x5 x6 = lNew x0 x1 x2 k0_pay7 k0_pay8 := by
  unfold soutA_1
  rw [View.read_writes_eq_canon _ _ _ (scoverA_1 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRunA
  dsimp only
  sl_unfold_words
  rw [View.canon_cons_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

theorem soutA_2_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) :
    soutA_2 c i arg3 harg3 arg4 harg4 arg5 harg5 arg6 harg6 arg7 harg7 arg8 harg8 arg9 harg9 arg10 harg10 arg11 harg11 arg12 harg12 arg13 harg13 hc0 hc1 x0 x1 x2 x3 x4 x5 x6 = aNew x0 x1 x2 k0_pay7 k0_pay9 := by
  unfold soutA_2
  rw [View.read_writes_eq_canon _ _ _ (scoverA_2 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRunA
  dsimp only
  sl_unfold_words
  rw [View.canon_cons_unit_zero (S := S1024x1024) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

/-! ## A middle step -/

theorem soutB_0_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    soutB_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = mNew x0 x1 x2 xs0 := by
  unfold soutB_0
  rw [View.read_writes_eq_canon _ _ _ (scoverB_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRunB
  dsimp only
  sl_unfold_words
  rw [View.canon_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

theorem soutB_1_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    soutB_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = lNew x0 x1 x2 xs0 xs1 := by
  unfold soutB_1
  rw [View.read_writes_eq_canon _ _ _ (scoverB_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRunB
  dsimp only
  sl_unfold_words
  rw [View.canon_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

theorem soutB_2_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : ¬condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    soutB_2 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = aNew x0 x1 x2 xs0 xs2 := by
  unfold soutB_2
  rw [View.read_writes_eq_canon _ _ _ (scoverB_2 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRunB
  dsimp only
  sl_unfold_words
  rw [View.canon_unit_zero (S := S1024x1024) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

/-! ## The last step -/

theorem soutC_0_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    soutC_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = mNew x0 x1 x2 xs0 := by
  unfold soutC_0
  rw [View.read_writes_eq_canon _ _ _ (scoverC_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRunC
  dsimp only
  sl_unfold_words
  rw [View.canon_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

theorem soutC_1_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    soutC_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = lNew x0 x1 x2 xs0 xs1 := by
  unfold soutC_1
  rw [View.read_writes_eq_canon _ _ _ (scoverC_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRunC
  dsimp only
  sl_unfold_words
  rw [View.canon_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

theorem soutC_2_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    soutC_2 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = aNew x0 x1 x2 xs0 xs2 := by
  unfold soutC_2
  rw [View.read_writes_eq_canon _ _ _ (scoverC_2 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRunC
  dsimp only
  sl_unfold_words
  rw [View.canon_unit_zero (S := S1024x1024) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

theorem outC_7_eq (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x512 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1024 .f32) (harg13 : arg13.IsWhole) (hc0 : ¬condFirst i) (hc1 : condLast i)
    (x0 : Vec F S1x1024x1024 .bf16) (x1 : Vec F S1x512x1024 .bf16) (x2 : Vec F S1x1024x512 .f32) (x3 : Vec F S2048x1024 .bf16) (x4 : Vec F S1x1024 .f32) (x5 : Vec F S1x1024 .f32) (x6 : Vec F S1x1024 .f32) (xs0 : Vec F S1024x1 .f32) (xs1 : Vec F S1024x1 .f32) (xs2 : Vec F S1024x1024 .f32) :
    outC_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = outT (aNew x0 x1 x2 xs0 xs2) (lNew x0 x1 x2 xs0 xs1) x3 x0 x4 x5 x6 := by
  unfold outC_7
  rw [View.read_writes_eq_canon _ _ _ (coverC_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRunC
  dsimp only
  sl_unfold_words
  rw [View.canon_unit_zero (S := S1x1024x1024) hz3]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1024x1) hz2, View.ld_unit_zero (S := S1024x1024) hz2, View.ld_unit_zero (S := S1x1024) hz2,
    View.ld_unit_zero (S := S1x1024x1024) hz3, View.ld_unit_zero (S := S1x512x1024) hz3, View.ld_unit_zero (S := S1x1024x512) hz3,
    View.readCov_unit_zero (S := S1024x1) _ hz2, View.readCov_unit_zero (S := S1024x1024) _ hz2]
  rfl

end Cert.KernelIdeal.Hand

end
-- ==== Proof.LibOnlineSoftmax.lean ====
/-
  Online softmax on the extended reals.

  A row of real logits is cut into n blocks; block j holds the logits σ j k and the
  values v j k (k in a finite nonempty index set). The online softmax reads the blocks one
  after another and keeps three numbers: a running maximum m, a running sum l and a running
  weighted sum a. Before the first block (m, l, a) = (-∞, 0, 0). A block with maximum b
  replaces them by

      m' = max m b
      l' = exp (m - m') * l + ∑ k, exp (σ k - m')
      a' = exp (m - m') * a + ∑ k, exp (σ k - m') * v k

  (at the first block m = -∞, exp (-∞ - m') = 0 and 0 * 0 = 0, so the old terms vanish).
  Because exp (m - m') * exp (s - m) = exp (s - m'), after j ≥ 1 blocks m is the maximum M of
  the logits read so far, l = ∑ exp (σ - M) and a = ∑ exp (σ - M) * v over them. After all n
  blocks, with M the maximum of all the logits,

      a / l = (∑ exp (σ - M) * v) / (∑ exp (σ - M)),

  which is the softmax-weighted mean of v: the same closed form the direct softmax
  (maximum over all keys, exponentials, one sum, one division per key) has. The denominator
  is positive, as every exponential is.

  All operations are the exact operations of the extended reals; the data are real, and the
  only non-real value met is the initial maximum -∞.
-/
import Mathlib.Data.EReal.Inv
import Mathlib.Analysis.SpecialFunctions.Exp
import Mathlib.Algebra.BigOperators.Field
import Mathlib.Algebra.Order.BigOperators.Group.Finset
import Mathlib.Data.Fintype.BigOperators
import Idealize.ShloMosaic.PureOps.Ideal

noncomputable section

namespace Cert.Lib.OnlineSoftmax

open Idealize.ShloMosaic
open scoped BigOperators

/-! ### General facts on coerced reals -/

/-- The sum of the coercions of finitely many reals is the coercion of their sum. -/
theorem coe_finset_sum {α : Type*} (s : Finset α) (f : α → ℝ) :
    (∑ t ∈ s, (f t : EReal)) = ((∑ t ∈ s, f t : ℝ) : EReal) := by
  induction s using Finset.cons_induction with
  | empty => simp
  | cons a s ha ih => rw [Finset.sum_cons, Finset.sum_cons, ih, EReal.coe_add]

/-- The maximum of the coercions of two reals is the coercion of their maximum. -/
theorem coe_max (x y : ℝ) : max (x : EReal) (y : EReal) = ((max x y : ℝ) : EReal) :=
  (EReal.coe_strictMono.monotone.map_max).symm

/-- The exponential of a difference of two reals is the real exponential of the difference. -/
theorem exp_coe_sub_coe (x y : ℝ) :
    Ideal.exp ((x : EReal) - (y : EReal)) = ((Real.exp (x - y) : ℝ) : EReal) := by
  rw [← EReal.coe_sub, Ideal.exp_coe]

/-- The quotient of two reals, the denominator not zero, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- Folding max from -∞ over the coercions of a nonempty finite family of reals gives the
    coercion of the family's maximum. -/
theorem fold_max_coe {α : Type*} (s : Finset α) (hs : s.Nonempty) (f : α → ℝ) :
    s.fold max (⊥ : EReal) (fun t => (f t : EReal)) = ((s.sup' hs f : ℝ) : EReal) := by
  induction hs using Finset.Nonempty.cons_induction with
  | singleton a => simp
  | cons a s ha hs ih =>
    rw [Finset.fold_cons, ih, Finset.sup'_cons hs, coe_max]

/-! ### The direct softmax over a nonempty finite family -/

section Direct

variable {κ : Type*} [Fintype κ] [Nonempty κ]

/-- The maximum of a real family over a nonempty finite index type. -/
def rmax (f : κ → ℝ) : ℝ := Finset.univ.sup' Finset.univ_nonempty f

/-- Every member is at most the maximum. -/
theorem le_rmax (f : κ → ℝ) (t : κ) : f t ≤ rmax f :=
  Finset.le_sup' f (Finset.mem_univ t)

/-- The maximum is attained. -/
theorem exists_eq_rmax (f : κ → ℝ) : ∃ t, f t = rmax f := by
  obtain ⟨t, _, ht⟩ := Finset.exists_mem_eq_sup' Finset.univ_nonempty f
  exact ⟨t, ht.symm⟩

/-- An upper bound that is attained is the maximum. -/
theorem rmax_eq_of {f : κ → ℝ} {M : ℝ} (hub : ∀ t, f t ≤ M) (hatt : ∃ t, f t = M) :
    rmax f = M := by
  apply le_antisymm
  · exact Finset.sup'_le _ _ (fun t _ => hub t)
  · obtain ⟨t, rfl⟩ := hatt
    exact le_rmax f t

/-- The maximum of the family folded from -∞ in the extended reals is the real maximum. -/
theorem fold_max_eq (f : κ → ℝ) :
    Finset.univ.fold max (⊥ : EReal) (fun t => (f t : EReal)) = ((rmax f : ℝ) : EReal) :=
  fold_max_coe Finset.univ Finset.univ_nonempty f

/-- A sum of exponentials over a nonempty finite family is positive. -/
theorem sum_exp_pos (f : κ → ℝ) (M : ℝ) : 0 < ∑ t, Real.exp (f t - M) :=
  Finset.sum_pos (fun _ _ => Real.exp_pos _) Finset.univ_nonempty

/-- The sum of the shifted exponentials in the extended reals is the real sum (any real
    shift M; the softmax takes M the maximum). -/
theorem sum_exp_eq (f : κ → ℝ) (M : ℝ) :
    ∑ t, Ideal.exp ((f t : EReal) - (M : EReal)) = ((∑ t, Real.exp (f t - M) : ℝ) : EReal) := by
  simp_rw [exp_coe_sub_coe]
  exact coe_finset_sum _ _

/-- The direct softmax-weighted sum: each shifted exponential divided by the sum of all of
    them, times its value, summed, is the real quotient of the weighted sum by the sum (any
    real shift M; the softmax takes M the maximum). -/
theorem softmax_eq (f w : κ → ℝ) (M : ℝ) :
    ∑ t, Ideal.div (Ideal.exp ((f t : EReal) - (M : EReal)))
        ((∑ u, Real.exp (f u - M) : ℝ) : EReal) * (w t : EReal)
      = (((∑ t, Real.exp (f t - M) * w t) / (∑ u, Real.exp (f u - M)) : ℝ) : EReal) := by
  have hZ : (∑ u, Real.exp (f u - M)) ≠ 0 := (sum_exp_pos f M).ne'
  simp_rw [exp_coe_sub_coe, div_coe_coe _ hZ, ← EReal.coe_mul]
  rw [coe_finset_sum, Finset.sum_div]
  congr 1
  exact Finset.sum_congr rfl (fun t _ => div_mul_eq_mul_div _ _ _)

end Direct

/-! ### The online softmax: state, one block's update, the run over the blocks -/

/-- The state of the online softmax: the running maximum, the running sum and the running
    weighted sum. -/
@[ext] structure St where
  /-- the running maximum -/
  m : EReal
  /-- the running sum of exponentials -/
  l : EReal
  /-- the running weighted sum -/
  a : EReal

/-- The state before the first block: maximum -∞, both sums zero. -/
def init : St := ⟨⊥, 0, 0⟩

section Defs

variable {ι : Type*} [Fintype ι]

/-- One block's update: the new maximum is the old one against the block's maximum; the old
    sums are rescaled by exp (old maximum - new maximum) and the block's sums of exponentials
    shifted by the new maximum are added. -/
def step (σ v : ι → ℝ) (st : St) : St :=
  let m' := max st.m (Finset.univ.fold max (⊥ : EReal) (fun k => (σ k : EReal)))
  ⟨m', Ideal.exp (st.m - m') * st.l + ∑ k, Ideal.exp ((σ k : EReal) - m'),
    Ideal.exp (st.m - m') * st.a + ∑ k, Ideal.exp ((σ k : EReal) - m') * (v k : EReal)⟩

/-- The state after the first j blocks (all n of them for j ≥ n). -/
def run {n : ℕ} (σ v : Fin n → ι → ℝ) : ℕ → St
  | 0 => init
  | j + 1 => if h : j < n then step (σ ⟨j, h⟩) (v ⟨j, h⟩) (run σ v j) else run σ v j

/-- Before any block the state is the initial one. -/
@[simp] theorem run_zero {n : ℕ} (σ v : Fin n → ι → ℝ) : run σ v 0 = init := rfl

/-- One more block, while there is one, is one more update. -/
theorem run_succ {n : ℕ} (σ v : Fin n → ι → ℝ) (j : ℕ) (h : j < n) :
    run σ v (j + 1) = step (σ ⟨j, h⟩) (v ⟨j, h⟩) (run σ v j) := by
  rw [run, dif_pos h]

end Defs

section Online

variable {ι : Type*} [Fintype ι] [Nonempty ι]

/-- The update of a state of three reals, in real terms. -/
theorem step_coe (σ v : ι → ℝ) (M L A : ℝ) :
    step σ v ⟨(M : EReal), (L : EReal), (A : EReal)⟩ =
      ⟨((max M (rmax σ) : ℝ) : EReal),
        ((Real.exp (M - max M (rmax σ)) * L + ∑ k, Real.exp (σ k - max M (rmax σ)) : ℝ) : EReal),
        ((Real.exp (M - max M (rmax σ)) * A
          + ∑ k, Real.exp (σ k - max M (rmax σ)) * v k : ℝ) : EReal)⟩ := by
  have hm : max (M : EReal) (Finset.univ.fold max (⊥ : EReal) (fun k => (σ k : EReal)))
      = ((max M (rmax σ) : ℝ) : EReal) := by
    rw [fold_max_eq, coe_max]
  simp only [step, hm, exp_coe_sub_coe, ← EReal.coe_mul, coe_finset_sum, ← EReal.coe_add]

/-- The first update: from maximum -∞ and zero sums the old terms vanish, and the state is
    the block's maximum and its two sums shifted by that maximum. -/
theorem step_init (σ v : ι → ℝ) :
    step σ v init =
      ⟨((rmax σ : ℝ) : EReal), ((∑ k, Real.exp (σ k - rmax σ) : ℝ) : EReal),
        ((∑ k, Real.exp (σ k - rmax σ) * v k : ℝ) : EReal)⟩ := by
  have hm : max (⊥ : EReal) (Finset.univ.fold max (⊥ : EReal) (fun k => (σ k : EReal)))
      = ((rmax σ : ℝ) : EReal) := by
    rw [fold_max_eq, max_eq_right bot_le]
  simp only [step, init, hm, EReal.bot_sub, Ideal.exp_bot, zero_mul, zero_add, exp_coe_sub_coe,
    ← EReal.coe_mul, coe_finset_sum]

end Online

/-! ### The invariant and the closed form of the run -/

section Main

variable {ι : Type*} [Fintype ι] [Nonempty ι] {n : ℕ}

/-- Rescaling a sum of exponentials shifted by M to the shift M':
    exp (M - M') * exp (s - M) = exp (s - M'). -/
theorem rescale_sum (σ : Fin n → ι → ℝ) (S : Finset (Fin n)) (M M' : ℝ) :
    Real.exp (M - M') * ∑ i ∈ S, ∑ k, Real.exp (σ i k - M)
      = ∑ i ∈ S, ∑ k, Real.exp (σ i k - M') := by
  rw [Finset.mul_sum]
  refine Finset.sum_congr rfl (fun i _ => ?_)
  rw [Finset.mul_sum]
  refine Finset.sum_congr rfl (fun k _ => ?_)
  rw [← Real.exp_add]
  congr 1
  ring

/-- Rescaling a weighted sum of exponentials shifted by M to the shift M'. -/
theorem rescale_wsum (σ v : Fin n → ι → ℝ) (S : Finset (Fin n)) (M M' : ℝ) :
    Real.exp (M - M') * ∑ i ∈ S, ∑ k, Real.exp (σ i k - M) * v i k
      = ∑ i ∈ S, ∑ k, Real.exp (σ i k - M') * v i k := by
  rw [Finset.mul_sum]
  refine Finset.sum_congr rfl (fun i _ => ?_)
  rw [Finset.mul_sum]
  refine Finset.sum_congr rfl (fun k _ => ?_)
  rw [← mul_assoc, ← Real.exp_add]
  congr 2
  ring

/-- The invariant: the state reached after reading the blocks of the set S has as maximum a
    real M that bounds the logits of those blocks and is one of them (so M is their maximum),
    and as sums the sums over those blocks of the exponentials shifted by M. -/
def Inv (σ v : Fin n → ι → ℝ) (S : Finset (Fin n)) (st : St) : Prop :=
  ∃ M : ℝ, (∀ i ∈ S, ∀ k, σ i k ≤ M) ∧ (∃ i ∈ S, ∃ k, σ i k = M) ∧
    st = ⟨(M : EReal), ((∑ i ∈ S, ∑ k, Real.exp (σ i k - M) : ℝ) : EReal),
      ((∑ i ∈ S, ∑ k, Real.exp (σ i k - M) * v i k : ℝ) : EReal)⟩

/-- The invariant holds after the first block, read from the initial state. -/
theorem inv_first (σ v : Fin n → ι → ℝ) (b : Fin n) :
    Inv σ v {b} (step (σ b) (v b) init) := by
  refine ⟨rmax (σ b), ?_, ?_, ?_⟩
  · intro i hi k
    rw [Finset.mem_singleton] at hi
    subst hi
    exact le_rmax (σ i) k
  · obtain ⟨k, hk⟩ := exists_eq_rmax (σ b)
    exact ⟨b, Finset.mem_singleton_self b, k, hk⟩
  · rw [step_init, Finset.sum_singleton, Finset.sum_singleton]

/-- The invariant is kept by reading one more block. -/
theorem inv_step (σ v : Fin n → ι → ℝ) {S : Finset (Fin n)} {st : St} {b : Fin n} (hb : b ∉ S)
    (h : Inv σ v S st) : Inv σ v (insert b S) (step (σ b) (v b) st) := by
  obtain ⟨M, hub, ⟨i₀, hi₀, k₀, hk₀⟩, rfl⟩ := h
  refine ⟨max M (rmax (σ b)), ?_, ?_, ?_⟩
  · intro i hi k
    rcases Finset.mem_insert.mp hi with rfl | hi
    · exact (le_rmax (σ i) k).trans (le_max_right _ _)
    · exact (hub i hi k).trans (le_max_left _ _)
  · rcases le_total M (rmax (σ b)) with hle | hle
    · obtain ⟨k, hk⟩ := exists_eq_rmax (σ b)
      exact ⟨b, Finset.mem_insert_self b S, k, by rw [hk, max_eq_right hle]⟩
    · exact ⟨i₀, Finset.mem_insert_of_mem hi₀, k₀, by rw [hk₀, max_eq_left hle]⟩
  · rw [step_coe, Finset.sum_insert hb, Finset.sum_insert hb, rescale_sum, rescale_wsum,
      add_comm (∑ i ∈ S, ∑ k, Real.exp (σ i k - max M (rmax (σ b)))),
      add_comm (∑ i ∈ S, ∑ k, Real.exp (σ i k - max M (rmax (σ b))) * v i k)]

/-- After j blocks, 1 ≤ j ≤ n, the invariant holds for the set of the first j blocks. -/
theorem run_inv (σ v : Fin n → ι → ℝ) : ∀ j : ℕ, 0 < j → j ≤ n →
    Inv σ v (Finset.univ.filter (fun i : Fin n => i.val < j)) (run σ v j) := by
  intro j
  induction j with
  | zero => intro h; exact absurd h (lt_irrefl 0)
  | succ j ih =>
    intro _ hj
    have hjn : j < n := hj
    rw [run_succ σ v j hjn]
    have hset : Finset.univ.filter (fun i : Fin n => i.val < j + 1)
        = insert (⟨j, hjn⟩ : Fin n) (Finset.univ.filter (fun i : Fin n => i.val < j)) := by
      ext i
      simp only [Finset.mem_filter, Finset.mem_univ, true_and, Finset.mem_insert, Fin.ext_iff]
      omega
    rcases Nat.eq_zero_or_pos j with h0 | hpos
    · subst h0
      have h1 : Finset.univ.filter (fun i : Fin n => i.val < 0 + 1) = {(⟨0, hjn⟩ : Fin n)} := by
        ext i
        simp only [Finset.mem_filter, Finset.mem_univ, true_and, Finset.mem_singleton, Fin.ext_iff]
        omega
      rw [h1, run_zero]
      exact inv_first σ v ⟨0, hjn⟩
    · rw [hset]
      refine inv_step σ v ?_ (ih hpos hjn.le)
      simp

/-- The maximum of all the logits, over all blocks (there is at least one block). -/
def gmax (hn : 0 < n) (σ : Fin n → ι → ℝ) : ℝ :=
  haveI : Nonempty (Fin n × ι) := ⟨(⟨0, hn⟩, Classical.arbitrary ι)⟩
  rmax (fun p : Fin n × ι => σ p.1 p.2)

/-- Every logit is at most the overall maximum. -/
theorem le_gmax (hn : 0 < n) (σ : Fin n → ι → ℝ) (j : Fin n) (k : ι) : σ j k ≤ gmax hn σ := by
  haveI : Nonempty (Fin n × ι) := ⟨(⟨0, hn⟩, Classical.arbitrary ι)⟩
  exact le_rmax (fun p : Fin n × ι => σ p.1 p.2) (j, k)

/-- The overall maximum is one of the logits. -/
theorem exists_eq_gmax (hn : 0 < n) (σ : Fin n → ι → ℝ) : ∃ j k, σ j k = gmax hn σ := by
  haveI : Nonempty (Fin n × ι) := ⟨(⟨0, hn⟩, Classical.arbitrary ι)⟩
  obtain ⟨p, hp⟩ := exists_eq_rmax (fun p : Fin n × ι => σ p.1 p.2)
  exact ⟨p.1, p.2, hp⟩

/-- An upper bound of all the logits that is one of them is the overall maximum. -/
theorem gmax_eq_of (hn : 0 < n) {σ : Fin n → ι → ℝ} {M : ℝ} (hub : ∀ j k, σ j k ≤ M)
    (hatt : ∃ j k, σ j k = M) : gmax hn σ = M := by
  haveI : Nonempty (Fin n × ι) := ⟨(⟨0, hn⟩, Classical.arbitrary ι)⟩
  obtain ⟨j, k, h⟩ := hatt
  exact rmax_eq_of (f := fun p : Fin n × ι => σ p.1 p.2) (fun p => hub p.1 p.2) ⟨(j, k), h⟩

/-- The double sum of shifted exponentials over at least one block is positive. -/
theorem sum_sum_exp_pos (hn : 0 < n) (σ : Fin n → ι → ℝ) (M : ℝ) :
    0 < ∑ j, ∑ k, Real.exp (σ j k - M) :=
  Finset.sum_pos (fun j _ => sum_exp_pos (σ j) M) ⟨⟨0, hn⟩, Finset.mem_univ _⟩

/-- THE CLOSED FORM of the online softmax after all n blocks: the maximum is the overall
    maximum M, the sum is ∑ exp (σ - M), the weighted sum is ∑ exp (σ - M) * v. -/
theorem run_eq (hn : 0 < n) (σ v : Fin n → ι → ℝ) :
    run σ v n =
      ⟨((gmax hn σ : ℝ) : EReal), ((∑ j, ∑ k, Real.exp (σ j k - gmax hn σ) : ℝ) : EReal),
        ((∑ j, ∑ k, Real.exp (σ j k - gmax hn σ) * v j k : ℝ) : EReal)⟩ := by
  obtain ⟨M, hub, ⟨i, _, k, hk⟩, hst⟩ := run_inv σ v n hn le_rfl
  have huniv : Finset.univ.filter (fun i : Fin n => i.val < n) = Finset.univ :=
    Finset.filter_true_of_mem (fun i _ => i.isLt)
  rw [huniv] at hub hst
  have hM : gmax hn σ = M := gmax_eq_of hn (fun j k => hub j (Finset.mem_univ j) k) ⟨i, k, hk⟩
  rw [hst, hM]

/-- The final running maximum is the overall maximum of the logits. -/
theorem run_m (hn : 0 < n) (σ v : Fin n → ι → ℝ) :
    (run σ v n).m = ((gmax hn σ : ℝ) : EReal) := by
  rw [run_eq hn σ v]

/-- The final running sum is the sum of the exponentials shifted by the overall maximum. -/
theorem run_l (hn : 0 < n) (σ v : Fin n → ι → ℝ) :
    (run σ v n).l = ((∑ j, ∑ k, Real.exp (σ j k - gmax hn σ) : ℝ) : EReal) := by
  rw [run_eq hn σ v]

/-- The final weighted sum is the sum of the shifted exponentials times the values. -/
theorem run_a (hn : 0 < n) (σ v : Fin n → ι → ℝ) :
    (run σ v n).a = ((∑ j, ∑ k, Real.exp (σ j k - gmax hn σ) * v j k : ℝ) : EReal) := by
  rw [run_eq hn σ v]

/-- The online softmax's result, the final weighted sum divided by the final sum, is the real
    quotient (∑ exp (σ - M) * v) / (∑ exp (σ - M)), M the overall maximum. -/
theorem run_div (hn : 0 < n) (σ v : Fin n → ι → ℝ) :
    Ideal.div (run σ v n).a (run σ v n).l
      = (((∑ j, ∑ k, Real.exp (σ j k - gmax hn σ) * v j k)
          / (∑ j, ∑ k, Real.exp (σ j k - gmax hn σ)) : ℝ) : EReal) := by
  rw [run_a hn, run_l hn]
  exact div_coe_coe _ (sum_sum_exp_pos hn σ _).ne'

end Main

/-! ### The online softmax against the direct softmax over all keys -/

section Bridge

variable {ι : Type*} [Fintype ι] [Nonempty ι] {n : ℕ} {κ : Type*} [Fintype κ] [Nonempty κ]

/-- A sum over all keys, the keys listed by a bijection with the (block, position) pairs, is
    the double sum over blocks and positions. -/
theorem sum_equiv_blocks (e : κ ≃ Fin n × ι) (g : Fin n → ι → ℝ) :
    ∑ t, g (e t).1 (e t).2 = ∑ j, ∑ k, g j k := by
  rw [← Fintype.sum_prod_type']
  exact Fintype.sum_equiv e _ _ (fun _ => rfl)

/-- The maximum over all keys, listed by such a bijection, is the overall maximum. -/
theorem rmax_equiv_blocks (hn : 0 < n) (e : κ ≃ Fin n × ι) (σ : Fin n → ι → ℝ) :
    rmax (fun t => σ (e t).1 (e t).2) = gmax hn σ := by
  apply rmax_eq_of
  · intro t
    exact le_gmax hn σ _ _
  · obtain ⟨j, k, h⟩ := exists_eq_gmax hn σ
    refine ⟨e.symm (j, k), ?_⟩
    rw [Equiv.apply_symm_apply]
    exact h

/-- The online softmax's result is the direct softmax-weighted sum over all keys (maximum
    over all keys, shifted exponentials, their sum, one division per key). -/
theorem run_div_eq_direct (hn : 0 < n) (e : κ ≃ Fin n × ι) (σ v : Fin n → ι → ℝ) :
    Ideal.div (run σ v n).a (run σ v n).l =
      ∑ t, Ideal.div
          (Ideal.exp ((σ (e t).1 (e t).2 : EReal)
            - ((rmax (fun t => σ (e t).1 (e t).2) : ℝ) : EReal)))
          ((∑ u, Real.exp (σ (e u).1 (e u).2 - rmax (fun t => σ (e t).1 (e t).2)) : ℝ) : EReal)
        * (v (e t).1 (e t).2 : EReal) := by
  rw [run_div hn, softmax_eq (fun t => σ (e t).1 (e t).2) (fun t => v (e t).1 (e t).2),
    rmax_equiv_blocks hn e σ,
    sum_equiv_blocks e (fun j k => Real.exp (σ j k - gmax hn σ) * v j k),
    sum_equiv_blocks e (fun j k => Real.exp (σ j k - gmax hn σ))]

end Bridge

end Cert.Lib.OnlineSoftmax
-- ==== Proof.KI.OnlineRow.lean ====
/-
  One row of the attention kernel's scratch as a state of the online softmax: at row `r` and column `h` the running
  maximum, the running sum and the accumulator entry; the reset values are the initial state, and the kernel's step
  on the tiles is the online-softmax step on that row's logits against the key/value tile's column.
-/
import proofs.«157672_j2353642078946_2_alg».proof.Proof.KI.PayStep
import proofs.«157672_j2353642078946_2_alg».proof.Proof.KI.StepVals
import proofs.«157672_j2353642078946_2_alg».proof.Proof.LibOnlineSoftmax

noncomputable section

namespace Cert.KernelIdeal.Hand

open Cert.KernelIdeal Cert.KernelIdeal.Gen Cert.KernelIdeal.PayAt Idealize.ShloMosaic Idealize.ShloMosaic.ValueIdx
open Cert.Lib

/-- The scratch at one row and one column. -/
def rowSt (p : Vec Ideal S1024x1 .f32 × Vec Ideal S1024x1 .f32 × Vec Ideal S1024x1024 .f32) (r h : Fin 1024) : OnlineSoftmax.St :=
  ⟨p.1 (ix2 r (0 : Fin 1)), p.2.1 (ix2 r (0 : Fin 1)), p.2.2 (ix2 r h)⟩

/-- The reset values are the initial state: minus infinity, zero, zero. -/
theorem rowSt_reset (r h : Fin 1024) :
    rowSt (k0_pay7 (F := Ideal), k0_pay8 (F := Ideal), k0_pay9 (F := Ideal)) r h = OnlineSoftmax.init := by
  unfold rowSt OnlineSoftmax.init
  dsimp only
  rw [pay7_apply, pay8_apply, pay9_apply]

/-- The kernel's step on a query tile, a key/value tile and a mask tile is, at row `r` and column `h`, the
    online-softmax step on the row's logits `σ0` against the key/value tile's column `v0`. -/
theorem rowSt_step (q : Vec Ideal S1x1024x1024 .bf16) (kv : Vec Ideal S1x512x1024 .bf16) (mk : Vec Ideal S1x1024x512 .f32)
    (p : Vec Ideal S1024x1 .f32 × Vec Ideal S1024x1 .f32 × Vec Ideal S1024x1024 .f32) (r h : Fin 1024)
    (σ0 v0 : Fin 512 → ℝ) (hσ : ∀ k, lg q kv mk r k = (σ0 k : EReal)) (hv : ∀ k, kv (ix3 0 k h) = (v0 k : EReal)) :
    rowSt (mNew q kv mk p.1, lNew q kv mk p.1 p.2.1, aNew q kv mk p.1 p.2.2) r h = OnlineSoftmax.step σ0 v0 (rowSt p r h) := by
  have hm : k0_pay12 (F := Ideal) q kv mk p.1 (ix2 r (0 : Fin 1))
      = max (p.1 (ix2 r (0 : Fin 1))) (Finset.univ.fold max (⊥ : EReal) (fun k : Fin 512 => (σ0 k : EReal))) := by
    rw [pay12_apply]
    exact congrArg (fun f => max (p.1 (ix2 r (0 : Fin 1))) (Finset.univ.fold max (⊥ : EReal) f)) (funext hσ)
  unfold rowSt OnlineSoftmax.step mNew lNew aNew
  dsimp only
  rw [pay3_eq, pay1_eq, pay15_apply, pay2_apply, pay13_apply]
  simp only [pay14_apply, hσ, hv, hm]

end Cert.KernelIdeal.Hand

end
-- ==== Proof.KI.Scratch.lean ====
/-
  The scratch the attention kernel carries from grid point to grid point, as a recursion of the pure online-softmax
  step: at the first key/value step of a query tile the step from the reset values, at every other point the step from
  what the point before left; and the output tile of a last step as the epilogue's function of that point's scratch.
-/
import proofs.«157672_j2353642078946_2_alg».proof.Proof.KI.StepVals

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running maximum, the running sum and the accumulator after the body at position `n`. -/
def scrAt (c : Dev nD) : (n : ℕ) → n < cfg0.N → Vec F S1024x1 .f32 × Vec F S1024x1 .f32 × Vec F S1024x1024 .f32
  | 0, hn => (mNew (iblk m c 0 ⟨0, hn⟩) (iblk m c 1 ⟨0, hn⟩) (iblk m c 2 ⟨0, hn⟩) k0_pay7, lNew (iblk m c 0 ⟨0, hn⟩) (iblk m c 1 ⟨0, hn⟩) (iblk m c 2 ⟨0, hn⟩) k0_pay7 k0_pay8, aNew (iblk m c 0 ⟨0, hn⟩) (iblk m c 1 ⟨0, hn⟩) (iblk m c 2 ⟨0, hn⟩) k0_pay7 k0_pay9)
  | n + 1, hn =>
    if (n + 1) % 4 = 0 then
      (mNew (iblk m c 0 ⟨n + 1, hn⟩) (iblk m c 1 ⟨n + 1, hn⟩) (iblk m c 2 ⟨n + 1, hn⟩) k0_pay7, lNew (iblk m c 0 ⟨n + 1, hn⟩) (iblk m c 1 ⟨n + 1, hn⟩) (iblk m c 2 ⟨n + 1, hn⟩) k0_pay7 k0_pay8, aNew (iblk m c 0 ⟨n + 1, hn⟩) (iblk m c 1 ⟨n + 1, hn⟩) (iblk m c 2 ⟨n + 1, hn⟩) k0_pay7 k0_pay9)
    else
      (mNew (iblk m c 0 ⟨n + 1, hn⟩) (iblk m c 1 ⟨n + 1, hn⟩) (iblk m c 2 ⟨n + 1, hn⟩) (scrAt c n (Nat.lt_of_succ_lt hn)).1,
       lNew (iblk m c 0 ⟨n + 1, hn⟩) (iblk m c 1 ⟨n + 1, hn⟩) (iblk m c 2 ⟨n + 1, hn⟩) (scrAt c n (Nat.lt_of_succ_lt hn)).1 (scrAt c n (Nat.lt_of_succ_lt hn)).2.1,
       aNew (iblk m c 0 ⟨n + 1, hn⟩) (iblk m c 1 ⟨n + 1, hn⟩) (iblk m c 2 ⟨n + 1, hn⟩) (scrAt c n (Nat.lt_of_succ_lt hn)).1 (scrAt c n (Nat.lt_of_succ_lt hn)).2.2)

theorem scrAt_first (c : Dev nD) (t : Fin cfg0.N) (h0 : t.val % 4 = 0) :
    scrAt m c t.val t.isLt = (mNew (iblk m c 0 t) (iblk m c 1 t) (iblk m c 2 t) k0_pay7, lNew (iblk m c 0 t) (iblk m c 1 t) (iblk m c 2 t) k0_pay7 k0_pay8, aNew (iblk m c 0 t) (iblk m c 1 t) (iblk m c 2 t) k0_pay7 k0_pay9) := by
  obtain ⟨n, hn⟩ := t
  cases n with
  | zero => rfl
  | succ n => exact if_pos h0

theorem scrAt_next (c : Dev nD) (t : Fin cfg0.N) (h0 : ¬t.val % 4 = 0) :
    scrAt m c t.val t.isLt
      = (mNew (iblk m c 0 t) (iblk m c 1 t) (iblk m c 2 t) (scrAt m c (t.val - 1) (Nat.lt_of_le_of_lt (Nat.sub_le _ _) t.isLt)).1,
         lNew (iblk m c 0 t) (iblk m c 1 t) (iblk m c 2 t) (scrAt m c (t.val - 1) (Nat.lt_of_le_of_lt (Nat.sub_le _ _) t.isLt)).1 (scrAt m c (t.val - 1) (Nat.lt_of_le_of_lt (Nat.sub_le _ _) t.isLt)).2.1,
         aNew (iblk m c 0 t) (iblk m c 1 t) (iblk m c 2 t) (scrAt m c (t.val - 1) (Nat.lt_of_le_of_lt (Nat.sub_le _ _) t.isLt)).1 (scrAt m c (t.val - 1) (Nat.lt_of_le_of_lt (Nat.sub_le _ _) t.isLt)).2.2) := by
  obtain ⟨n, hn⟩ := t
  cases n with
  | zero => exact absurd (Nat.zero_mod _) h0
  | succ n => exact if_neg h0

/-- What the points leave in the scratch is that recursion. -/
theorem outsAt_scr (c : Dev nD) : ∀ (n : ℕ) (hn : n < cfg0.N), (outsAt m c n hn).2 = scrAt m c n hn := by
  intro n
  induction n with
  | zero =>
    intro hn
    rw [outsAt_A m c ⟨0, hn⟩ (Nat.zero_mod _) (by decide : ¬ (0 % 4 = 3))]
    unfold stA
    dsimp only
    rw [soutA_0_eq, soutA_1_eq, soutA_2_eq]
    rfl
  | succ n ih =>
    intro hn
    have hN : n + 1 < 64 := lt_of_lt_of_eq hn (show cfg0.N = 64 from N_0)
    by_cases h0 : (n + 1) % 4 = 0
    · rw [outsAt_A m c ⟨n + 1, hn⟩ h0 (by dsimp only; omega)]
      unfold stA
      dsimp only
      rw [soutA_0_eq, soutA_1_eq, soutA_2_eq]
      exact (scrAt_first m c ⟨n + 1, hn⟩ h0).symm
    · by_cases h1 : (n + 1) % 4 = 3
      · rw [outsAt_C m c ⟨n + 1, hn⟩ h0 h1]
        unfold stC
        dsimp only
        rw [soutC_0_eq, soutC_1_eq, soutC_2_eq]
        rw [scrAt_next m c ⟨n + 1, hn⟩ h0]
        have ih' : ∀ hn', (outsAt m c (n + 1 - 1) hn').2 = scrAt m c (n + 1 - 1) hn' := fun hn' => ih hn'
        rw [ih']
      · rw [outsAt_B m c ⟨n + 1, hn⟩ h0 h1]
        unfold stB
        dsimp only
        rw [soutB_0_eq, soutB_1_eq, soutB_2_eq]
        rw [scrAt_next m c ⟨n + 1, hn⟩ h0]
        have ih' : ∀ hn', (outsAt m c (n + 1 - 1) hn').2 = scrAt m c (n + 1 - 1) hn' := fun hn' => ih hn'
        rw [ih']

/-- The output tile of a last step is the epilogue of that point's scratch. -/
theorem outsAt_out (c : Dev nD) (t : Fin cfg0.N) (h1 : t.val % 4 = 3) :
    (outsAt m c t.val t.isLt).1
      = outT (scrAt m c t.val t.isLt).2.2 (scrAt m c t.val t.isLt).2.1 (iblk m c 3 t) (iblk m c 0 t) (iblk m c 4 t) (iblk m c 5 t) (iblk m c 6 t) := by
  have h0 : ¬t.val % 4 = 0 := by omega
  rw [outsAt_C m c t h0 h1]
  unfold stC
  dsimp only
  rw [outC_7_eq, scrAt_next m c t h0, outsAt_scr]

end Cert.KernelIdeal.Hand

end
-- ==== Proof.CtxEq.lean ====
/-
  The context of the specification from the online softmax over four blocks of 512 keys.

  The data are real: the input's entries Xr b s d and the mask's entries Mr b s t, read in the
  extended reals. The programs' literals denote the reals 1/32 (both scales), 10^9, 1 and 1024.
  The logit of query s against key t is then the real

      lg = m * (r * (1/32) + 10^9) - 10^9,     r = ∑ d, x s d * x t d,   m the mask entry,

  in the kernel's arrangement, and the specification's r * (1/32) * m - 10^9 * (1 - m) is the
  same real. A key position t below 2048 is 512 * j + k for one block j below 4 and one position
  k below 512. The specification's context, the sum over all 2048 keys of the softmax weight
  times the key's row entry, is therefore the online softmax's final weighted sum over its
  final sum, run over the four blocks.
-/
import proofs.«157672_j2353642078946_2_alg».proof.Proof.KSpec
import proofs.«157672_j2353642078946_2_alg».proof.Proof.LibOnlineSoftmax

noncomputable section

namespace Cert.Attn

open Idealize.ShloMosaic Cert.Lib
open scoped BigOperators

/-! ### The literals as reals -/

/-- The kernel's scale word denotes 2⁻⁵ = 1/32. -/
theorem scaleK_coe : scaleK = (((1 : ℝ) / 32 : ℝ) : EReal) := by
  unfold scaleK
  simp [Ideal.ofBits, Ideal.ieee, -EReal.coe_mul]
  norm_num

/-- The large constant's word denotes 10^9. -/
theorem bigC_coe : bigC = ((1000000000 : ℝ) : EReal) := by
  unfold bigC
  simp [Ideal.ofBits, Ideal.ieee, -EReal.coe_mul]
  norm_num

/-- The word of 1.0 denotes 1. -/
theorem one_coe : one = ((1 : ℝ) : EReal) := by
  unfold one
  simp [Ideal.ofBits, Ideal.ieee, -EReal.coe_mul]
  norm_num

/-- The word of 1024.0 denotes 1024. -/
theorem n1024_coe : n1024 = ((1024 : ℝ) : EReal) := by
  unfold n1024
  simp [Ideal.ofBits, Ideal.ieee, -EReal.coe_mul]
  norm_num

/-- The reference's scale, 1 over the square root of 1024, is 1/32. -/
theorem scale_coe : scale = (((1 : ℝ) / 32 : ℝ) : EReal) := by
  have h32 : Real.sqrt 1024 = 32 := by
    rw [show (1024 : ℝ) = 32 ^ 2 by norm_num, Real.sqrt_sq (by norm_num)]
  rw [scale, one_coe, n1024_coe, Ideal.sqrt_coe, if_neg (by norm_num), h32,
    OnlineSoftmax.div_coe_coe _ (by norm_num)]

/-! ### The logit as a real -/

/-- The real logit of query s against key t, in the kernel's arrangement. -/
def lgR (Xr : Fin 8 → Fin 2048 → Fin 1024 → ℝ) (Mr : Fin 8 → Fin 2048 → Fin 2048 → ℝ)
    (b : Fin 8) (s t : Fin 2048) : ℝ :=
  Mr b s t * ((∑ d, Xr b s d * Xr b t d) * (1 / 32) + 1000000000) - 1000000000

variable (Xr : Fin 8 → Fin 2048 → Fin 1024 → ℝ) (Mr : Fin 8 → Fin 2048 → Fin 2048 → ℝ)

/-- The kernel's logit on real data is the real logit. -/
theorem sK_coe (b : Fin 8) (s t : Fin 2048) :
    sK (fun d => (Xr b s d : EReal)) (fun d => (Xr b t d : EReal)) (Mr b s t : EReal)
      = ((lgR Xr Mr b s t : ℝ) : EReal) := by
  unfold sK lgR
  rw [scaleK_coe, bigC_coe]
  simp only [← EReal.coe_mul, OnlineSoftmax.coe_finset_sum, ← EReal.coe_add, ← EReal.coe_sub]

/-- The specification's logit on real data is the same real logit: the two arrangements agree
    on the reals. -/
theorem logit_coe (b : Fin 8) (s t : Fin 2048) :
    logit (fun b s h => (Xr b s h : EReal)) (fun b s t => (Mr b s t : EReal)) b s t
      = ((lgR Xr Mr b s t : ℝ) : EReal) := by
  unfold logit raw lgR
  rw [scale_coe, bigC_coe, one_coe]
  simp only [← EReal.coe_mul, OnlineSoftmax.coe_finset_sum, ← EReal.coe_add, ← EReal.coe_sub]
  congr 1
  ring

/-! ### A key position as a block and a position in the block -/

/-- The key position of position k in block j: 512 * j + k. -/
def keyOf (j : Fin 4) (k : Fin 512) : Fin 2048 := ⟨512 * j.val + k.val, by omega⟩

/-- A key position t is position t mod 512 of block t / 512, and every (block, position) pair
    is one key position: the inverse is keyOf. -/
def keyEquiv : Fin 2048 ≃ Fin 4 × Fin 512 where
  toFun t := (⟨t.val / 512, by have := t.isLt; omega⟩, ⟨t.val % 512, by omega⟩)
  invFun p := keyOf p.1 p.2
  left_inv t := by
    apply Fin.ext
    simp only [keyOf]
    omega
  right_inv p := by
    have h1 := p.1.isLt
    have h2 := p.2.isLt
    apply Prod.ext
    · apply Fin.ext
      simp only [keyOf]
      omega
    · apply Fin.ext
      simp only [keyOf]
      omega

/-- The pair of a key position, sent back by keyOf, is the key position. -/
theorem keyOf_keyEquiv (t : Fin 2048) : keyOf (keyEquiv t).1 (keyEquiv t).2 = t :=
  keyEquiv.left_inv t

/-- The pair of keyOf j k is (j, k). -/
theorem keyEquiv_keyOf (j : Fin 4) (k : Fin 512) : keyEquiv (keyOf j k) = (j, k) :=
  keyEquiv.right_inv (j, k)

/-! ### The context from the online softmax -/

/-- The specification's row maximum on real data is the maximum of the real logits. -/
theorem rowMax_coe (b : Fin 8) (s : Fin 2048) :
    rowMax (fun b s h => (Xr b s h : EReal)) (fun b s t => (Mr b s t : EReal)) b s
      = ((OnlineSoftmax.rmax (fun t => lgR Xr Mr b s t) : ℝ) : EReal) := by
  unfold rowMax
  simp_rw [logit_coe]
  exact OnlineSoftmax.fold_max_eq (fun t => lgR Xr Mr b s t)

/-- The specification's shifted exponential on real data. -/
theorem ex_coe (b : Fin 8) (s t : Fin 2048) :
    ex (fun b s h => (Xr b s h : EReal)) (fun b s t => (Mr b s t : EReal)) b s t
      = ((Real.exp (lgR Xr Mr b s t - OnlineSoftmax.rmax (fun t => lgR Xr Mr b s t)) : ℝ) : EReal) := by
  unfold ex
  rw [logit_coe, rowMax_coe, OnlineSoftmax.exp_coe_sub_coe]

/-- The specification's denominator on real data is the real sum of the shifted exponentials. -/
theorem den_coe (b : Fin 8) (s : Fin 2048) :
    den (fun b s h => (Xr b s h : EReal)) (fun b s t => (Mr b s t : EReal)) b s
      = ((∑ u, Real.exp (lgR Xr Mr b s u - OnlineSoftmax.rmax (fun t => lgR Xr Mr b s t)) : ℝ) : EReal) := by
  unfold den
  simp_rw [ex_coe]
  exact OnlineSoftmax.coe_finset_sum _ _

/-- THE THEOREM: the online softmax over the four blocks of 512 keys, its final weighted sum
    divided by its final sum, is the specification's context. -/
theorem ctx_online (b : Fin 8) (s : Fin 2048) (h : Fin 1024) :
    Ideal.div
        (OnlineSoftmax.run (fun (j : Fin 4) (k : Fin 512) => lgR Xr Mr b s (keyOf j k))
          (fun j k => Xr b (keyOf j k) h) 4).a
        (OnlineSoftmax.run (fun (j : Fin 4) (k : Fin 512) => lgR Xr Mr b s (keyOf j k))
          (fun j k => Xr b (keyOf j k) h) 4).l
      = ctx (fun b s h => (Xr b s h : EReal)) (fun b s t => (Mr b s t : EReal)) b s h := by
  have hrun := OnlineSoftmax.run_div_eq_direct (by norm_num : 0 < 4) keyEquiv
    (fun (j : Fin 4) (k : Fin 512) => lgR Xr Mr b s (keyOf j k)) (fun j k => Xr b (keyOf j k) h)
  simp only [keyOf_keyEquiv] at hrun
  rw [hrun]
  unfold ctx prob
  simp only [den_coe]
  unfold ex
  simp only [logit_coe, rowMax_coe]

end Cert.Attn
-- ==== Proof.KI.Online.lean ====
/-
  The scratch of the attention kernel after each grid point IS the online softmax of the rows' logits: after the
  key/value step `j` of a query tile, at row `r` and column `h`, the running maximum, the running sum and the
  accumulator are the online-softmax state after `j + 1` blocks of the row's real logits against the input's column
  `h` — by induction on the grid point: a first step starts from the reset values, every other from the point before,
  which lies in the same query tile.
-/
import proofs.«157672_j2353642078946_2_alg».proof.Proof.KI.OnlineRow
import proofs.«157672_j2353642078946_2_alg».proof.Proof.KI.Scratch
import proofs.«157672_j2353642078946_2_alg».proof.Proof.CtxEq

noncomputable section

namespace Cert.KernelIdeal.Hand

open Cert.KernelIdeal Cert.KernelIdeal.Gen Cert.KernelIdeal.PayAt Idealize.ShloMosaic Idealize.ShloMosaic.ValueIdx
open Cert.Lib Cert.Attn

/-- A grid point's batch entry, its query position at row `r` of the tile, its key position at row `k` of the tile. -/
def tb (t : Fin cfg0.N) : Fin 8 := ⟨t.val / 8, by have := t.isLt; have h : cfg0.N = 64 := N_0; omega⟩
def tq (t : Fin cfg0.N) (r : Fin 1024) : Fin 2048 := ⟨1024 * (t.val / 4 % 2) + r.val, by have := r.isLt; omega⟩
def tk (t : Fin cfg0.N) (k : Fin 512) : Fin 2048 := ⟨512 * (t.val % 4) + k.val, by have := k.isLt; omega⟩

variable (m : (ℓ : Loc nD τ sig) → Buf (Elt Ideal) ℓ) (c : Dev nD)
variable (Xr : Fin 8 → Fin 2048 → Fin 1024 → ℝ) (Mr : Fin 8 → Fin 2048 → Fin 2048 → ℝ)

/-- The row's logits block by block, and the input's column block by block. -/
def σt (t : Fin cfg0.N) (r : Fin 1024) : Fin 4 → Fin 512 → ℝ := fun j k => lgR Xr Mr (tb t) (tq t r) (keyOf j k)
def vt (t : Fin cfg0.N) (h : Fin 1024) : Fin 4 → Fin 512 → ℝ := fun j k => Xr (tb t) (keyOf j k) h

theorem scr_online
    (hq : ∀ (t : Fin cfg0.N) (r d : Fin 1024), (iblk m c 0 t : S1x1024x1024.Idx → EReal) (ix3 0 r d) = (Xr (tb t) (tq t r) d : EReal))
    (hk : ∀ (t : Fin cfg0.N) (k : Fin 512) (d : Fin 1024), (iblk m c 1 t : S1x512x1024.Idx → EReal) (ix3 0 k d) = (Xr (tb t) (tk t k) d : EReal))
    (hmk : ∀ (t : Fin cfg0.N) (r : Fin 1024) (k : Fin 512), (iblk m c 2 t : S1x1024x512.Idx → EReal) (ix3 0 r k) = (Mr (tb t) (tq t r) (tk t k) : EReal)) :
    ∀ (n : ℕ) (hn : n < cfg0.N) (r h : Fin 1024),
      rowSt (scrAt m c n hn) r h = OnlineSoftmax.run (σt Xr Mr ⟨n, hn⟩ r) (vt Xr ⟨n, hn⟩ h) (n % 4 + 1) := by
  have hN : cfg0.N = 64 := N_0
  -- the logits and the column of the point's key/value tile
  have hσ : ∀ (t : Fin cfg0.N) (r : Fin 1024) (k : Fin 512),
      lg (iblk m c 0 t) (iblk m c 1 t) (iblk m c 2 t) r k = ((σt Xr Mr t r ⟨t.val % 4, Nat.mod_lt _ (by decide)⟩ k : ℝ) : EReal) := by
    intro t r k
    show Cert.Attn.sK (fun d => (iblk m c 0 t : S1x1024x1024.Idx → EReal) (ix3 0 r d)) (fun d => (iblk m c 1 t : S1x512x1024.Idx → EReal) (ix3 0 k d))
      ((iblk m c 2 t : S1x1024x512.Idx → EReal) (ix3 0 r k)) = _
    simp only [hq, hk, hmk]
    exact sK_coe Xr Mr (tb t) (tq t r) (tk t k)
  have hv : ∀ (t : Fin cfg0.N) (h : Fin 1024) (k : Fin 512),
      (iblk m c 1 t : S1x512x1024.Idx → EReal) (ix3 0 k h) = ((vt Xr t h ⟨t.val % 4, Nat.mod_lt _ (by decide)⟩ k : ℝ) : EReal) := by
    intro t h k
    exact hk t k h
  intro n
  induction n with
  | zero =>
    intro hn r h
    rw [scrAt_first m c ⟨0, hn⟩ (Nat.zero_mod _)]
    rw [rowSt_step _ _ _ (k0_pay7 (F := Ideal), k0_pay8 (F := Ideal), k0_pay9 (F := Ideal)) r h _ _ (hσ ⟨0, hn⟩ r) (hv ⟨0, hn⟩ h), rowSt_reset]
    rw [show (0 : ℕ) % 4 + 1 = 0 + 1 from rfl, OnlineSoftmax.run_succ _ _ 0 (by decide), OnlineSoftmax.run_zero]
    rfl
  | succ n ih =>
    intro hn r h
    have hn64 : n + 1 < 64 := lt_of_lt_of_eq hn hN
    by_cases h0 : (n + 1) % 4 = 0
    · rw [scrAt_first m c ⟨n + 1, hn⟩ h0]
      rw [rowSt_step _ _ _ (k0_pay7 (F := Ideal), k0_pay8 (F := Ideal), k0_pay9 (F := Ideal)) r h _ _ (hσ ⟨n + 1, hn⟩ r) (hv ⟨n + 1, hn⟩ h), rowSt_reset]
      rw [show (n + 1) % 4 + 1 = 0 + 1 from by rw [h0], OnlineSoftmax.run_succ _ _ 0 (by decide), OnlineSoftmax.run_zero]
      congr 1
      · funext k; exact congrArg (fun j => σt Xr Mr ⟨n + 1, hn⟩ r j k) (Fin.ext h0)
      · funext k; exact congrArg (fun j => vt Xr ⟨n + 1, hn⟩ h j k) (Fin.ext h0)
    · rw [scrAt_next m c ⟨n + 1, hn⟩ h0]
      have ih' := ih (Nat.lt_of_succ_lt hn) r h
      rw [rowSt_step _ _ _ (scrAt m c (n + 1 - 1) _) r h _ _ (hσ ⟨n + 1, hn⟩ r) (hv ⟨n + 1, hn⟩ h)]
      have hsame : σt Xr Mr ⟨n, Nat.lt_of_succ_lt hn⟩ r = σt Xr Mr ⟨n + 1, hn⟩ r := by
        funext j k
        unfold σt tb tq
        have e1 : n / 8 = (n + 1) / 8 := by omega
        have e2 : n / 4 % 2 = (n + 1) / 4 % 2 := by omega
        simp only [e1, e2]
      have hsamev : vt Xr ⟨n, Nat.lt_of_succ_lt hn⟩ h = vt Xr ⟨n + 1, hn⟩ h := by
        funext j k
        unfold vt tb
        have e1 : n / 8 = (n + 1) / 8 := by omega
        simp only [e1]
      have hm4 : n % 4 + 1 = (n + 1) % 4 := by omega
      rw [show scrAt m c (n + 1 - 1) (Nat.lt_of_le_of_lt (Nat.sub_le _ _) hn) = scrAt m c n (Nat.lt_of_succ_lt hn) from rfl, ih', hsame, hsamev, hm4]
      rw [OnlineSoftmax.run_succ _ _ ((n + 1) % 4) (Nat.mod_lt _ (by decide))]

end Cert.KernelIdeal.Hand

end
-- ==== Proof.KI.PayEpi.lean ====
/-
  The last key/value step of the attention kernel, read at coordinates on the extended reals.

  When the last block of keys has been folded in, the kernel holds, per query row r, the accumulated context numerator
  ao (r, ·) and the running sum lo (r). It divides the numerator by the sum to get the context row, multiplies the query
  row by the upper half of the weight and the context row by the lower half, adds the bias — the matching row —, then
  normalizes that row: subtracts its mean, multiplies by the reciprocal square root of its mean square deviation plus a
  small constant; the store applies the gain and the shift. Here each of those values is read at an entry (r, h) as a
  plain formula: the matching matrix at (r, h) is `matRow` of row r, the normalized matrix is `normRow` of that row, and
  the stored block is `lnRow` of it.

  Every step that is not entry by entry is read by one lemma: a column [a, 1] spread along the rows, a row [1, b]
  spread down the columns, a leading unit axis dropped or added, a sum along the rows, a product of two matrices.
-/
import proofs.«157672_j2353642078946_2_alg».proof.Proof.KSpec
import proofs.«157672_j2353642078946_2_alg».proof.Proof.Gen.KernelIdeal.Skeleton
import proofs.«157672_j2353642078946_2_alg».proof.Proof.LibColumns
import proofs.«157672_j2353642078946_2_alg».proof.Proof.LibRowReduce
import proofs.«157672_j2353642078946_2_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-! ## The store's operands -/

/-- The gain row passes through a cast to its own shape unchanged. -/
theorem pay6_eq (v : Vec Ideal S1x1024 .f32) : k0_pay6 (F := Ideal) v = v := by
  unfold k0_pay6
  exact shapeCast_self v _

/-- The stored block at (0, r, h): the normalized entry times the gain at h plus the shift at h. -/
theorem pay4_apply (v86 : FVec Ideal S1024x1024 .f32) (v88 : FVec Ideal S1x1024 .f32) (v91 : Vec Ideal S1x1024 .f32)
    (r h : Fin 1024) :
    k0_pay4 (F := Ideal) v86 v88 v91 (ix3 0 r h) = v86 (ix2 r h) * v88 (ix2 0 h) + v91 (ix2 0 h) := by
  unfold k0_pay4
  refine (shapeCast_ab_1ab_apply _ _ 0 r h).trans ?_
  refine congrArg₂ (· + ·) (congrArg (v86 (ix2 r h) * ·) ?_) ?_
  · exact broadcastTo_1b_ab_apply v88 _ r h
  · refine (broadcastTo_1b_ab_apply _ _ r h).trans ?_
    rw [shapeCast_self]

/-! ## The matching matrix -/

/-- The matching matrix of the last step, as the kernel forms it: the context (accumulator over running sum), the
    query block without its leading axis, their products with the two halves of the weight, the bias row under every
    row. -/
def mat68 (v51 : Vec Ideal S1024x1024 .f32) (v52 : Vec Ideal S1024x1 .f32) (v56 : Vec Ideal S1024x1024 .bf16)
    (v58 : Vec Ideal S1024x1024 .bf16) (v60 : Vec Ideal S1x1024x1024 .bf16) (v65 : Vec Ideal S1x1024 .f32) :
    FVec Ideal S1024x1024 .f32 :=
  have v53 : FVec Ideal S1024x1024 .f32 := broadcastTo S1024x1024 v52 broadcasts_S1024x1_S1024x1024
  have v54 : FVec Ideal S1024x1024 .f32 := divf v51 v53
  have v55 : FVec Ideal S1024x1024 .bf16 := truncf .bf16 v54 bitsLt_bf16_f32
  have v57 : FVec Ideal S1024x1024 .bf16 := shapeCast S1024x1024 v56 shapeCasts_S1024x1024_S1024x1024
  have v59 : FVec Ideal S1024x1024 .bf16 := shapeCast S1024x1024 v58 shapeCasts_S1024x1024_S1024x1024
  have v61 : FVec Ideal S1024x1024 .bf16 := shapeCast S1024x1024 v60 shapeCasts_S1x1024x1024_S1024x1024
  have cst_40 : FVec Ideal S1024x1024 .f32 := constant S1024x1024 .f32 0x00000000#32
  have v62 : FVec Ideal S1024x1024 .f32 := matmul dot_S1024x1024_S1024x1024_S1024x1024_1_0_0_1_n_n none v61 v57 cst_40
  have cst_41 : FVec Ideal S1024x1024 .f32 := constant S1024x1024 .f32 0x00000000#32
  have v63 : FVec Ideal S1024x1024 .f32 := matmul dot_S1024x1024_S1024x1024_S1024x1024_1_0_0_1_n_n none v55 v59 cst_41
  have v64 : FVec Ideal S1024x1024 .f32 := addf v62 v63
  have v66 : FVec Ideal S1x1024 .f32 := shapeCast S1x1024 v65 shapeCasts_S1x1024_S1x1024
  have v67 : FVec Ideal S1024x1024 .f32 := broadcastTo S1024x1024 v66 broadcasts_S1x1024_S1024x1024
  have v68 : FVec Ideal S1024x1024 .f32 := addf v64 v67
  v68

/-- The matching row of query row r: the query row against the upper half of the weight, the context row (the
    accumulator's row over the row's running sum) against the lower half, the bias. -/
abbrev mrow (ao : Vec Ideal S1024x1024 .f32) (lo : Vec Ideal S1024x1 .f32) (wU wL : Vec Ideal S1024x1024 .bf16)
    (q : Vec Ideal S1x1024x1024 .bf16) (b2 : Vec Ideal S1x1024 .f32) (r : Fin 1024) : Fin 1024 → EReal :=
  Cert.Attn.matRow (fun d => q (ix3 0 r d)) (fun d => Ideal.div (ao (ix2 r d)) (lo (ix2 r 0)))
    (fun d h => wU (ix2 d h)) (fun d h => wL (ix2 d h)) (fun h => b2 (ix2 0 h))

/-- The matching matrix at (r, h) is the matching row of r at h. -/
theorem mat68_apply (ao : Vec Ideal S1024x1024 .f32) (lo : Vec Ideal S1024x1 .f32) (wU wL : Vec Ideal S1024x1024 .bf16)
    (q : Vec Ideal S1x1024x1024 .bf16) (b2 : Vec Ideal S1x1024 .f32) (r h : Fin 1024) :
    mat68 ao lo wU wL q b2 (ix2 r h) = mrow ao lo wU wL q b2 r h := by
  unfold mat68 mrow Cert.Attn.matRow
  refine congrArg₂ (· + ·) (congrArg₂ (· + ·) ?_ ?_) ?_
  · refine (matmul_zero_ix2 _ rfl rfl rfl rfl rfl rfl none _ _ r h).trans ?_
    refine Finset.sum_congr rfl fun k _ => congrArg₂ (· * ·) ?_ ?_
    · exact shapeCast_1ab_ab_apply q _ r k
    · rw [shapeCast_self]
  · refine (matmul_zero_ix2 _ rfl rfl rfl rfl rfl rfl none _ _ r h).trans ?_
    refine Finset.sum_congr rfl fun k _ => congrArg₂ (· * ·) ?_ ?_
    · show Ideal.div (ao (ix2 r k)) (broadcastTo S1024x1024 lo broadcasts_S1024x1_S1024x1024 (ix2 r k)) = _
      rw [broadcastTo_a1_ab_apply]
    · rw [shapeCast_self]
  · refine (broadcastTo_1b_ab_apply _ _ r h).trans ?_
    rw [shapeCast_self]

/-! ## The layer norm of a matrix's rows -/

/-- The column of row means: the rows summed, as a column, over 1024. -/
def mean72 (v68 : FVec Ideal S1024x1024 .f32) : FVec Ideal S1024x1 .f32 :=
  have v69 : FVec Ideal S1024 .f32 := multiReduction .add [1] S1024 v68 0x00000000#32 reduces_S1024x1024_S1024 (.inl rfl) rfl
  have v70 : FVec Ideal S1024x1 .f32 := shapeCast S1024x1 v69 shapeCasts_S1024_S1024x1
  have cst_45 : Ideal .f32 := Scalar.ofBits .f32 0x44800000#32
  have v71 : FVec Ideal S1024x1 .f32 := broadcast S1024x1 cst_45
  have v72 : FVec Ideal S1024x1 .f32 := divf v70 v71
  v72

/-- The deviations: each entry less its row's mean. -/
def dev81 (v68 : FVec Ideal S1024x1024 .f32) : FVec Ideal S1024x1024 .f32 :=
  have v80 : FVec Ideal S1024x1024 .f32 := broadcastTo S1024x1024 (mean72 v68) broadcasts_S1024x1_S1024x1024
  have v81 : FVec Ideal S1024x1024 .f32 := subf v68 v80
  v81

/-- The column of reciprocal square roots of the rows' mean square deviation plus the small constant. -/
def rs84 (v68 : FVec Ideal S1024x1024 .f32) : FVec Ideal S1024x1 .f32 :=
  have v75 : FVec Ideal S1024x1024 .f32 := mulf (dev81 v68) (dev81 v68)
  have v76 : FVec Ideal S1024 .f32 := multiReduction .add [1] S1024 v75 0x00000000#32 reduces_S1024x1024_S1024 (.inl rfl) rfl
  have v77 : FVec Ideal S1024x1 .f32 := shapeCast S1024x1 v76 shapeCasts_S1024_S1024x1
  have cst_47 : Ideal .f32 := Scalar.ofBits .f32 0x44800000#32
  have v78 : FVec Ideal S1024x1 .f32 := broadcast S1024x1 cst_47
  have v79 : FVec Ideal S1024x1 .f32 := divf v77 v78
  have cst_48 : Ideal .f32 := Scalar.ofBits .f32 0x2B8CBCCC#32
  have v82 : FVec Ideal S1024x1 .f32 := broadcast S1024x1 cst_48
  have v83 : FVec Ideal S1024x1 .f32 := addf v79 v82
  have v84 : FVec Ideal S1024x1 .f32 := rsqrt v83
  v84

/-- The normalized matrix: the deviations times their row's reciprocal square root. -/
def norm86 (v68 : FVec Ideal S1024x1024 .f32) : FVec Ideal S1024x1024 .f32 :=
  have v85 : FVec Ideal S1024x1024 .f32 := broadcastTo S1024x1024 (rs84 v68) broadcasts_S1024x1_S1024x1024
  have v86 : FVec Ideal S1024x1024 .f32 := mulf (dev81 v68) v85
  v86

/-- The mean column at row r is the mean of row r. -/
theorem mean72_apply (m : FVec Ideal S1024x1024 .f32) (r : Fin 1024) :
    mean72 m (ix2 r (0 : Fin 1)) = Cert.Attn.muRow (fun d => m (ix2 r d)) := by
  unfold mean72 Cert.Attn.muRow Cert.Attn.n1024
  refine congrArg (fun x => Ideal.div x (Ideal.ofBits .f32 0x44800000#32)) ?_
  exact (shapeCast_a_a1_apply _ _ r 0).trans (Cert.LibRowReduce.multiReduction_add_rows m _ _ _ _ r)

/-- The deviation at (r, h) is the entry less the mean of row r. -/
theorem dev81_apply (m : FVec Ideal S1024x1024 .f32) (r h : Fin 1024) :
    dev81 m (ix2 r h) = Cert.Attn.devRow (fun d => m (ix2 r d)) h := by
  unfold dev81 Cert.Attn.devRow
  refine congrArg (m (ix2 r h) - ·) ?_
  exact (broadcastTo_a1_ab_apply _ _ r h).trans (mean72_apply m r)

/-- The reciprocal square root column at row r: of the mean square deviation of row r plus the small constant. -/
theorem rs84_apply (m : FVec Ideal S1024x1024 .f32) (r : Fin 1024) :
    rs84 m (ix2 r (0 : Fin 1))
      = Ideal.rsqrt (Cert.Attn.varRow (fun d => m (ix2 r d)) + Cert.Attn.eps) := by
  unfold rs84 Cert.Attn.varRow Cert.Attn.n1024 Cert.Attn.eps
  refine congrArg (fun x => Ideal.rsqrt (Ideal.div x (Ideal.ofBits .f32 0x44800000#32) + Ideal.ofBits .f32 0x2B8CBCCC#32)) ?_
  refine (shapeCast_a_a1_apply _ _ r 0).trans ?_
  refine (Cert.LibRowReduce.multiReduction_add_rows _ _ _ _ _ r).trans ?_
  refine Finset.sum_congr rfl fun k _ => ?_
  exact congrArg₂ (· * ·) (dev81_apply m r k) (dev81_apply m r k)

/-- The normalized matrix at (r, h) is the normalized row r at h. -/
theorem norm86_apply (m : FVec Ideal S1024x1024 .f32) (r h : Fin 1024) :
    norm86 m (ix2 r h) = Cert.Attn.normRow (fun d => m (ix2 r d)) h := by
  unfold norm86 Cert.Attn.normRow
  refine congrArg₂ (· * ·) (dev81_apply m r h) ?_
  exact (broadcastTo_a1_ab_apply _ _ r h).trans (rs84_apply m r)

/-! ## The epilogue's payloads -/

/-- The normalized matching matrix of the last step is the layer norm's chain over the matching matrix. -/
theorem pay5_eq (ao : Vec Ideal S1024x1024 .f32) (lo : Vec Ideal S1024x1 .f32) (wU wL : Vec Ideal S1024x1024 .bf16)
    (q : Vec Ideal S1x1024x1024 .bf16) (b2 : Vec Ideal S1x1024 .f32) :
    k0_pay5 (F := Ideal) ao lo wU wL q b2 = norm86 (mat68 ao lo wU wL q b2) := rfl

/-- The normalized matching matrix at (r, h): the normalized matching row of r at h. -/
theorem pay5_apply (ao : Vec Ideal S1024x1024 .f32) (lo : Vec Ideal S1024x1 .f32) (wU wL : Vec Ideal S1024x1024 .bf16)
    (q : Vec Ideal S1x1024x1024 .bf16) (b2 : Vec Ideal S1x1024 .f32) (r h : Fin 1024) :
    k0_pay5 (F := Ideal) ao lo wU wL q b2 (ix2 r h) = Cert.Attn.normRow (mrow ao lo wU wL q b2 r) h := by
  rw [pay5_eq, norm86_apply]
  exact congrArg (fun row => Cert.Attn.normRow row h) (funext fun d => mat68_apply ao lo wU wL q b2 r d)

/-- The stored block at (0, r, h): the layer norm of the matching row of r, with the gain and the shift, at h. -/
theorem pay4_pay5_apply (ao : Vec Ideal S1024x1024 .f32) (lo : Vec Ideal S1024x1 .f32) (wU wL : Vec Ideal S1024x1024 .bf16)
    (q : Vec Ideal S1x1024x1024 .bf16) (b2 g2 be2 : Vec Ideal S1x1024 .f32) (r h : Fin 1024) :
    k0_pay4 (F := Ideal) (k0_pay5 (F := Ideal) ao lo wU wL q b2) (k0_pay6 (F := Ideal) g2) be2 (ix3 0 r h)
      = Cert.Attn.lnRow (mrow ao lo wU wL q b2 r) (fun h => g2 (ix2 0 h)) (fun h => be2 (ix2 0 h)) h := by
  rw [pay4_apply, pay5_apply, pay6_eq]
  rfl

end Cert.KernelIdeal.PayAt

end
-- ==== Proof.KI.Blocks.lean ====
/-
  Where a window's block sits in its array. The grid of the attention kernel has 8 · 2 · 4 points, numbered
  t = (b · 2 + qi) · 4 + ki for batch b, query tile qi and key/value tile ki, so b = t / 8, qi = t / 4 % 2 and
  ki = t % 4. A block's element at coordinate y sits in the array, on each axis, at block index × block size + y.
  Hence the query tile at point t is rows 1024 · qi … 1024 · qi + 1023 of batch b, the key/value tile is rows
  512 · ki … 512 · ki + 511 of the same array, the mask tile is those rows against those columns, and the four
  remaining inputs are whole arrays. The arrays the tiles are cut from were written by the host before the region:
  two changes of float format, which are the identity on the extended reals, and three reshapes [1024] → [1, 1024],
  which keep the one coordinate that moves. The output tile is written back at the last key/value step (ki = 3) of
  each (b, qi); those 16 blocks of 1024 rows tile the [8, 2048, 1024] result, the block that holds row r of batch
  b being the one of point 8 · b + 4 · (r / 1024) + 3.
-/
import proofs.«157672_j2353642078946_2_alg».proof.Proof.KI.Setup
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

variable (m : (ℓ : Loc nD τ sig) → Buf (Elt F) ℓ)

/-! ## The grid's coordinates and the windows' block indices, in closed form -/

/-- Point `t` of the grid is batch `t / 8`, query tile `t / 4 % 2`, key/value tile `t % 4`. -/
theorem coords_val : ∀ t : Fin cfg0.N, (grid0.coords t 0).val = t.val / 8 ∧ (grid0.coords t 1).val = t.val / 4 % 2
    ∧ (grid0.coords t 2).val = t.val % 4 :=
  (by decide +kernel : ∀ t : Fin grid0.N, (grid0.coords t 0).val = t.val / 8 ∧ (grid0.coords t 1).val = t.val / 4 % 2
    ∧ (grid0.coords t 2).val = t.val % 4)

/-- The query window's block index at point `t`: (batch, query tile, 0). -/
theorem index_0 : ∀ t : Fin cfg0.N, win0_0.index t (0 : Fin 3) = t.val / 8 ∧ win0_0.index t (1 : Fin 3) = t.val / 4 % 2
    ∧ win0_0.index t (2 : Fin 3) = 0 :=
  (by decide +kernel : ∀ t : Fin grid0.N, win0_0.index t (0 : Fin 3) = t.val / 8 ∧ win0_0.index t (1 : Fin 3) = t.val / 4 % 2
    ∧ win0_0.index t (2 : Fin 3) = 0)

/-- The key/value window's block index at point `t`: (batch, key/value tile, 0). -/
theorem index_1 : ∀ t : Fin cfg0.N, win0_1.index t (0 : Fin 3) = t.val / 8 ∧ win0_1.index t (1 : Fin 3) = t.val % 4
    ∧ win0_1.index t (2 : Fin 3) = 0 :=
  (by decide +kernel : ∀ t : Fin grid0.N, win0_1.index t (0 : Fin 3) = t.val / 8 ∧ win0_1.index t (1 : Fin 3) = t.val % 4
    ∧ win0_1.index t (2 : Fin 3) = 0)

/-- The mask window's block index at point `t`: (batch, query tile, key/value tile). -/
theorem index_2 : ∀ t : Fin cfg0.N, win0_2.index t (0 : Fin 3) = t.val / 8 ∧ win0_2.index t (1 : Fin 3) = t.val / 4 % 2
    ∧ win0_2.index t (2 : Fin 3) = t.val % 4 :=
  (by decide +kernel : ∀ t : Fin grid0.N, win0_2.index t (0 : Fin 3) = t.val / 8 ∧ win0_2.index t (1 : Fin 3) = t.val / 4 % 2
    ∧ win0_2.index t (2 : Fin 3) = t.val % 4)

/-- The four whole-array windows stay at block (0, 0). -/
theorem index_3456 : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0)

/-- The output window's block index at point `t`: (batch, query tile, 0). -/
theorem index_7 : ∀ t : Fin cfg0.N, win0_7.index t (0 : Fin 3) = t.val / 8 ∧ win0_7.index t (1 : Fin 3) = t.val / 4 % 2
    ∧ win0_7.index t (2 : Fin 3) = 0 :=
  (by decide +kernel : ∀ t : Fin grid0.N, win0_7.index t (0 : Fin 3) = t.val / 8 ∧ win0_7.index t (1 : Fin 3) = t.val / 4 % 2
    ∧ win0_7.index t (2 : Fin 3) = 0)

/-! ## The input blocks at coordinates

A block's element at coordinate `x` sits in the array, on each axis, at block index × block size + 1 × `x`. Each
lemma is stated twice: for any index `k` of the array whose coordinates are those sums, and at explicit coordinates. -/

/-- A point's number is below 64. -/
theorem point_lt (t : Fin cfg0.N) : t.val < 64 := lt_of_lt_of_eq t.isLt N_0

/-- The query tile at point `t`: row `x 1` of the tile is row `1024 · (t / 4 % 2) + x 1` of batch `t / 8`. -/
theorem iblk_0_at (c : Dev nD) (t : Fin cfg0.N) (x : S1x1024x1024.Idx) (k : S8x2048x1024.Idx)
    (hk0 : (k 0).val = t.val / 8) (hk1 : (k 1).val = 1024 * (t.val / 4 % 2) + (x 1).val) (hk2 : (k 2).val = (x 2).val) :
    (iblk m c 0 t : S1x1024x1024.Idx → Elt F .bf16) x = (V m c main_v0 : S8x2048x1024.Idx → Elt F .bf16) k := by
  obtain ⟨e0, e1, e2⟩ := index_0 t
  have hx0 : (x 0).val < 1 := (x 0).isLt
  unfold iblk
  rw [View.read_apply]
  show (V m c main_v0 : S8x2048x1024.Idx → Elt F .bf16) (((cfg0.win 0).blk t).view.emb x) = V m c main_v0 k
  refine congrArg (V m c main_v0 : S8x2048x1024.Idx → Elt F .bf16) ?_
  funext a
  apply Fin.ext
  match a with
  | ⟨0, _⟩ => show win0_0.index t (0 : Fin 3) * 1 + 1 * (x 0).val = (k 0).val; omega
  | ⟨1, _⟩ => show win0_0.index t (1 : Fin 3) * 1024 + 1 * (x 1).val = (k 1).val; omega
  | ⟨2, _⟩ => show win0_0.index t (2 : Fin 3) * 1024 + 1 * (x 2).val = (k 2).val; omega

/-- The query tile at explicit coordinates. -/
theorem iblk_0_apply (c : Dev nD) (t : Fin cfg0.N) (r d : Fin 1024) :
    (iblk m c 0 t : S1x1024x1024.Idx → Elt F .bf16) (ix3 (0 : Fin 1) r d)
      = (V m c main_v0 : S8x2048x1024.Idx → Elt F .bf16)
          (ix3 (⟨t.val / 8, by have := point_lt t; omega⟩ : Fin 8) (⟨1024 * (t.val / 4 % 2) + r.val, by omega⟩ : Fin 2048) d) :=
  iblk_0_at m c t _ _ rfl rfl rfl

/-- The key/value tile at point `t`: row `x 1` of the tile is row `512 · (t % 4) + x 1` of batch `t / 8` of the same array
    the query tile is cut from. -/
theorem iblk_1_at (c : Dev nD) (t : Fin cfg0.N) (x : S1x512x1024.Idx) (k : S8x2048x1024.Idx)
    (hk0 : (k 0).val = t.val / 8) (hk1 : (k 1).val = 512 * (t.val % 4) + (x 1).val) (hk2 : (k 2).val = (x 2).val) :
    (iblk m c 1 t : S1x512x1024.Idx → Elt F .bf16) x = (V m c main_v0 : S8x2048x1024.Idx → Elt F .bf16) k := by
  obtain ⟨e0, e1, e2⟩ := index_1 t
  have hx0 : (x 0).val < 1 := (x 0).isLt
  unfold iblk
  rw [View.read_apply]
  show (V m c main_v0 : S8x2048x1024.Idx → Elt F .bf16) (((cfg0.win 1).blk t).view.emb x) = V m c main_v0 k
  refine congrArg (V m c main_v0 : S8x2048x1024.Idx → Elt F .bf16) ?_
  funext a
  apply Fin.ext
  match a with
  | ⟨0, _⟩ => show win0_1.index t (0 : Fin 3) * 1 + 1 * (x 0).val = (k 0).val; omega
  | ⟨1, _⟩ => show win0_1.index t (1 : Fin 3) * 512 + 1 * (x 1).val = (k 1).val; omega
  | ⟨2, _⟩ => show win0_1.index t (2 : Fin 3) * 1024 + 1 * (x 2).val = (k 2).val; omega

/-- The key/value tile at explicit coordinates. -/
theorem iblk_1_apply (c : Dev nD) (t : Fin cfg0.N) (k : Fin 512) (d : Fin 1024) :
    (iblk m c 1 t : S1x512x1024.Idx → Elt F .bf16) (ix3 (0 : Fin 1) k d)
      = (V m c main_v0 : S8x2048x1024.Idx → Elt F .bf16)
          (ix3 (⟨t.val / 8, by have := point_lt t; omega⟩ : Fin 8) (⟨512 * (t.val % 4) + k.val, by omega⟩ : Fin 2048) d) :=
  iblk_1_at m c t _ _ rfl rfl rfl

/-- The mask tile at point `t`: entry `(x 1, x 2)` of the tile is entry `(1024 · (t / 4 % 2) + x 1, 512 · (t % 4) + x 2)`
    of batch `t / 8`. -/
theorem iblk_2_at (c : Dev nD) (t : Fin cfg0.N) (x : S1x1024x512.Idx) (k : S8x2048x2048.Idx)
    (hk0 : (k 0).val = t.val / 8) (hk1 : (k 1).val = 1024 * (t.val / 4 % 2) + (x 1).val)
    (hk2 : (k 2).val = 512 * (t.val % 4) + (x 2).val) :
    (iblk m c 2 t : S1x1024x512.Idx → Elt F .f32) x = (V m c main_arg1 : S8x2048x2048.Idx → Elt F .f32) k := by
  obtain ⟨e0, e1, e2⟩ := index_2 t
  have hx0 : (x 0).val < 1 := (x 0).isLt
  unfold iblk
  rw [View.read_apply]
  show (V m c main_arg1 : S8x2048x2048.Idx → Elt F .f32) (((cfg0.win 2).blk t).view.emb x) = V m c main_arg1 k
  refine congrArg (V m c main_arg1 : S8x2048x2048.Idx → Elt F .f32) ?_
  funext a
  apply Fin.ext
  match a with
  | ⟨0, _⟩ => show win0_2.index t (0 : Fin 3) * 1 + 1 * (x 0).val = (k 0).val; omega
  | ⟨1, _⟩ => show win0_2.index t (1 : Fin 3) * 1024 + 1 * (x 1).val = (k 1).val; omega
  | ⟨2, _⟩ => show win0_2.index t (2 : Fin 3) * 512 + 1 * (x 2).val = (k 2).val; omega

/-- The mask tile at explicit coordinates. -/
theorem iblk_2_apply (c : Dev nD) (t : Fin cfg0.N) (r : Fin 1024) (k : Fin 512) :
    (iblk m c 2 t : S1x1024x512.Idx → Elt F .f32) (ix3 (0 : Fin 1) r k)
      = (V m c main_arg1 : S8x2048x2048.Idx → Elt F .f32)
          (ix3 (⟨t.val / 8, by have := point_lt t; omega⟩ : Fin 8) (⟨1024 * (t.val / 4 % 2) + r.val, by omega⟩ : Fin 2048)
            (⟨512 * (t.val % 4) + k.val, by omega⟩ : Fin 2048)) :=
  iblk_2_at m c t _ _ rfl rfl rfl

/-- Window 3's block is its whole array at every point. -/
theorem iblk_3_eq (c : Dev nD) (t : Fin cfg0.N) :
    (iblk m c 3 t : S2048x1024.Idx → Elt F .bf16) = (V m c main_v1 : S2048x1024.Idx → Elt F .bf16) := by
  obtain ⟨e0, e1, -⟩ := index_3456 t
  funext x
  unfold iblk
  rw [View.read_apply]
  show (V m c main_v1 : S2048x1024.Idx → Elt F .bf16) (((cfg0.win 3).blk t).view.emb x) = V m c main_v1 x
  refine congrArg (V m c main_v1 : S2048x1024.Idx → Elt F .bf16) ?_
  funext a
  apply Fin.ext
  match a with
  | ⟨0, _⟩ => show win0_3.index t (0 : Fin 2) * 2048 + 1 * (x 0).val = (x 0).val; omega
  | ⟨1, _⟩ => show win0_3.index t (1 : Fin 2) * 1024 + 1 * (x 1).val = (x 1).val; omega

/-- Window 4's block is its whole array at every point. -/
theorem iblk_4_eq (c : Dev nD) (t : Fin cfg0.N) :
    (iblk m c 4 t : S1x1024.Idx → Elt F .f32) = (V m c main_v2 : S1x1024.Idx → Elt F .f32) := by
  obtain ⟨-, -, e0, e1, -⟩ := index_3456 t
  funext x
  unfold iblk
  rw [View.read_apply]
  show (V m c main_v2 : S1x1024.Idx → Elt F .f32) (((cfg0.win 4).blk t).view.emb x) = V m c main_v2 x
  refine congrArg (V m c main_v2 : S1x1024.Idx → Elt F .f32) ?_
  funext a
  apply Fin.ext
  match a with
  | ⟨0, _⟩ => show win0_4.index t (0 : Fin 2) * 1 + 1 * (x 0).val = (x 0).val; omega
  | ⟨1, _⟩ => show win0_4.index t (1 : Fin 2) * 1024 + 1 * (x 1).val = (x 1).val; omega

/-- Window 5's block is its whole array at every point. -/
theorem iblk_5_eq (c : Dev nD) (t : Fin cfg0.N) :
    (iblk m c 5 t : S1x1024.Idx → Elt F .f32) = (V m c main_v3 : S1x1024.Idx → Elt F .f32) := by
  obtain ⟨-, -, -, -, e0, e1, -⟩ := index_3456 t
  funext x
  unfold iblk
  rw [View.read_apply]
  show (V m c main_v3 : S1x1024.Idx → Elt F .f32) (((cfg0.win 5).blk t).view.emb x) = V m c main_v3 x
  refine congrArg (V m c main_v3 : S1x1024.Idx → Elt F .f32) ?_
  funext a
  apply Fin.ext
  match a with
  | ⟨0, _⟩ => show win0_5.index t (0 : Fin 2) * 1 + 1 * (x 0).val = (x 0).val; omega
  | ⟨1, _⟩ => show win0_5.index t (1 : Fin 2) * 1024 + 1 * (x 1).val = (x 1).val; omega

/-- Window 6's block is its whole array at every point. -/
theorem iblk_6_eq (c : Dev nD) (t : Fin cfg0.N) :
    (iblk m c 6 t : S1x1024.Idx → Elt F .f32) = (V m c main_v4 : S1x1024.Idx → Elt F .f32) := by
  obtain ⟨-, -, -, -, -, -, e0, e1⟩ := index_3456 t
  funext x
  unfold iblk
  rw [View.read_apply]
  show (V m c main_v4 : S1x1024.Idx → Elt F .f32) (((cfg0.win 6).blk t).view.emb x) = V m c main_v4 x
  refine congrArg (V m c main_v4 : S1x1024.Idx → Elt F .f32) ?_
  funext a
  apply Fin.ext
  match a with
  | ⟨0, _⟩ => show win0_6.index t (0 : Fin 2) * 1 + 1 * (x 0).val = (x 0).val; omega
  | ⟨1, _⟩ => show win0_6.index t (1 : Fin 2) * 1024 + 1 * (x 1).val = (x 1).val; omega

/-! ## The arrays the host wrote before the region

The three reshapes keep the element type and hold in every float format; the two changes of float format are the
identity on the extended reals only. -/

/-- The reshape [1024] → [1, 1024] of the fourth argument, read at an index. -/
theorem V_main_v2_apply (c : Dev nD) (u : Fin 1) (h : Fin 1024) :
    (V m c main_v2 : S1x1024.Idx → Elt F .f32) (ix2 u h) = (m ((c : Thread nD τ).loc main_arg3) : S1024.Idx → Elt F .f32) (ix1 h) := by
  have e : (V m c main_v2 : S1x1024.Idx → Elt F .f32)
      = shapeCast S1x1024 (m ((c : Thread nD τ).loc main_arg3) : S1024.Idx → Elt F .f32) Facts₀.shapeCasts_S1024_S1x1024 := by
    dsimp only [V, hostOps0]; after_results; rfl
  rw [e]
  exact shapeCast_a_1a_apply _ _ u h

/-- The reshape [1024] → [1, 1024] of the fifth argument, read at an index. -/
theorem V_main_v3_apply (c : Dev nD) (u : Fin 1) (h : Fin 1024) :
    (V m c main_v3 : S1x1024.Idx → Elt F .f32) (ix2 u h) = (m ((c : Thread nD τ).loc main_arg4) : S1024.Idx → Elt F .f32) (ix1 h) := by
  have e : (V m c main_v3 : S1x1024.Idx → Elt F .f32)
      = shapeCast S1x1024 (m ((c : Thread nD τ).loc main_arg4) : S1024.Idx → Elt F .f32) Facts₀.shapeCasts_S1024_S1x1024 := by
    dsimp only [V, hostOps0]; after_results; rfl
  rw [e]
  exact shapeCast_a_1a_apply _ _ u h

/-- The reshape [1024] → [1, 1024] of the sixth argument, read at an index. -/
theorem V_main_v4_apply (c : Dev nD) (u : Fin 1) (h : Fin 1024) :
    (V m c main_v4 : S1x1024.Idx → Elt F .f32) (ix2 u h) = (m ((c : Thread nD τ).loc main_arg5) : S1024.Idx → Elt F .f32) (ix1 h) := by
  have e : (V m c main_v4 : S1x1024.Idx → Elt F .f32)
      = shapeCast S1x1024 (m ((c : Thread nD τ).loc main_arg5) : S1024.Idx → Elt F .f32) Facts₀.shapeCasts_S1024_S1x1024 := by
    dsimp only [V, hostOps0]; after_results; rfl
  rw [e]
  exact shapeCast_a_1a_apply _ _ u h

/-- On the extended reals the query/key/value array the region finds is the first argument. -/
theorem V_main_v0_ideal (m : (ℓ : Loc nD τ sig) → Buf (Elt Ideal) ℓ) (c : Dev nD) :
    (V (F := Ideal) m c main_v0 : S8x2048x1024.Idx → EReal) = (m ((c : Thread nD τ).loc main_arg0) : S8x2048x1024.Idx → EReal) := by
  dsimp only [V, hostOps0]; after_results; rfl

/-- On the extended reals the projection matrix the region finds is the third argument. -/
theorem V_main_v1_ideal (m : (ℓ : Loc nD τ sig) → Buf (Elt Ideal) ℓ) (c : Dev nD) :
    (V (F := Ideal) m c main_v1 : S2048x1024.Idx → EReal) = (m ((c : Thread nD τ).loc main_arg2) : S2048x1024.Idx → EReal) := by
  dsimp only [V, hostOps0]; after_results; rfl

/-! ## The output window

The output tile of point `t` is rows `1024 · (t / 4 % 2) … + 1023` of batch `t / 8` of the result. It is written back at
the points with `t % 4 = 3`, one per batch and query tile, and those 16 blocks fill the result. -/

/-- Any contents `G` of the result array, read through the output block of point `t`. -/
theorem oblk_read_at (G : S8x2048x1024.Idx → Elt F .f32) (t : Fin cfg0.N) (x : S1x1024x1024.Idx) (k : S8x2048x1024.Idx)
    (hk0 : (k 0).val = t.val / 8) (hk1 : (k 1).val = 1024 * (t.val / 4 % 2) + (x 1).val) (hk2 : (k 2).val = (x 2).val) :
    (((cfg0.win 7).blk t).view.read (Elt F) G : S1x1024x1024.Idx → Elt F .f32) x = G k := by
  obtain ⟨e0, e1, e2⟩ := index_7 t
  have hx0 : (x 0).val < 1 := (x 0).isLt
  rw [View.read_apply]
  show G (((cfg0.win 7).blk t).view.emb x) = G k
  refine congrArg G ?_
  funext a
  apply Fin.ext
  match a with
  | ⟨0, _⟩ => show win0_7.index t (0 : Fin 3) * 1 + 1 * (x 0).val = (k 0).val; omega
  | ⟨1, _⟩ => show win0_7.index t (1 : Fin 3) * 1024 + 1 * (x 1).val = (k 1).val; omega
  | ⟨2, _⟩ => show win0_7.index t (2 : Fin 3) * 1024 + 1 * (x 2).val = (k 2).val; omega

/-- The same at explicit coordinates. -/
theorem oblk_read_apply (G : S8x2048x1024.Idx → Elt F .f32) (t : Fin cfg0.N) (r h : Fin 1024) :
    (((cfg0.win 7).blk t).view.read (Elt F) G : S1x1024x1024.Idx → Elt F .f32) (ix3 (0 : Fin 1) r h)
      = G (ix3 (⟨t.val / 8, by have := point_lt t; omega⟩ : Fin 8) (⟨1024 * (t.val / 4 % 2) + r.val, by omega⟩ : Fin 2048) h) :=
  oblk_read_at G t _ _ rfl rfl rfl

/-- An index of the result is in point `t`'s output block iff each coordinate is in the block's range on its axis. -/
theorem mem_blk_7 (t : Fin cfg0.N) (i : S8x2048x1024.Idx) :
    i ∈ ((cfg0.win 7).blk t).view.set ↔ ∀ a : Fin 3, win0_7.index t a * S1x1024x1024.size a ≤ (i a).val
      ∧ (i a).val < win0_7.index t a * S1x1024x1024.size a + S1x1024x1024.size a := by
  show i ∈ ((View.whole main_v5).slice (win0_7.rect t)).set ↔ _
  rw [View.set_slice_whole, Rect.mem_set_unit]
  exact Iff.rfl

/-- Every index of the result lies in the output block of a point that writes back: the point of its batch and of its
    row's query tile, at the last key/value step. -/
theorem cover_7 (i : S8x2048x1024.Idx) :
    ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 1024 := (i 2).isLt
  obtain ⟨t, ht⟩ : ∃ t : Fin cfg0.N, t.val = 8 * (i 0).val + 4 * ((i 1).val / 1024) + 3 :=
    ⟨⟨8 * (i 0).val + 4 * ((i 1).val / 1024) + 3, by rw [show cfg0.N = 64 from N_0]; omega⟩, rfl⟩
  obtain ⟨e0, e1, e2⟩ := index_7 t
  refine ⟨t, (flush0_7 t).mpr (by omega), ?_⟩
  rw [mem_blk_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

end Cert.KernelIdeal.Hand

end
-- ==== Proof.KI.Finite.lean ====
/-
  The precondition "every float input is finite", read at the extended reals, says that every entry of the six
  argument arrays is a real number.

  The predicate is a conjunction of six terms, one per argument array x: all(|x| < +inf), where |x| is
  max x (-x), +inf is the f32 pattern 0x7F800000 and "all" is a reduction by `and` over every axis, started at 1.
  The precondition states that this conjunction is 1. A conjunction of bits is 1 exactly when each bit is; a reduction
  by `and` over every axis that is 1 met a 1 at every index; so at every index i of every array the comparison bit of
  max (x i) (-(x i)) < +inf is 1. The pattern 0x7F800000 (sign 0, exponent all ones, significand 0) denotes ⊤. An
  extended real is ⊥, a real, or ⊤: at ⊥, max ⊥ (-⊥) = ⊤, and at ⊤, max ⊤ (-⊤) = ⊤, neither below ⊤; so x i is a real.
-/
import proofs.«157672_j2353642078946_2_alg».proof.Defs
import proofs.«157672_j2353642078946_2_alg».proof.Proof.Gen.KernelIdeal
import proofs.«157672_j2353642078946_2_alg».proof.Proof.Gen.Pre_finite_inputs
import Idealize.ShloMosaic.Lib.ReduceAll
import Idealize.ShloMosaic.Lib.ValueIdx

noncomputable section

namespace Cert.KernelIdeal.Finite

open Idealize.ShloMosaic Idealize.SL.Sem Idealize.ShloMosaic.ValueIdx
open Cert.Pre_finite_inputs (S_)

/-- The f32 pattern 0x7F800000 (sign 0, exponent all ones, significand 0) denotes +∞. -/
theorem inf_eq_top : Ideal.ofBits .f32 0x7F800000#32 = (⊤ : EReal) := by
  simp [Ideal.ofBits, Ideal.ieee]

/-- An extended real whose absolute value max x (-x) compares below +∞ (the comparison bit is 1) is a real number:
    at ⊥ and at ⊤ the absolute value is ⊤, which is not below ⊤. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- One array of any shape: if all(|x| < +inf) — the reduction by `and` over every axis of the comparison of |x|
    with the broadcast +∞ — is 1, every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1)
    (i : s.Idx) : ∃ r : ℝ, x i = (r : EReal) :=
  real_of_abs_lt_inf (x i) (Host.reduce_andi_all _ _ hr hu ix0 e i)

/-- Under the precondition, on every device, every entry of each of the six argument arrays is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal))
    ∧ (∀ i, ∃ x : ℝ, m ((c.tc : Thread Cert.KernelIdeal.nD Cert.KernelIdeal.τ).loc Cert.KernelIdeal.main_arg4) i = (x : EReal))
    ∧ (∀ i, ∃ x : ℝ, m ((c.tc : Thread Cert.KernelIdeal.nD Cert.KernelIdeal.τ).loc Cert.KernelIdeal.main_arg5) i = (x : EReal)) := by
  have h0 := congrFun (h c) ix0
  dsimp only [Cert.Pre_finite_inputs.fn, Cert.Pre_finite_inputs.fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all _ _ _ _ h0, real_of_all _ _ _ _ h1, real_of_all _ _ _ _ h2,
    real_of_all _ _ _ _ h3, real_of_all _ _ _ _ h4, real_of_all _ _ _ _ h5⟩

end Cert.KernelIdeal.Finite
-- ==== Proof.KI.Weights.lean ====
/-
  The two halves of the weight read at coordinates.  The staged weight has 2048 rows of 1024 entries; its upper half is
  the block of 1024 rows from row 0 and its lower half the block of 1024 rows from row 1024, each read with unit stride:
  entry (d, h) of the upper half is the weight at (d, h), entry (d, h) of the lower half is the weight at (1024 + d, h).
-/
import proofs.«157672_j2353642078946_2_alg».proof.Proof.KI.StepVals
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

/-- The upper half of the weight at `(d, h)` is the weight at `(d, h)`. -/
theorem wUp_apply (w : Vec F S2048x1024 .bf16) (d h : Fin 1024) :
    wUp w (ix2 d h) = w (ix2 (⟨d.val, by omega⟩ : Fin 2048) h) := by
  unfold wUp
  show w ((Rect.unit (s := S2048x1024) ![0, 0] S1024x1024.size inb_S2048x1024_S1024x1024_0_0).idx (ix2 d h)) = _
  refine congrArg w (funext fun a => Fin.ext ?_)
  match a with
  | ⟨0, _⟩ =>
    show 0 + 1 * d.val = d.val
    omega
  | ⟨1, _⟩ =>
    show 0 + 1 * h.val = h.val
    omega

/-- The lower half of the weight at `(d, h)` is the weight at `(1024 + d, h)`. -/
theorem wLo_apply (w : Vec F S2048x1024 .bf16) (d h : Fin 1024) :
    wLo w (ix2 d h) = w (ix2 (⟨1024 + d.val, by omega⟩ : Fin 2048) h) := by
  unfold wLo
  show w ((Rect.unit (s := S2048x1024) ![1024, 0] S1024x1024.size inb_S2048x1024_S1024x1024_1024_0).idx (ix2 d h)) = _
  refine congrArg w (funext fun a => Fin.ext ?_)
  match a with
  | ⟨0, _⟩ =>
    show 1024 + 1 * d.val = 1024 + d.val
    omega
  | ⟨1, _⟩ =>
    show 0 + 1 * h.val = h.val
    omega

end Cert.KernelIdeal.Hand

end
-- ==== Proof.KI.Final.lean ====
/-
  The idealized kernel's result array is the specification.

  At a grid point that writes the output back (the last key/value step of a query tile) the output tile is the
  epilogue of the point's scratch; at row `r` and column `h` that is the layer norm of the matching row built from the
  query row, the quotient of the accumulator by the running sum, the two halves of the weight and the bias.  The
  quotient is the specification's context: the scratch is the online softmax of the row's logits (every input entry is
  a real number under the precondition), and the online softmax over the four key blocks is the softmax.  The sixteen
  output blocks fill the result array.
-/
import proofs.«157672_j2353642078946_2_alg».proof.Proof.KI.Online
import proofs.«157672_j2353642078946_2_alg».proof.Proof.KI.PayEpi
import proofs.«157672_j2353642078946_2_alg».proof.Proof.KI.Blocks
import proofs.«157672_j2353642078946_2_alg».proof.Proof.KI.Finite
import proofs.«157672_j2353642078946_2_alg».proof.Proof.KI.Weights
import proofs.«157672_j2353642078946_2_alg».proof.Proof.KI.Frame

set_option maxRecDepth 16384

noncomputable section

namespace Cert.KernelIdeal.Hand

open Cert.KernelIdeal Cert.KernelIdeal.Gen Cert.KernelIdeal.PayAt Idealize.ShloMosaic Idealize.ShloMosaic.TcCoe Idealize.ShloMosaic.ValueIdx
open Idealize.SL.Sem
open Idealize.ShloMosaic.Pipeline (Dat)
open Cert.Lib Cert.Attn

variable (m : (ℓ : Loc nD τ sig) → Buf (Elt Ideal) ℓ) (ρ : Dev nD → PrngReg)

/-- The specification's result at the argument arrays as launched. -/
abbrev specOut (c : Dev nD) : S8x2048x1024.Idx → EReal :=
  Cert.Attn.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a writing point leaves in the output window's staging buffer is the specification's tile. -/
theorem out_tile (hpre : Cert.Pre_KernelIdeal m) (c : Dev nD) (t : Fin cfg0.N) (h3 : t.val % 4 = 3) (r h : Fin 1024) :
    ((outsAt m c t.val t.isLt).1 : S1x1024x1024.Idx → EReal) (ix3 (0 : Fin 1) r h)
      = specOut m c (ix3 (tb t) (tq t r) h) := by
  obtain ⟨hr0, hr1, -⟩ := Cert.KernelIdeal.Finite.real_of_pre m hpre c
  choose X0 hX0 using hr0
  choose M0 hM0 using hr1
  let Xr : Fin 8 → Fin 2048 → Fin 1024 → ℝ := fun b s d => X0 (ix3 b s d)
  let Mr : Fin 8 → Fin 2048 → Fin 2048 → ℝ := fun b s u => M0 (ix3 b s u)
  have hX : Cert.Attn.X3 (m ((c : Thread nD τ).loc main_arg0)) = fun b s d => ((Xr b s d : ℝ) : EReal) := by
    funext b s d; exact hX0 (ix3 b s d)
  have hM : Cert.Attn.M3 (m ((c : Thread nD τ).loc main_arg1)) = fun b s u => ((Mr b s u : ℝ) : EReal) := by
    funext b s u; exact hM0 (ix3 b s u)
  have hq : ∀ (t : Fin cfg0.N) (r d : Fin 1024), (iblk m c 0 t : S1x1024x1024.Idx → EReal) (ix3 0 r d) = (Xr (tb t) (tq t r) d : EReal) := by
    intro t r d
    rw [iblk_0_apply m c t r d, V_main_v0_ideal m c]
    exact hX0 _
  have hk : ∀ (t : Fin cfg0.N) (k : Fin 512) (d : Fin 1024), (iblk m c 1 t : S1x512x1024.Idx → EReal) (ix3 0 k d) = (Xr (tb t) (tk t k) d : EReal) := by
    intro t k d
    rw [iblk_1_apply m c t k d, V_main_v0_ideal m c]
    exact hX0 _
  have hmk : ∀ (t : Fin cfg0.N) (r : Fin 1024) (k : Fin 512), (iblk m c 2 t : S1x1024x512.Idx → EReal) (ix3 0 r k) = (Mr (tb t) (tq t r) (tk t k) : EReal) := by
    intro t r k
    rw [iblk_2_apply m c t r k, V_main_arg1 m c]
    exact hM0 _
  have hon := scr_online m c Xr Mr hq hk hmk t.val t.isLt r
  -- the context: the accumulator over the running sum
  have hctx : ∀ d : Fin 1024,
      Ideal.div (((scrAt m c t.val t.isLt).2.2 : S1024x1024.Idx → EReal) (ix2 r d)) (((scrAt m c t.val t.isLt).2.1 : S1024x1.Idx → EReal) (ix2 r (0 : Fin 1)))
        = Cert.Attn.ctx (Cert.Attn.X3 (m ((c : Thread nD τ).loc main_arg0))) (Cert.Attn.M3 (m ((c : Thread nD τ).loc main_arg1))) (tb t) (tq t r) d := by
    intro d
    have e := hon d
    rw [show t.val % 4 + 1 = 4 from by omega] at e
    have ea : ((scrAt m c t.val t.isLt).2.2 : S1024x1024.Idx → EReal) (ix2 r d) = (rowSt (scrAt m c t.val t.isLt) r d).a := rfl
    have el : ((scrAt m c t.val t.isLt).2.1 : S1024x1.Idx → EReal) (ix2 r (0 : Fin 1)) = (rowSt (scrAt m c t.val t.isLt) r d).l := rfl
    rw [ea, el, e, hX, hM]
    exact Cert.Attn.ctx_online Xr Mr (tb t) (tq t r) d
  rw [outsAt_out m c t h3]
  unfold outT
  rw [pay4_pay5_apply]
  show _ = Cert.Attn.out (Cert.Attn.X3 (m ((c : Thread nD τ).loc main_arg0))) (Cert.Attn.M3 (m ((c : Thread nD τ).loc main_arg1))) (Cert.Attn.W2 (m ((c : Thread nD τ).loc main_arg2))) (Cert.Attn.V1 (m ((c : Thread nD τ).loc main_arg3))) (Cert.Attn.V1 (m ((c : Thread nD τ).loc main_arg4))) (Cert.Attn.V1 (m ((c : Thread nD τ).loc main_arg5))) (tb t) (tq t r) h
  rw [Cert.Attn.out_eq_lnRow]
  have e1 : (fun d : Fin 1024 => (iblk m c 0 t : S1x1024x1024.Idx → EReal) (ix3 0 r d)) = Cert.Attn.X3 (m ((c : Thread nD τ).loc main_arg0)) (tb t) (tq t r) := by
    funext d; rw [hq, hX]
  have e2 : (fun d : Fin 1024 => Ideal.div (((scrAt m c t.val t.isLt).2.2 : S1024x1024.Idx → EReal) (ix2 r d)) (((scrAt m c t.val t.isLt).2.1 : S1024x1.Idx → EReal) (ix2 r 0)))
      = Cert.Attn.ctx (Cert.Attn.X3 (m ((c : Thread nD τ).loc main_arg0))) (Cert.Attn.M3 (m ((c : Thread nD τ).loc main_arg1))) (tb t) (tq t r) := funext hctx
  have e3 : (fun (d h : Fin 1024) => (wUp (iblk m c 3 t : S2048x1024.Idx → EReal) : S1024x1024.Idx → EReal) (ix2 d h)) = Cert.Attn.upper (Cert.Attn.W2 (m ((c : Thread nD τ).loc main_arg2))) := by
    funext d h; rw [wUp_apply, iblk_3_eq m c t, V_main_v1_ideal m c]; rfl
  have e4 : (fun (d h : Fin 1024) => (wLo (iblk m c 3 t : S2048x1024.Idx → EReal) : S1024x1024.Idx → EReal) (ix2 d h)) = Cert.Attn.lower (Cert.Attn.W2 (m ((c : Thread nD τ).loc main_arg2))) := by
    funext d h; rw [wLo_apply, iblk_3_eq m c t, V_main_v1_ideal m c]; rfl
  have e5 : (fun h : Fin 1024 => (iblk m c 4 t : S1x1024.Idx → EReal) (ix2 (0 : Fin 1) h)) = Cert.Attn.V1 (m ((c : Thread nD τ).loc main_arg3)) := by
    funext h; rw [iblk_4_eq m c t, V_main_v2_apply m c 0 h]; rfl
  have e6 : (fun h : Fin 1024 => (iblk m c 5 t : S1x1024.Idx → EReal) (ix2 (0 : Fin 1) h)) = Cert.Attn.V1 (m ((c : Thread nD τ).loc main_arg4)) := by
    funext h; rw [iblk_5_eq m c t, V_main_v3_apply m c 0 h]; rfl
  have e7 : (fun h : Fin 1024 => (iblk m c 6 t : S1x1024.Idx → EReal) (ix2 (0 : Fin 1) h)) = Cert.Attn.V1 (m ((c : Thread nD τ).loc main_arg5)) := by
    funext h; rw [iblk_6_eq m c t, V_main_v4_apply m c 0 h]; rfl
  show Cert.Attn.lnRow (Cert.Attn.matRow (fun d => (iblk m c 0 t : S1x1024x1024.Idx → EReal) (ix3 0 r d))
      (fun d => Ideal.div (((scrAt m c t.val t.isLt).2.2 : S1024x1024.Idx → EReal) (ix2 r d)) (((scrAt m c t.val t.isLt).2.1 : S1024x1.Idx → EReal) (ix2 r 0)))
      (fun d h => (wUp (iblk m c 3 t : S2048x1024.Idx → EReal) : S1024x1024.Idx → EReal) (ix2 d h))
      (fun d h => (wLo (iblk m c 3 t : S2048x1024.Idx → EReal) : S1024x1024.Idx → EReal) (ix2 d h))
      (fun h => (iblk m c 4 t : S1x1024.Idx → EReal) (ix2 (0 : Fin 1) h)))
      (fun h => (iblk m c 5 t : S1x1024.Idx → EReal) (ix2 (0 : Fin 1) h)) (fun h => (iblk m c 6 t : S1x1024.Idx → EReal) (ix2 (0 : Fin 1) h)) h = _
  rw [e1, e2, e3, e4, e5, e6, e7]

/-- Every write-back writes the specification's block. -/
theorem flushed_eq (hpre : Cert.Pre_KernelIdeal m) (c : Dev nD) (t : Fin cfg0.N) (hf : (cfg0.win 7).flush t = true) :
    (dats m 0 c).flushed 7 t = ((cfg0.win 7).blk t).view.read (Elt Ideal) (specOut m c) := by
  have h3 : t.val % 4 = 3 := (flush0_7 t).mp hf
  show (cfg0.win 7).cut (grid0.coords t) ((dats m 0 c).after 7 t) = _
  rw [after_7]
  refine funext (fun (y : S1x1024x1024.Idx) => ?_)
  have hy : y = ix3 (0 : Fin 1) (y 1) (y 2) := by
    funext a
    match a with
    | ⟨0, _⟩ => exact Subsingleton.elim (α := Fin 1) _ _
    | ⟨1, _⟩ => rfl
    | ⟨2, _⟩ => rfl
  generalize (y 1 : Fin 1024) = r at hy
  generalize (y 2 : Fin 1024) = h at hy
  subst hy
  show ((outsAt m c t.val t.isLt).1 : S1x1024x1024.Idx → EReal) (ix3 (0 : Fin 1) r h) = (((cfg0.win 7).blk t).view.read (Elt Ideal) (specOut m c) : S1x1024x1024.Idx → EReal) (ix3 (0 : Fin 1) r h)
  rw [out_tile m hpre c t h3 r h, oblk_read_apply (F := Ideal) (specOut m c) t r h]
  rfl

/-- The result array ends at the specification. -/
theorem final (hpre : Cert.Pre_KernelIdeal m) (c : Dev nD) : (dats m 0 c).arrAt 7 cfg0.N = specOut m c :=
  (dats m 0 c).arrAt_eq_of_cover 7 (specOut m c) (flushed_eq m hpre c) cover_7

/-- The idealized kernel's run: the result array at the specification, the arguments unchanged. -/
theorem run_value (hpre : Cert.Pre_KernelIdeal m) :
    θ_run defs (onTc (τ := τ) (main (F := Ideal))) ⟨m, fun _ => 0, ρ⟩ (fun r => ∀ c : Dev nD,
      r.2.mem ((c.tc : Thread nD τ).loc main_v5) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 7).trans (final m hpre c),
    ((h c).2 main_arg0 (Pipeline.mem_restRefs_of _ rfl (by decide))).trans (V_main_arg0 m c),
    ((h c).1 2).trans (((dats m 0 c).arrAt_in 2 rfl _).trans ((A_eq m c 2).trans (V_main_arg1 m c))),
    ((h c).2 main_arg2 (Pipeline.mem_restRefs_of _ rfl (by decide))).trans (V_main_arg2 m c),
    ((h c).2 main_arg3 (Pipeline.mem_restRefs_of _ rfl (by decide))).trans (V_main_arg3 m c),
    ((h c).2 main_arg4 (Pipeline.mem_restRefs_of _ rfl (by decide))).trans (V_main_arg4 m c),
    ((h c).2 main_arg5 (Pipeline.mem_restRefs_of _ rfl (by decide))).trans (V_main_arg5 m c)⟩) (run_main m ρ)

end Cert.KernelIdeal.Hand

end
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.RefStages.lean ====
/-
  The reference program, stage by stage.  Its 64 operations form a straight line in which operation j writes
  exactly the j-th reference of the list `W` and no reference is written twice.  Hence the final contents of each
  written reference are its operation's function of the final contents of its operands, and the final contents of
  an argument are its launch contents.  Going through the line in program order, the final contents of every
  reference are the stage function of the argument arrays; the last one is the program's result.
-/
import proofs.«157672_j2353642078946_2_alg».proof.Proof.RefRunP
import proofs.«157672_j2353642078946_2_alg».proof.Proof.RefReadP
import proofs.«157672_j2353642078946_2_alg».proof.Proof.LibAlignedLines

noncomputable section

namespace Cert.RefValue

open Cert.ReferenceIdeal Cert.ReferenceIdeal.Gen Idealize.ShloMosaic Idealize.ShloMosaic.TcCoe Idealize.SL.Sem
  Idealize.ShloMosaic.StableHlo Idealize.ShloMosaic.StableHlo.AlignedLines

variable {F : FTy → Type} [FloatOps F]

/-- The references the 64 operations write, in program order. -/
def W : List (Ref sig .tc) :=
  [main_cst, main_v0, main_cst_0, main_v1, main_v2, main_v3, main_v4, main_v5, main_cst_1, main_v6, main_v7, main_cst_2,
   main_v8, main_v9, main_v10, main_cst_3, main_v11, main_cst_4, main_v12, main_v13, main_v14, main_v15, main_v16, main_v17,
   main_cst_5, main_v18, main_v19, main_v20, main_v21, main_v22, main_v23, main_v24, main_v25, main_v26, main_v27, main_cst_6,
   main_v28, main_v29, main_cst_7, main_v30, main_v31, main_v32, main_v33, main_v34, main_cst_8, main_v35, main_v36, main_cst_9,
   main_v37, main_v38, main_v39, main_v40, main_cst_10, main_v41, main_v42, main_v43, main_v44, main_v45, main_v46, main_v47,
   main_v48, main_v49, main_v50, main_v51]

/-- Position by position, the operations write exactly the references of `W`. -/
theorem aligned : Aligned (ValueP.ops (F := F)) W := by
  unfold Aligned W
  repeat (first | exact List.Forall₂.nil | refine List.Forall₂.cons rfl ?_)

/-- The final contents of a reference, from the contents `V` at the start. -/
def Fn (V : Valuation τ sig (Elt F)) (b : Ref sig .tc) : b.ty.Contents (Elt F) :=
  after ValueP.ops V (Proc.devRef .tc b)

/-- The six arguments' contents at the start. -/
def arg0 (V : Valuation τ sig (Elt F)) : (⟨S8x2048x1024, .f32⟩ : BufTy).Contents (Elt F) := V (Proc.devRef .tc main_arg0)
def arg1 (V : Valuation τ sig (Elt F)) : (⟨S8x2048x2048, .f32⟩ : BufTy).Contents (Elt F) := V (Proc.devRef .tc main_arg1)
def arg2 (V : Valuation τ sig (Elt F)) : (⟨S2048x1024, .f32⟩ : BufTy).Contents (Elt F) := V (Proc.devRef .tc main_arg2)
def arg3 (V : Valuation τ sig (Elt F)) : (⟨S1024, .f32⟩ : BufTy).Contents (Elt F) := V (Proc.devRef .tc main_arg3)
def arg4 (V : Valuation τ sig (Elt F)) : (⟨S1024, .f32⟩ : BufTy).Contents (Elt F) := V (Proc.devRef .tc main_arg4)
def arg5 (V : Valuation τ sig (Elt F)) : (⟨S1024, .f32⟩ : BufTy).Contents (Elt F) := V (Proc.devRef .tc main_arg5)

variable (V : Valuation τ sig (Elt F))

/-- A constant's final contents are the constant. -/
theorem nul (j : Nat) {y : Ref sig .tc} {v : y.ty.Contents (Elt F)} {hy}
    (hop : (ValueP.ops (F := F))[j]? = some (nullary y v hy)) (hy' : y ∉ W.drop (j + 1)) : Fn V y = v :=
  aligned.nullary_at V j hop hy'

/-- A one-operand operation's final result is its function of its operand's final contents. -/
theorem una (j : Nat) {x y : Ref sig .tc} {f : x.ty.Contents (Elt F) → y.ty.Contents (Elt F)} {hx hy}
    (hop : (ValueP.ops (F := F))[j]? = some (unary x y f hx hy)) (hy' : y ∉ W.drop (j + 1)) (hx' : x ∉ W.drop j) :
    Fn V y = f (Fn V x) :=
  aligned.unary_at V j hop hy' hx'

/-- A two-operand operation's final result is its function of its operands' final contents. -/
theorem bin (j : Nat) {a b y : Ref sig .tc} {f : a.ty.Contents (Elt F) → b.ty.Contents (Elt F) → y.ty.Contents (Elt F)}
    {ha hb hy} (hop : (ValueP.ops (F := F))[j]? = some (binary a b y f ha hb hy)) (hy' : y ∉ W.drop (j + 1))
    (ha' : a ∉ W.drop j) (hb' : b ∉ W.drop j) : Fn V y = f (Fn V a) (Fn V b) :=
  aligned.binary_at V j hop hy' ha' hb'

/-! The arguments keep their contents. -/
theorem e_arg0 : Fn V main_arg0 = arg0 V := aligned.after_of_not_mem V (by decide)
theorem e_arg1 : Fn V main_arg1 = arg1 V := aligned.after_of_not_mem V (by decide)
theorem e_arg2 : Fn V main_arg2 = arg2 V := aligned.after_of_not_mem V (by decide)
theorem e_arg3 : Fn V main_arg3 = arg3 V := aligned.after_of_not_mem V (by decide)
theorem e_arg4 : Fn V main_arg4 = arg4 V := aligned.after_of_not_mem V (by decide)
theorem e_arg5 : Fn V main_arg5 = arg5 V := aligned.after_of_not_mem V (by decide)

/-! The stages, in program order. -/
theorem e_cst : Fn V main_cst = ReadP.val_main_cst := nul V 0 rfl (by decide)
theorem e_v0 : Fn V main_v0 = ReadP.val_main_v0 := by
  rw [una V 1 rfl (by decide) (by decide), e_cst]; rfl
theorem e_cst_0 : Fn V main_cst_0 = ReadP.val_main_cst_0 := nul V 2 rfl (by decide)
theorem e_v1 : Fn V main_v1 = ReadP.val_main_v1 := by
  rw [bin V 3 rfl (by decide) (by decide) (by decide), e_cst_0, e_v0]; rfl
theorem e_v2 : Fn V main_v2 = ReadP.val_main_v2 (arg0 V) := by
  rw [bin V 4 rfl (by decide) (by decide) (by decide), e_arg0]; rfl
theorem e_v3 : Fn V main_v3 = ReadP.val_main_v3 := by
  rw [una V 5 rfl (by decide) (by decide), e_v1]; rfl
theorem e_v4 : Fn V main_v4 = ReadP.val_main_v4 (arg0 V) := by
  rw [bin V 6 rfl (by decide) (by decide) (by decide), e_v2, e_v3]; rfl
theorem e_v5 : Fn V main_v5 = ReadP.val_main_v5 (arg0 V) (arg1 V) := by
  rw [bin V 7 rfl (by decide) (by decide) (by decide), e_v4, e_arg1]; rfl
theorem e_cst_1 : Fn V main_cst_1 = ReadP.val_main_cst_1 := nul V 8 rfl (by decide)
theorem e_v6 : Fn V main_v6 = ReadP.val_main_v6 := by
  rw [una V 9 rfl (by decide) (by decide), e_cst_1]; rfl
theorem e_v7 : Fn V main_v7 = ReadP.val_main_v7 (arg1 V) := by
  rw [bin V 10 rfl (by decide) (by decide) (by decide), e_v6, e_arg1]; rfl
theorem e_cst_2 : Fn V main_cst_2 = ReadP.val_main_cst_2 := nul V 11 rfl (by decide)
theorem e_v8 : Fn V main_v8 = ReadP.val_main_v8 := by
  rw [una V 12 rfl (by decide) (by decide), e_cst_2]; rfl
theorem e_v9 : Fn V main_v9 = ReadP.val_main_v9 (arg1 V) := by
  rw [bin V 13 rfl (by decide) (by decide) (by decide), e_v8, e_v7]; rfl
theorem e_v10 : Fn V main_v10 = ReadP.val_main_v10 (arg0 V) (arg1 V) := by
  rw [bin V 14 rfl (by decide) (by decide) (by decide), e_v5, e_v9]; rfl
theorem e_cst_3 : Fn V main_cst_3 = ReadP.val_main_cst_3 := nul V 15 rfl (by decide)
theorem e_v11 : Fn V main_v11 = ReadP.val_main_v11 (arg0 V) (arg1 V) := by
  rw [bin V 16 rfl (by decide) (by decide) (by decide), e_v10, e_cst_3]; rfl
theorem e_cst_4 : Fn V main_cst_4 = ReadP.val_main_cst_4 := nul V 17 rfl (by decide)
theorem e_v12 : Fn V main_v12 = ReadP.val_main_v12 := by
  rw [una V 18 rfl (by decide) (by decide), e_cst_4]; rfl
theorem e_v13 : Fn V main_v13 = ReadP.val_main_v13 (arg0 V) (arg1 V) := by
  rw [bin V 19 rfl (by decide) (by decide) (by decide), e_v12, e_v11]; rfl
theorem e_v14 : Fn V main_v14 = ReadP.val_main_v14 (arg0 V) (arg1 V) := by
  rw [una V 20 rfl (by decide) (by decide), e_v13]; rfl
theorem e_v15 : Fn V main_v15 = ReadP.val_main_v15 (arg0 V) (arg1 V) := by
  rw [una V 21 rfl (by decide) (by decide), e_v14]; rfl
theorem e_v16 : Fn V main_v16 = ReadP.val_main_v16 (arg0 V) (arg1 V) := by
  rw [bin V 22 rfl (by decide) (by decide) (by decide), e_v10, e_v15]; rfl
theorem e_v17 : Fn V main_v17 = ReadP.val_main_v17 (arg0 V) (arg1 V) := by
  rw [una V 23 rfl (by decide) (by decide), e_v16]; rfl
theorem e_cst_5 : Fn V main_cst_5 = ReadP.val_main_cst_5 := nul V 24 rfl (by decide)
theorem e_v18 : Fn V main_v18 = ReadP.val_main_v18 (arg0 V) (arg1 V) := by
  rw [bin V 25 rfl (by decide) (by decide) (by decide), e_v17, e_cst_5]; rfl
theorem e_v19 : Fn V main_v19 = ReadP.val_main_v19 (arg0 V) (arg1 V) := by
  rw [una V 26 rfl (by decide) (by decide), e_v18]; rfl
theorem e_v20 : Fn V main_v20 = ReadP.val_main_v20 (arg0 V) (arg1 V) := by
  rw [una V 27 rfl (by decide) (by decide), e_v19]; rfl
theorem e_v21 : Fn V main_v21 = ReadP.val_main_v21 (arg0 V) (arg1 V) := by
  rw [bin V 28 rfl (by decide) (by decide) (by decide), e_v17, e_v20]; rfl
theorem e_v22 : Fn V main_v22 = ReadP.val_main_v22 (arg0 V) (arg1 V) := by
  rw [bin V 29 rfl (by decide) (by decide) (by decide), e_v21, e_arg0]; rfl
theorem e_v23 : Fn V main_v23 = ReadP.val_main_v23 (arg0 V) (arg1 V) := by
  rw [bin V 30 rfl (by decide) (by decide) (by decide), e_arg0, e_v22]; rfl
theorem e_v24 : Fn V main_v24 = ReadP.val_main_v24 (arg0 V) (arg1 V) (arg2 V) := by
  rw [bin V 31 rfl (by decide) (by decide) (by decide), e_v23, e_arg2]; rfl
theorem e_v25 : Fn V main_v25 = ReadP.val_main_v25 (arg3 V) := by
  rw [una V 32 rfl (by decide) (by decide), e_arg3]; rfl
theorem e_v26 : Fn V main_v26 = ReadP.val_main_v26 (arg3 V) := by
  rw [una V 33 rfl (by decide) (by decide), e_v25]; rfl
theorem e_v27 : Fn V main_v27 = ReadP.val_main_v27 (arg0 V) (arg1 V) (arg2 V) (arg3 V) := by
  rw [bin V 34 rfl (by decide) (by decide) (by decide), e_v24, e_v26]; rfl
theorem e_cst_6 : Fn V main_cst_6 = ReadP.val_main_cst_6 := nul V 35 rfl (by decide)
theorem e_v28 : Fn V main_v28 = ReadP.val_main_v28 (arg0 V) (arg1 V) (arg2 V) (arg3 V) := by
  rw [bin V 36 rfl (by decide) (by decide) (by decide), e_v27, e_cst_6]; rfl
theorem e_v29 : Fn V main_v29 = ReadP.val_main_v29 (arg0 V) (arg1 V) (arg2 V) (arg3 V) := by
  rw [una V 37 rfl (by decide) (by decide), e_v28]; rfl
theorem e_cst_7 : Fn V main_cst_7 = ReadP.val_main_cst_7 := nul V 38 rfl (by decide)
theorem e_v30 : Fn V main_v30 = ReadP.val_main_v30 := by
  rw [una V 39 rfl (by decide) (by decide), e_cst_7]; rfl
theorem e_v31 : Fn V main_v31 = ReadP.val_main_v31 (arg0 V) (arg1 V) (arg2 V) (arg3 V) := by
  rw [bin V 40 rfl (by decide) (by decide) (by decide), e_v29, e_v30]; rfl
theorem e_v32 : Fn V main_v32 = ReadP.val_main_v32 (arg0 V) (arg1 V) (arg2 V) (arg3 V) := by
  rw [una V 41 rfl (by decide) (by decide), e_v31]; rfl
theorem e_v33 : Fn V main_v33 = ReadP.val_main_v33 (arg0 V) (arg1 V) (arg2 V) (arg3 V) := by
  rw [bin V 42 rfl (by decide) (by decide) (by decide), e_v27, e_v32]; rfl
theorem e_v34 : Fn V main_v34 = ReadP.val_main_v34 (arg0 V) (arg1 V) (arg2 V) (arg3 V) := by
  rw [bin V 43 rfl (by decide) (by decide) (by decide), e_v33]; rfl
theorem e_cst_8 : Fn V main_cst_8 = ReadP.val_main_cst_8 := nul V 44 rfl (by decide)
theorem e_v35 : Fn V main_v35 = ReadP.val_main_v35 (arg0 V) (arg1 V) (arg2 V) (arg3 V) := by
  rw [bin V 45 rfl (by decide) (by decide) (by decide), e_v34, e_cst_8]; rfl
theorem e_v36 : Fn V main_v36 = ReadP.val_main_v36 (arg0 V) (arg1 V) (arg2 V) (arg3 V) := by
  rw [una V 46 rfl (by decide) (by decide), e_v35]; rfl
theorem e_cst_9 : Fn V main_cst_9 = ReadP.val_main_cst_9 := nul V 47 rfl (by decide)
theorem e_v37 : Fn V main_v37 = ReadP.val_main_v37 := by
  rw [una V 48 rfl (by decide) (by decide), e_cst_9]; rfl
theorem e_v38 : Fn V main_v38 = ReadP.val_main_v38 (arg0 V) (arg1 V) (arg2 V) (arg3 V) := by
  rw [bin V 49 rfl (by decide) (by decide) (by decide), e_v36, e_v37]; rfl
theorem e_v39 : Fn V main_v39 = ReadP.val_main_v39 (arg0 V) (arg1 V) (arg2 V) (arg3 V) := by
  rw [una V 50 rfl (by decide) (by decide), e_v31]; rfl
theorem e_v40 : Fn V main_v40 = ReadP.val_main_v40 (arg0 V) (arg1 V) (arg2 V) (arg3 V) := by
  rw [bin V 51 rfl (by decide) (by decide) (by decide), e_v27, e_v39]; rfl
theorem e_cst_10 : Fn V main_cst_10 = ReadP.val_main_cst_10 := nul V 52 rfl (by decide)
theorem e_v41 : Fn V main_v41 = ReadP.val_main_v41 := by
  rw [una V 53 rfl (by decide) (by decide), e_cst_10]; rfl
theorem e_v42 : Fn V main_v42 = ReadP.val_main_v42 (arg0 V) (arg1 V) (arg2 V) (arg3 V) := by
  rw [bin V 54 rfl (by decide) (by decide) (by decide), e_v38, e_v41]; rfl
theorem e_v43 : Fn V main_v43 = ReadP.val_main_v43 (arg0 V) (arg1 V) (arg2 V) (arg3 V) := by
  rw [una V 55 rfl (by decide) (by decide), e_v42]; rfl
theorem e_v44 : Fn V main_v44 = ReadP.val_main_v44 (arg0 V) (arg1 V) (arg2 V) (arg3 V) := by
  rw [una V 56 rfl (by decide) (by decide), e_v43]; rfl
theorem e_v45 : Fn V main_v45 = ReadP.val_main_v45 (arg0 V) (arg1 V) (arg2 V) (arg3 V) := by
  rw [bin V 57 rfl (by decide) (by decide) (by decide), e_v40, e_v44]; rfl
theorem e_v46 : Fn V main_v46 = ReadP.val_main_v46 (arg4 V) := by
  rw [una V 58 rfl (by decide) (by decide), e_arg4]; rfl
theorem e_v47 : Fn V main_v47 = ReadP.val_main_v47 (arg4 V) := by
  rw [una V 59 rfl (by decide) (by decide), e_v46]; rfl
theorem e_v48 : Fn V main_v48 = ReadP.val_main_v48 (arg0 V) (arg1 V) (arg2 V) (arg3 V) (arg4 V) := by
  rw [bin V 60 rfl (by decide) (by decide) (by decide), e_v45, e_v47]; rfl
theorem e_v49 : Fn V main_v49 = ReadP.val_main_v49 (arg5 V) := by
  rw [una V 61 rfl (by decide) (by decide), e_arg5]; rfl
theorem e_v50 : Fn V main_v50 = ReadP.val_main_v50 (arg5 V) := by
  rw [una V 62 rfl (by decide) (by decide), e_v49]; rfl
theorem e_v51 : Fn V main_v51 = ReadP.val_main_v51 (arg0 V) (arg1 V) (arg2 V) (arg3 V) (arg4 V) (arg5 V) := by
  rw [bin V 63 rfl (by decide) (by decide) (by decide), e_v48, e_v50]; rfl

/-- The result reference's final contents on a device are the last stage's function of the six argument arrays' launch
    contents. -/
theorem after_eq_val (m : (ℓ : Loc nD τ sig) → Buf (Elt F) ℓ) (c : Dev nD) :
    after ValueP.ops (launchContents m c) (Proc.devRef .tc main_v51)
      = ReadP.val_main_v51 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  e_v51 (launchContents m c)

end Cert.RefValue

end
-- ==== Proof.RefValue.lean ====
/-
  The reference's stages are the specification's functions, coordinate by coordinate, on the extended reals.

  Bottom up: the first contraction is the raw score; scaling, masking and subtracting the large constant times one minus
  the mask give the logit; the maximum over the key axis from minus infinity, joined once more with minus infinity, is
  the row's maximum; the exponential of the difference, its sum over the key axis from zero, and the quotient are the
  softmax; the second contraction is the context.  The third contraction runs over the joined axis of length 2048 of
  the input's row and the context side by side: its sum splits at 1024 into the two sums of the specification.  The mean,
  the deviation, the variance, the reciprocal square root, the gain and the shift are read the same way.
-/
import proofs.«157672_j2353642078946_2_alg».proof.Proof.Spec
import proofs.«157672_j2353642078946_2_alg».proof.Proof.RefReadP

noncomputable section

namespace Cert.RefValue

open Cert.ReferenceIdeal Cert.ReferenceIdeal.Gen Cert.ReferenceIdeal.ReadP Idealize.ShloMosaic Idealize.ShloMosaic.ValueIdx

variable (x0 : (⟨S8x2048x1024, .f32⟩ : BufTy).Contents (Elt Ideal)) (x1 : (⟨S8x2048x2048, .f32⟩ : BufTy).Contents (Elt Ideal))
  (x2 : (⟨S2048x1024, .f32⟩ : BufTy).Contents (Elt Ideal)) (x3 x4 x5 : (⟨S1024, .f32⟩ : BufTy).Contents (Elt Ideal))

/-! ## The stages' index functions at coordinates -/

theorem lidx2 (b : Fin 8) (s t : Fin 2048) (k : Fin 1024) : lidx_main_v2 (ix3 b s t) k = ix3 b s k :=
  funext fun a => by match a with | ⟨0, _⟩ => rfl | ⟨1, _⟩ => rfl | ⟨2, _⟩ => rfl
theorem ridx2 (b : Fin 8) (s t : Fin 2048) (k : Fin 1024) : ridx_main_v2 (ix3 b s t) k = ix3 b t k :=
  funext fun a => by match a with | ⟨0, _⟩ => rfl | ⟨1, _⟩ => rfl | ⟨2, _⟩ => rfl
theorem idx14_15 (b : Fin 8) (s t : Fin 2048) : idx_main_v14 (idx_main_v15 (ix3 b s t)) = ix2 b s :=
  funext fun a => by match a with | ⟨0, _⟩ => rfl | ⟨1, _⟩ => rfl
theorem idx18 (b : Fin 8) (s k : Fin 2048) : idx_main_v18 (ix2 b s) k = ix3 b s k :=
  funext fun a => by match a with | ⟨0, _⟩ => rfl | ⟨1, _⟩ => rfl | ⟨2, _⟩ => rfl

/-! ## The softmax -/

/-- The first contraction is the raw score. -/
theorem raw_eq (b : Fin 8) (s t : Fin 2048) :
    val_main_v2 (F := Ideal) x0 (ix3 b s t) = Attn.raw (Attn.X3 x0) b s t := by
  rw [val_main_v2_apply]
  exact Finset.sum_congr rfl fun k _ => by rw [lidx2, ridx2]; rfl

/-- Scaled, masked, less the large constant times one minus the mask: the logit. -/
theorem logit_eq (b : Fin 8) (s t : Fin 2048) :
    val_main_v10 (F := Ideal) x0 x1 (ix3 b s t) = Attn.logit (Attn.X3 x0) (Attn.M3 x1) b s t := by
  rw [val_main_v10_apply, val_main_v5_apply, val_main_v4_apply, val_main_v9_apply, val_main_v7_apply, val_main_v3_apply,
    val_main_v1_apply, val_main_v0_apply, val_main_cst_apply, val_main_cst_0_apply, val_main_v6_apply, val_main_cst_1_apply,
    val_main_v8_apply, val_main_cst_2_apply, raw_eq]
  rfl

/-- The key axis dropped from an [8, 2048, 2048] array. -/
theorem reduces_keys : S8x2048x2048.Reduces [2] S8x2048 := by decide

/-- Minus infinity, as the program writes it. -/
theorem ofBits_neg_inf : Ideal.ofBits .f32 0xFF800000#32 = (⊥ : EReal) := by simp [Ideal.ofBits, Ideal.ieee]

/-- The maximum over the key axis from minus infinity, joined with minus infinity: the row's maximum. -/
theorem rowMax_eq (b : Fin 8) (s : Fin 2048) :
    val_main_v13 (F := Ideal) x0 x1 (ix2 b s) = Attn.rowMax (Attn.X3 x0) (Attn.M3 x1) b s := by
  rw [val_main_v13_apply, val_main_v12_apply, val_main_cst_4_apply]
  unfold val_main_v11
  rw [Host.reduce_eq_fold_single FloatOps.maximumf _ _ reducesTo_S8x2048x2048_S8x2048_d2 reduces_keys h_S_ (ix2 b s),
    val_main_cst_3_apply]
  have hl : (val_main_v10 (F := Ideal) x0 x1 ∘ reduces_keys.lift (ix2 b s))
      = fun t : Fin 2048 => Attn.logit (Attn.X3 x0) (Attn.M3 x1) b s t := by
    refine funext fun (t : Fin 2048) => ?_
    have e : reduces_keys.lift (ix2 b s) t = ix3 b s t :=
      funext fun a => Fin.ext (by match a with | ⟨0, _⟩ => rfl | ⟨1, _⟩ => rfl | ⟨2, _⟩ => rfl)
    show val_main_v10 (F := Ideal) x0 x1 (reduces_keys.lift (ix2 b s) t) = _
    rw [e, logit_eq]
  rw [hl]
  show max (Ideal.ofBits .f32 0xFF800000#32) (Finset.univ.fold max (Ideal.ofBits .f32 0xFF800000#32) _) = _
  rw [ofBits_neg_inf]
  exact max_eq_right bot_le

/-- The exponential of the logit less the row's maximum. -/
theorem ex_eq (b : Fin 8) (s t : Fin 2048) :
    val_main_v17 (F := Ideal) x0 x1 (ix3 b s t) = Attn.ex (Attn.X3 x0) (Attn.M3 x1) b s t := by
  rw [val_main_v17_apply, val_main_v16_apply, val_main_v15_apply, val_main_v14_apply, idx14_15, logit_eq, rowMax_eq]
  rfl

/-- The sum of the exponentials over the key axis, from zero. -/
theorem den_eq (b : Fin 8) (s : Fin 2048) :
    val_main_v18 (F := Ideal) x0 x1 (ix2 b s) = Attn.den (Attn.X3 x0) (Attn.M3 x1) b s := by
  rw [val_main_v18_apply, val_main_cst_5_apply,
    show FloatOps.ofBits (F := Ideal) .f32 0x00000000#32 = (0 : EReal) from Ideal.ofBits_zero_f32, zero_add]
  exact Finset.sum_congr rfl fun k _ => by rw [idx18, ex_eq]

theorem idx19_20 (b : Fin 8) (s t : Fin 2048) : idx_main_v19 (idx_main_v20 (ix3 b s t)) = ix2 b s :=
  funext fun a => by match a with | ⟨0, _⟩ => rfl | ⟨1, _⟩ => rfl
theorem lidx22 (b : Fin 8) (s : Fin 2048) (h : Fin 1024) (k : Fin 2048) : lidx_main_v22 (ix3 b s h) k = ix3 b s k :=
  funext fun a => by match a with | ⟨0, _⟩ => rfl | ⟨1, _⟩ => rfl | ⟨2, _⟩ => rfl
theorem ridx22 (b : Fin 8) (s : Fin 2048) (h : Fin 1024) (k : Fin 2048) : ridx_main_v22 (ix3 b s h) k = ix3 b k h :=
  funext fun a => by match a with | ⟨0, _⟩ => rfl | ⟨1, _⟩ => rfl | ⟨2, _⟩ => rfl

/-- The exponential over the sum: the probability. -/
theorem prob_eq (b : Fin 8) (s t : Fin 2048) :
    val_main_v21 (F := Ideal) x0 x1 (ix3 b s t) = Attn.prob (Attn.X3 x0) (Attn.M3 x1) b s t := by
  rw [val_main_v21_apply, val_main_v20_apply, val_main_v19_apply, idx19_20, ex_eq, den_eq]
  rfl

/-- The second contraction: the probabilities' combination of the input's rows. -/
theorem ctx_eq (b : Fin 8) (s : Fin 2048) (h : Fin 1024) :
    val_main_v22 (F := Ideal) x0 x1 (ix3 b s h) = Attn.ctx (Attn.X3 x0) (Attn.M3 x1) b s h := by
  rw [val_main_v22_apply]
  exact Finset.sum_congr rfl fun k _ => by rw [lidx22, ridx22, prob_eq]; rfl

/-! ## The matching vector -/

/-- The input's row and the context side by side, read in the first half: the input's row. -/
theorem cat_left (b : Fin 8) (s : Fin 2048) (k : Fin 1024) :
    val_main_v23 (F := Ideal) x0 x1 (ix3 b s (⟨k.val, by omega⟩ : Fin 2048)) = x0 (ix3 b s k) := by
  unfold val_main_v23
  generalize val_main_v22 (F := Ideal) x0 x1 = y
  exact concatenate_pair_apply_left _ x0 y concatenates_S8x2048x1024_S8x2048x1024_S8x2048x2048_d2 _ rfl (ix3 b s k)
    (fun c => match c with | ⟨0, _⟩ => rfl | ⟨1, _⟩ => rfl | ⟨2, _⟩ => rfl)

/-- … and in the second half: the context. -/
theorem cat_right (b : Fin 8) (s : Fin 2048) (k : Fin 1024) :
    val_main_v23 (F := Ideal) x0 x1 (ix3 b s (⟨1024 + k.val, by omega⟩ : Fin 2048))
      = val_main_v22 (F := Ideal) x0 x1 (ix3 b s k) := by
  unfold val_main_v23
  generalize val_main_v22 (F := Ideal) x0 x1 = y
  exact concatenate_pair_apply_right _ x0 y concatenates_S8x2048x1024_S8x2048x1024_S8x2048x2048_d2 _ rfl rfl (ix3 b s k)
    (fun c hc => match c, hc with | ⟨0, _⟩, _ => rfl | ⟨1, _⟩, _ => rfl | ⟨2, _⟩, hc => absurd rfl hc)
    (by show k.val + 1024 = 1024 + k.val; omega)

theorem lidx24 (b : Fin 8) (s : Fin 2048) (h : Fin 1024) (k : Fin 2048) : lidx_main_v24 (ix3 b s h) k = ix3 b s k :=
  funext fun a => by match a with | ⟨0, _⟩ => rfl | ⟨1, _⟩ => rfl | ⟨2, _⟩ => rfl
theorem ridx24 (b : Fin 8) (s : Fin 2048) (h : Fin 1024) (k : Fin 2048) : ridx_main_v24 (ix3 b s h) k = ix2 k h :=
  funext fun a => by match a with | ⟨0, _⟩ => rfl | ⟨1, _⟩ => rfl
theorem idx25_26 (b : Fin 8) (s : Fin 2048) (h : Fin 1024) : idx_main_v25 (idx_main_v26 (ix3 b s h)) = ix1 h :=
  funext fun a => by match a with | ⟨0, _⟩ => rfl

/-- A sum over 2048 coordinates is the sum over the first 1024 plus the sum over the last 1024. -/
theorem sum_split (f : Fin 2048 → EReal) :
    ∑ k : Fin 2048, f k
      = (∑ k : Fin 1024, f ⟨k.val, by omega⟩) + ∑ k : Fin 1024, f ⟨1024 + k.val, by omega⟩ :=
  Fin.sum_univ_add (a := 1024) (b := 1024) f

/-- The third contraction, over the joined axis, plus the bias: the matching vector. -/
theorem mat_eq (b : Fin 8) (s : Fin 2048) (h : Fin 1024) :
    val_main_v27 (F := Ideal) x0 x1 x2 x3 (ix3 b s h)
      = Attn.mat (Attn.X3 x0) (Attn.M3 x1) (Attn.W2 x2) (Attn.V1 x3) b s h := by
  rw [val_main_v27_apply, val_main_v26_apply, val_main_v25_apply, idx25_26, val_main_v24_apply, sum_split]
  unfold Attn.mat
  show (_ + _) + _ = _
  refine congrArg₂ (· + ·) (congrArg₂ (· + ·) (Finset.sum_congr rfl fun k _ => ?_) (Finset.sum_congr rfl fun k _ => ?_)) rfl
  · rw [lidx24, ridx24, cat_left]; rfl
  · rw [lidx24, ridx24, cat_right, ctx_eq]; rfl

/-! ## The layer norm -/

theorem idx29 (b : Fin 8) (s : Fin 2048) (z : Fin 1) : idx_main_v29 (ix3 b s z) = ix2 b s :=
  funext fun a => by match a with | ⟨0, _⟩ => rfl | ⟨1, _⟩ => rfl
theorem idx28 (b : Fin 8) (s : Fin 2048) (k : Fin 1024) : idx_main_v28 (ix2 b s) k = ix3 b s k :=
  funext fun a => by match a with | ⟨0, _⟩ => rfl | ⟨1, _⟩ => rfl | ⟨2, _⟩ => rfl
theorem idx32 (b : Fin 8) (s : Fin 2048) (h : Fin 1024) : idx_main_v32 (ix3 b s h) = ix3 b s (0 : Fin 1) :=
  funext fun a => by match a with | ⟨0, _⟩ => rfl | ⟨1, _⟩ => rfl | ⟨2, _⟩ => rfl
theorem idx39 (b : Fin 8) (s : Fin 2048) (h : Fin 1024) : idx_main_v39 (ix3 b s h) = ix3 b s (0 : Fin 1) :=
  funext fun a => by match a with | ⟨0, _⟩ => rfl | ⟨1, _⟩ => rfl | ⟨2, _⟩ => rfl
theorem idx44 (b : Fin 8) (s : Fin 2048) (h : Fin 1024) : idx_main_v44 (ix3 b s h) = ix3 b s (0 : Fin 1) :=
  funext fun a => by match a with | ⟨0, _⟩ => rfl | ⟨1, _⟩ => rfl | ⟨2, _⟩ => rfl
theorem idx36 (b : Fin 8) (s : Fin 2048) (z : Fin 1) : idx_main_v36 (ix3 b s z) = ix2 b s :=
  funext fun a => by match a with | ⟨0, _⟩ => rfl | ⟨1, _⟩ => rfl
theorem idx35 (b : Fin 8) (s : Fin 2048) (k : Fin 1024) : idx_main_v35 (ix2 b s) k = ix3 b s k :=
  funext fun a => by match a with | ⟨0, _⟩ => rfl | ⟨1, _⟩ => rfl | ⟨2, _⟩ => rfl
theorem idx46_47 (b : Fin 8) (s : Fin 2048) (h : Fin 1024) : idx_main_v46 (idx_main_v47 (ix3 b s h)) = ix1 h :=
  funext fun a => by match a with | ⟨0, _⟩ => rfl
theorem idx49_50 (b : Fin 8) (s : Fin 2048) (h : Fin 1024) : idx_main_v49 (idx_main_v50 (ix3 b s h)) = ix1 h :=
  funext fun a => by match a with | ⟨0, _⟩ => rfl

/-- The sum along the features, from zero, over 1024: the mean. -/
theorem mu_eq (b : Fin 8) (s : Fin 2048) (z : Fin 1) :
    val_main_v31 (F := Ideal) x0 x1 x2 x3 (ix3 b s z)
      = Attn.mu (Attn.X3 x0) (Attn.M3 x1) (Attn.W2 x2) (Attn.V1 x3) b s := by
  rw [val_main_v31_apply, val_main_v29_apply, idx29, val_main_v28_apply, val_main_cst_6_apply,
    show FloatOps.ofBits (F := Ideal) .f32 0x00000000#32 = (0 : EReal) from Ideal.ofBits_zero_f32, zero_add,
    val_main_v30_apply, val_main_cst_7_apply]
  unfold Attn.mu
  show Ideal.div _ _ = _
  exact congrArg₂ Ideal.div (Finset.sum_congr rfl fun k _ => by rw [idx28, mat_eq]) rfl

/-- The matching vector less its mean: the deviation (the program forms it twice). -/
theorem dev_eq (b : Fin 8) (s : Fin 2048) (h : Fin 1024) :
    val_main_v33 (F := Ideal) x0 x1 x2 x3 (ix3 b s h)
      = Attn.dev (Attn.X3 x0) (Attn.M3 x1) (Attn.W2 x2) (Attn.V1 x3) b s h := by
  rw [val_main_v33_apply, val_main_v32_apply, idx32, mat_eq, mu_eq]
  rfl
theorem dev_eq' (b : Fin 8) (s : Fin 2048) (h : Fin 1024) :
    val_main_v40 (F := Ideal) x0 x1 x2 x3 (ix3 b s h)
      = Attn.dev (Attn.X3 x0) (Attn.M3 x1) (Attn.W2 x2) (Attn.V1 x3) b s h := by
  rw [val_main_v40_apply, val_main_v39_apply, idx39, mat_eq, mu_eq]
  rfl

/-- The sum of the squared deviations, from zero, over 1024: the variance. -/
theorem var_eq (b : Fin 8) (s : Fin 2048) (z : Fin 1) :
    val_main_v38 (F := Ideal) x0 x1 x2 x3 (ix3 b s z)
      = Attn.var (Attn.X3 x0) (Attn.M3 x1) (Attn.W2 x2) (Attn.V1 x3) b s := by
  rw [val_main_v38_apply, val_main_v36_apply, idx36, val_main_v35_apply, val_main_cst_8_apply,
    show FloatOps.ofBits (F := Ideal) .f32 0x00000000#32 = (0 : EReal) from Ideal.ofBits_zero_f32, zero_add,
    val_main_v37_apply, val_main_cst_9_apply]
  unfold Attn.var
  show Ideal.div _ _ = _
  exact congrArg₂ Ideal.div (Finset.sum_congr rfl fun k _ => by rw [val_main_v34_apply, idx35, dev_eq]; rfl) rfl

/-- The deviation times the reciprocal square root of the variance plus the small constant, times the gain, plus the
    shift: the output. -/
theorem out_eq (b : Fin 8) (s : Fin 2048) (h : Fin 1024) :
    val_main_v51 (F := Ideal) x0 x1 x2 x3 x4 x5 (ix3 b s h)
      = Attn.out (Attn.X3 x0) (Attn.M3 x1) (Attn.W2 x2) (Attn.V1 x3) (Attn.V1 x4) (Attn.V1 x5) b s h := by
  rw [val_main_v51_apply, val_main_v48_apply, val_main_v45_apply, val_main_v44_apply, idx44, val_main_v43_apply,
    val_main_v42_apply, val_main_v41_apply, val_main_cst_10_apply, val_main_v47_apply, val_main_v46_apply, idx46_47,
    val_main_v50_apply, val_main_v49_apply, idx49_50, dev_eq', var_eq]
  rfl

/-- The reference's result array is the specification's, at every index. -/
theorem val_eq_spec :
    val_main_v51 (F := Ideal) x0 x1 x2 x3 x4 x5 = Attn.outArr x0 x1 x2 x3 x4 x5 := by
  funext i
  obtain ⟨b, s, h, rfl⟩ : ∃ (b : Fin 8) (s : Fin 2048) (h : Fin 1024), i = ix3 b s h := ⟨i 0, i 1, i 2, eq_ix3 i⟩
  rw [out_eq]
  rfl

end Cert.RefValue

end
-- ==== Proof.RefTop.lean ====
/-
  The reference program's run, read as the specification: from any memory with zero counters every execution terminates
  with the result buffer holding, on every device, the specification's array of the six argument arrays as the launch
  found them, and the arguments unchanged.  The run ends at the operations' fold; the fold at the result reference is
  the last stage's function of the arguments; the last stage is the specification.
-/
import proofs.«157672_j2353642078946_2_alg».proof.Proof.RefStages
import proofs.«157672_j2353642078946_2_alg».proof.Proof.RefValue

noncomputable section

namespace Cert.RefValue

open Cert.ReferenceIdeal Cert.ReferenceIdeal.Gen Idealize.ShloMosaic Idealize.ShloMosaic.TcCoe Idealize.SL.Sem
  Idealize.ShloMosaic.StableHlo

/-- Every execution of the reference ends with the specification's array in the result buffer and the arguments kept. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51)
        = Attn.outArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨((h c).1.trans (after_eq_val m c)).trans (val_eq_spec _ _ _ _ _ _), (h c).2⟩)
    (ValueP.run (F := Ideal) m ρ)

end Cert.RefValue

end
-- ==== Proof.lean ====
/-
  The certificate of the fused attention kernel against its jnp reference.

  The kernel is a flash-attention pipeline over (batch, query tile, key/value tile): per query row it keeps a running
  maximum, a running sum and a running accumulator across the four key/value tiles (an online softmax), and in the
  last step divides, multiplies the query row and the context by the two halves of the weight, adds the bias and
  applies a layer norm.  The three frames: the two kernels' by the body run once per control case (first / middle /
  last key/value step) under an invariant that carries the scratch from point to point, launched with the input array
  that is both the query window's and the key/value window's split into two half shares; the reference's by its run as
  a straight line of host operations.  The idealization rewrote nothing.  The value claim: both programs compute the
  function of Proof/Spec.lean, coordinate by coordinate, on the extended reals.
-/
import proofs.«157672_j2353642078946_2_alg».proof.Defs
import proofs.«157672_j2353642078946_2_alg».proof.Proof.K.Frame
import proofs.«157672_j2353642078946_2_alg».proof.Proof.KI.Frame
import proofs.«157672_j2353642078946_2_alg».proof.Proof.RefSide
import proofs.«157672_j2353642078946_2_alg».proof.Proof.KI.Final
import proofs.«157672_j2353642078946_2_alg».proof.Proof.RefTop
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem preserves : Cert.preserves_Kernel_KernelIdeal := trivial

/-- From memories that agree on the arguments both idealized programs end with the specification's array: the kernel's
    by the online softmax read off its frame run, the reference's by its operations read one at a time. -/
theorem algebraic : Cert.algebraic_KernelIdeal_ReferenceIdeal := by
  intro m ρ m' ρ' hpre hagree
  refine ⟨fun c => Cert.KernelIdeal.Hand.specOut m c, Cert.KernelIdeal.Hand.run_value m ρ hpre, ?_⟩
  refine (θ_run Cert.ReferenceIdeal.defs _ _).mono (fun _ h c => ⟨(h c).1.trans ?_, (h c).2⟩) (Cert.RefValue.ref_run m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, preserves, algebraic⟩

end Cert.Proof

end
